-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x32x32 : Shape := ⟨4, ![256, 32, 32, 32]⟩
abbrev S64x32x3x3 : Shape := ⟨4, ![64, 32, 3, 3]⟩
abbrev S64 : Shape := ⟨1, ![64]⟩
abbrev S_ : Shape := ⟨0, ![]⟩

class Facts : Prop where
  bcast_S_S256x32x32x32 : S_.BroadcastsInDim S256x32x32x32 (![] : Fin 0 → Fin S256x32x32x32.rank)
  reducesTo_S256x32x32x32_S_d0_1_2_3 : S256x32x32x32.ReducesTo [0, 1, 2, 3] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x32x3x3 1) : IVec S_ 1 :=
  let main_c_5 : IVec S_ 1 := constantI S_ 1 1#1
  let main_v17 : IVec S_ 1 := (fun x v => Host.reduce IntOp.andi x v reducesTo_S64x32x3x3_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S256x32x32x32 .f32) (main_arg1 : FVec F S64x32x3x3 .f32) (main_arg2 : FVec F S64 .f32) (main_arg3 : FVec F S64x32x3x3 .f32) (main_arg4 : FVec F S64 .f32) : IVec S_ 1 :=
  let main_v0 : FVec F S256x32x32x32 .f32 := Host.absf main_arg0
  let main_cst : FVec F S_ .f32 := constant S_ .f32 0x7F800000#32
  let main_v1 : FVec F S256x32x32x32 .f32 := broadcastInDim S256x32x32x32 ![] bcast_S_S256x32x32x32 main_cst
  let main_v2 : IVec S256x32x32x32 1 := cmpf .olt main_v0 main_v1
  let main_c : IVec S_ 1 := constantI S_ 1 1#1
  let main_v3 : IVec S_ 1 := (fun x v => Host.reduce IntOp.andi x v reducesTo_S256x32x32x32_S_d0_1_2_3 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32x3x3 .f32 := Host.absf main_arg3
  let main_cst_4 : FVec F S_ .f32 := constant S_ .f32 0x7F800000#32
  let main_v15 : FVec F S64x32x3x3 .f32 := broadcastInDim S64x32x3x3 ![] bcast_S_S64x32x3x3 main_cst_4
  let main_v16 : IVec S64x32x3x3 1 := cmpf .olt main_v14 main_v15
  fn_part1 (F := F) main_arg4 main_v13 main_v16
-- ==== Kernel.lean ====
abbrev S256x32x32x32 : Shape := ⟨4, ![256, 32, 32, 32]⟩
abbrev S64x32x3x3 : Shape := ⟨4, ![64, 32, 3, 3]⟩
abbrev S64 : Shape := ⟨1, ![64]⟩
abbrev S32x32x32x256 : Shape := ⟨4, ![32, 32, 32, 256]⟩
abbrev S32x1024x256 : Shape := ⟨3, ![32, 1024, 256]⟩
abbrev S128x32x3x3 : Shape := ⟨4, ![128, 32, 3, 3]⟩
abbrev S3x128x3x32 : Shape := ⟨4, ![3, 128, 3, 32]⟩
abbrev S3x128x96 : Shape := ⟨3, ![3, 128, 96]⟩
abbrev S128 : Shape := ⟨1, ![128]⟩
abbrev S128x1 : Shape := ⟨2, ![128, 1]⟩
abbrev S15x15x64x256 : Shape := ⟨4, ![15, 15, 64, 256]⟩
abbrev S256x64x15x15 : Shape := ⟨4, ![256, 64, 15, 15]⟩
abbrev S6x1024x256 : Shape := ⟨3, ![6, 1024, 256]⟩
abbrev S1x1024x256 : Shape := ⟨3, ![1, 1024, 256]⟩
abbrev S3x15x64x256 : Shape := ⟨4, ![3, 15, 64, 256]⟩
abbrev S1x128x96 : Shape := ⟨3, ![1, 128, 96]⟩
abbrev S128x96 : Shape := ⟨2, ![128, 96]⟩
abbrev S128x256 : Shape := ⟨2, ![128, 256]⟩
abbrev S1x96x256 : Shape := ⟨3, ![1, 96, 256]⟩
abbrev S96x256 : Shape := ⟨2, ![96, 256]⟩
abbrev S64x256 : Shape := ⟨2, ![64, 256]⟩
abbrev S1x1x64x256 : Shape := ⟨4, ![1, 1, 64, 256]⟩

abbrev nBuf : Space → Nat
  | .hbm => 16
  | .vmem => 8
  | .smem => 0
  | _ => 0

abbrev bufTy : (tb : Table) → Fin (tcTables nBuf tb) → BufTy
  | .hbm, ⟨0, _⟩ => ⟨S256x32x32x32, .f32⟩
  | .hbm, ⟨1, _⟩ => ⟨S64x32x3x3, .f32⟩
  | .hbm, ⟨2, _⟩ => ⟨S64, .f32⟩
  | .hbm, ⟨3, _⟩ => ⟨S64x32x3x3, .f32⟩
  | .hbm, ⟨4, _⟩ => ⟨S64, .f32⟩
  | .hbm, ⟨5, _⟩ => ⟨S256x32x32x32, .bf16⟩
  | .hbm, ⟨6, _⟩ => ⟨S32x32x32x256, .bf16⟩
  | .hbm, ⟨7, _⟩ => ⟨S32x1024x256, .bf16⟩
  | .hbm, ⟨8, _⟩ => ⟨S128x32x3x3, .f32⟩
  | .hbm, ⟨9, _⟩ => ⟨S128x32x3x3, .bf16⟩
  | .hbm, ⟨10, _⟩ => ⟨S3x128x3x32, .bf16⟩
  | .hbm, ⟨11, _⟩ => ⟨S3x128x96, .bf16⟩
  | .hbm, ⟨12, _⟩ => ⟨S128, .f32⟩
  | .hbm, ⟨13, _⟩ => ⟨S128x1, .f32⟩
  | .hbm, ⟨14, _⟩ => ⟨S15x15x64x256, .f32⟩
  | .hbm, ⟨15, _⟩ => ⟨S256x64x15x15, .f32⟩
  | .local _ .vmem, ⟨0, _⟩ => ⟨S6x1024x256, .bf16⟩
  | .local _ .vmem, ⟨1, _⟩ => ⟨S6x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S3x128x96, .bf16⟩
  | .local _ .vmem, ⟨5, _⟩ => ⟨S128x1, .f32⟩
  | .local _ .vmem, ⟨6, _⟩ => ⟨S3x15x64x256, .f32⟩
  | .local _ .vmem, ⟨7, _⟩ => ⟨S3x15x64x256, .f32⟩
  | _, _ => ⟨S256x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c6_i32 : BitVec 32 := 6#32
  let v0 : BitVec 32 := Scalar.muli c6_i32 arg0
  let c6_i32_0 : BitVec 32 := 6#32
  let v1 : BitVec 32 := Scalar.addi v0 c6_i32_0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S6x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x15x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S256x32x32x32_S32x32x32x256_2_3_1_0 : S256x32x32x32.Transposes [2, 3, 1, 0] S32x32x32x256
  shapeCasts_S32x32x32x256_S32x1024x256 : S32x32x32x256.ShapeCasts S32x1024x256
  concatenates_S64x32x3x3_S64x32x3x3_S128x32x3x3_d0 : Shape.Concatenates [S64x32x3x3, S64x32x3x3] S128x32x3x3 0
  transposes_S128x32x3x3_S3x128x3x32_2_0_3_1 : S128x32x3x3.Transposes [2, 0, 3, 1] S3x128x3x32
  shapeCasts_S3x128x3x32_S3x128x96 : S3x128x3x32.ShapeCasts S3x128x96
  concatenates_S64_S64_S128_d0 : Shape.Concatenates [S64, S64] S128 0
  shapeCasts_S128_S128x1 : S128.ShapeCasts S128x1
  transposes_S15x15x64x256_S256x64x15x15_3_2_0_1 : S15x15x64x256.Transposes [3, 2, 0, 1] S256x64x15x15
  inb_S3x128x96_S1x128x96_0_0_0 : ∀ a, (![0, 0, 0] : Fin 3 → Nat) a + S1x128x96.size a ≤ S3x128x96.size a
  h_S1x128x96 : 0 < S1x128x96.numel
  shapeCasts_S1x128x96_S128x96 : S1x128x96.ShapeCasts S128x96
  inb_S3x128x96_S1x128x96_1_0_0 : ∀ a, (![1, 0, 0] : Fin 3 → Nat) a + S1x128x96.size a ≤ S3x128x96.size a
  inb_S3x128x96_S1x128x96_2_0_0 : ∀ a, (![2, 0, 0] : Fin 3 → Nat) a + S1x128x96.size a ≤ S3x128x96.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S6x1024x256_S1x96x256_0_0_0 : ∀ a, (![0, 0, 0] : Fin 3 → Nat) a + S1x96x256.size a ≤ S6x1024x256.size a
  h_S1x96x256 : 0 < S1x96x256.numel
  shapeCasts_S1x96x256_S96x256 : S1x96x256.ShapeCasts S96x256
  inb_S6x1024x256_S1x96x256_1_0_0 : ∀ a, (![1, 0, 0] : Fin 3 → Nat) a + S1x96x256.size a ≤ S6x1024x256.size a
  inb_S6x1024x256_S1x96x256_2_0_0 : ∀ a, (![2, 0, 0] : Fin 3 → Nat) a + S1x96x256.size a ≤ S6x1024x256.size a
  broadcasts_S128x1_S128x256 : S128x1.Broadcasts S128x256
  slices_S128x256_o0_0_S64x256 : S128x256.Slices ![0, 0] S64x256
  slices_S128x256_o64_0_S64x256 : S128x256.Slices ![64, 0] S64x256
  inb_S3x15x64x256_S1x1x64x256_0_0_0_0 : ∀ a, (![0, 0, 0, 0] : Fin 4 → Nat) a + S1x1x64x256.size a ≤ S3x15x64x256.size a
  h_S1x1x64x256 : 0 < S1x1x64x256.numel
  shapeCasts_S1x1x64x256_S64x256 : S1x1x64x256.ShapeCasts S64x256
  shapeCasts_S64x256_S1x1x64x256 : S64x256.ShapeCasts S1x1x64x256
  inb_S6x1024x256_S1x96x256_0_64_0 : ∀ a, (![0, 64, 0] : Fin 3 → Nat) a + S1x96x256.size a ≤ S6x1024x256.size a
  inb_S6x1024x256_S1x96x256_1_64_0 : ∀ a, (![1, 64, 0] : Fin 3 → Nat) a + S1x96x256.size a ≤ S6x1024x256.size a
  inb_S6x1024x256_S1x96x256_2_64_0 : ∀ a, (![2, 64, 0] : Fin 3 → Nat) a + S1x96x256.size a ≤ S6x1024x256.size a
  inb_S3x15x64x256_S1x1x64x256_0_1_0_0 : ∀ a, (![0, 1, 0, 0] : Fin 4 → Nat) a + S1x1x64x256.size a ≤ S3x15x64x256.size a
  inb_S6x1024x256_S1x96x256_0_128_0 : ∀ a, (![0, 128, 0] : Fin 3 → Nat) a + S1x96x256.size a ≤ S6x1024x256.size a
  inb_S6x1024x256_S1x96x256_1_128_0 : ∀ a, (![1, 128, 0] : Fin 3 → Nat) a + S1x96x256.size a ≤ S6x1024x256.size a
  inb_S6x1024x256_S1x96x256_2_128_0 : ∀ a, (![2, 128, 0] : Fin 3 → Nat) a + S1x96x256.size a ≤ S6x1024x256.size a
  inb_S3x15x64x256_S1x1x64x256_0_2_0_0 : ∀ a, (![0, 2, 0, 0] : Fin 4 → Nat) a + S1x1x64x256.size a ≤ S3x15x64x256.size a
  inb_S6x1024x256_S1x96x256_0_192_0 : ∀ a, (![0, 192, 0] : Fin 3 → Nat) a + S1x96x256.size a ≤ S6x1024x256.size a
  inb_S6x1024x256_S1x96x256_1_192_0 : ∀ a, (![1, 192, 0] : Fin 3 → Nat) a + S1x96x256.size a ≤ S6x1024x256.size a
  inb_S6x1024x256_S1x96x256_2_192_0 : ∀ a, (![2, 192, 0] : Fin 3 → Nat) a + S1x96x256.size a ≤ S6x1024x256.size a
  inb_S3x15x64x256_S1x1x64x256_0_3_0_0 : ∀ a, (![0, 3, 0, 0] : Fin 4 → Nat) a + S1x1x64x256.size a ≤ S3x15x64x256.size a
  inb_S6x1024x256_S1x96x256_0_256_0 : ∀ a, (![0, 256, 0] : Fin 3 → Nat) a + S1x96x256.size a ≤ S6x1024x256.size a
  inb_S6x1024x256_S1x96x256_1_256_0 : ∀ a, (![1, 256, 0] : Fin 3 → Nat) a + S1x96x256.size a ≤ S6x1024x256.size a
  inb_S6x1024x256_S1x96x256_2_256_0 : ∀ a, (![2, 256, 0] : Fin 3 → Nat) a + S1x96x256.size a ≤ S6x1024x256.size a
  inb_S3x15x64x256_S1x1x64x256_0_4_0_0 : ∀ a, (![0, 4, 0, 0] : Fin 4 → Nat) a + S1x1x64x256.size a ≤ S3x15x64x256.size a
  inb_S6x1024x256_S1x96x256_0_320_0 : ∀ a, (![0, 320, 0] : Fin 3 → Nat) a + S1x96x256.size a ≤ S6x1024x256.size a
  inb_S6x1024x256_S1x96x256_1_320_0 : ∀ a, (![1, 320, 0] : Fin 3 → Nat) a + S1x96x256.size a ≤ S6x1024x256.size a
  inb_S6x1024x256_S1x96x256_2_320_0 : ∀ a, (![2, 320, 0] : Fin 3 → Nat) a + S1x96x256.size a ≤ S6x1024x256.size a
  inb_S3x15x64x256_S1x1x64x256_0_5_0_0 : ∀ a, (![0, 5, 0, 0] : Fin 4 → Nat) a + S1x1x64x256.size a ≤ S3x15x64x256.size a
  inb_S6x1024x256_S1x96x256_0_384_0 : ∀ a, (![0, 384, 0] : Fin 3 → Nat) a + S1x96x256.size a ≤ S6x1024x256.size a
  inb_S6x1024x256_S1x96x256_1_384_0 : ∀ a, (![1, 384, 0] : Fin 3 → Nat) a + S1x96x256.size a ≤ S6x1024x256.size a
  inb_S6x1024x256_S1x96x256_2_384_0 : ∀ a, (![2, 384, 0] : Fin 3 → Nat) a + S1x96x256.size a ≤ S6x1024x256.size a
  inb_S3x15x64x256_S1x1x64x256_0_6_0_0 : ∀ a, (![0, 6, 0, 0] : Fin 4 → Nat) a + S1x1x64x256.size a ≤ S3x15x64x256.size a
  inb_S6x1024x256_S1x96x256_0_448_0 : ∀ a, (![0, 448, 0] : Fin 3 → Nat) a + S1x96x256.size a ≤ S6x1024x256.size a
  inb_S6x1024x256_S1x96x256_1_448_0 : ∀ a, (![1, 448, 0] : Fin 3 → Nat) a + S1x96x256.size a ≤ S6x1024x256.size a
  inb_S6x1024x256_S1x96x256_2_448_0 : ∀ a, (![2, 448, 0] : Fin 3 → Nat) a + S1x96x256.size a ≤ S6x1024x256.size a
  inb_S3x15x64x256_S1x1x64x256_0_7_0_0 : ∀ a, (![0, 7, 0, 0] : Fin 4 → Nat) a + S1x1x64x256.size a ≤ S3x15x64x256.size a
  inb_S6x1024x256_S1x96x256_0_512_0 : ∀ a, (![0, 512, 0] : Fin 3 → Nat) a + S1x96x256.size a ≤ S6x1024x256.size a
  inb_S6x1024x256_S1x96x256_1_512_0 : ∀ a, (![1, 512, 0] : Fin 3 → Nat) a + S1x96x256.size a ≤ S6x1024x256.size a
  inb_S6x1024x256_S1x96x256_2_512_0 : ∀ a, (![2, 512, 0] : Fin 3 → Nat) a + S1x96x256.size a ≤ S6x1024x256.size a
  inb_S3x15x64x256_S1x1x64x256_0_8_0_0 : ∀ a, (![0, 8, 0, 0] : Fin 4 → Nat) a + S1x1x64x256.size a ≤ S3x15x64x256.size a
  inb_S6x1024x256_S1x96x256_0_576_0 : ∀ a, (![0, 576, 0] : Fin 3 → Nat) a + S1x96x256.size a ≤ S6x1024x256.size a
  inb_S6x1024x256_S1x96x256_1_576_0 : ∀ a, (![1, 576, 0] : Fin 3 → Nat) a + S1x96x256.size a ≤ S6x1024x256.size a
  inb_S6x1024x256_S1x96x256_2_576_0 : ∀ a, (![2, 576, 0] : Fin 3 → Nat) a + S1x96x256.size a ≤ S6x1024x256.size a
  inb_S3x15x64x256_S1x1x64x256_0_9_0_0 : ∀ a, (![0, 9, 0, 0] : Fin 4 → Nat) a + S1x1x64x256.size a ≤ S3x15x64x256.size a
  inb_S6x1024x256_S1x96x256_0_640_0 : ∀ a, (![0, 640, 0] : Fin 3 → Nat) a + S1x96x256.size a ≤ S6x1024x256.size a
  inb_S6x1024x256_S1x96x256_1_640_0 : ∀ a, (![1, 640, 0] : Fin 3 → Nat) a + S1x96x256.size a ≤ S6x1024x256.size a
  inb_S6x1024x256_S1x96x256_2_640_0 : ∀ a, (![2, 640, 0] : Fin 3 → Nat) a + S1x96x256.size a ≤ S6x1024x256.size a
  inb_S3x15x64x256_S1x1x64x256_0_10_0_0 : ∀ a, (![0, 10, 0, 0] : Fin 4 → Nat) a + S1x1x64x256.size a ≤ S3x15x64x256.size a
  inb_S6x1024x256_S1x96x256_0_704_0 : ∀ a, (![0, 704, 0] : Fin 3 → Nat) a + S1x96x256.size a ≤ S6x1024x256.size a
  inb_S6x1024x256_S1x96x256_1_704_0 : ∀ a, (![1, 704, 0] : Fin 3 → Nat) a + S1x96x256.size a ≤ S6x1024x256.size a
  inb_S6x1024x256_S1x96x256_2_704_0 : ∀ a, (![2, 704, 0] : Fin 3 → Nat) a + S1x96x256.size a ≤ S6x1024x256.size a
  inb_S3x15x64x256_S1x1x64x256_0_11_0_0 : ∀ a, (![0, 11, 0, 0] : Fin 4 → Nat) a + S1x1x64x256.size a ≤ S3x15x64x256.size a
  inb_S6x1024x256_S1x96x256_0_768_0 : ∀ a, (![0, 768, 0] : Fin 3 → Nat) a + S1x96x256.size a ≤ S6x1024x256.size a
  inb_S6x1024x256_S1x96x256_1_768_0 : ∀ a, (![1, 768, 0] : Fin 3 → Nat) a + S1x96x256.size a ≤ S6x1024x256.size a
  inb_S6x1024x256_S1x96x256_2_768_0 : ∀ a, (![2, 768, 0] : Fin 3 → Nat) a + S1x96x256.size a ≤ S6x1024x256.size a
  inb_S3x15x64x256_S1x1x64x256_0_12_0_0 : ∀ a, (![0, 12, 0, 0] : Fin 4 → Nat) a + S1x1x64x256.size a ≤ S3x15x64x256.size a
  inb_S6x1024x256_S1x96x256_0_832_0 : ∀ a, (![0, 832, 0] : Fin 3 → Nat) a + S1x96x256.size a ≤ S6x1024x256.size a
  inb_S6x1024x256_S1x96x256_1_832_0 : ∀ a, (![1, 832, 0] : Fin 3 → Nat) a + S1x96x256.size a ≤ S6x1024x256.size a
  inb_S6x1024x256_S1x96x256_2_832_0 : ∀ a, (![2, 832, 0] : Fin 3 → Nat) a + S1x96x256.size a ≤ S6x1024x256.size a
  inb_S3x15x64x256_S1x1x64x256_0_13_0_0 : ∀ a, (![0, 13, 0, 0] : Fin 4 → Nat) a + S1x1x64x256.size a ≤ S3x15x64x256.size a
  inb_S6x1024x256_S1x96x256_0_896_0 : ∀ a, (![0, 896, 0] : Fin 3 → Nat) a + S1x96x256.size a ≤ S6x1024x256.size a
  inb_S6x1024x256_S1x96x256_1_896_0 : ∀ a, (![1, 896, 0] : Fin 3 → Nat) a + S1x96x256.size a ≤ S6x1024x256.size a
  inb_S6x1024x256_S1x96x256_2_896_0 : ∀ a, (![2, 896, 0] : Fin 3 → Nat) a + S1x96x256.size a ≤ S6x1024x256.size a
  inb_S3x15x64x256_S1x1x64x256_0_14_0_0 : ∀ a, (![0, 14, 0, 0] : Fin 4 → Nat) a + S1x1x64x256.size a ≤ S3x15x64x256.size a
  inb_S6x1024x256_S1x96x256_3_0_0 : ∀ a, (![3, 0, 0] : Fin 3 → Nat) a + S1x96x256.size a ≤ S6x1024x256.size a
  inb_S6x1024x256_S1x96x256_4_0_0 : ∀ a, (![4, 0, 0] : Fin 3 → Nat) a + S1x96x256.size a ≤ S6x1024x256.size a
  inb_S3x15x64x256_S1x1x64x256_1_0_0_0 : ∀ a, (![1, 0, 0, 0] : Fin 4 → Nat) a + S1x1x64x256.size a ≤ S3x15x64x256.size a
  inb_S6x1024x256_S1x96x256_3_64_0 : ∀ a, (![3, 64, 0] : Fin 3 → Nat) a + S1x96x256.size a ≤ S6x1024x256.size a
  inb_S6x1024x256_S1x96x256_4_64_0 : ∀ a, (![4, 64, 0] : Fin 3 → Nat) a + S1x96x256.size a ≤ S6x1024x256.size a
  inb_S3x15x64x256_S1x1x64x256_1_1_0_0 : ∀ a, (![1, 1, 0, 0] : Fin 4 → Nat) a + S1x1x64x256.size a ≤ S3x15x64x256.size a
  inb_S6x1024x256_S1x96x256_3_128_0 : ∀ a, (![3, 128, 0] : Fin 3 → Nat) a + S1x96x256.size a ≤ S6x1024x256.size a
  inb_S6x1024x256_S1x96x256_4_128_0 : ∀ a, (![4, 128, 0] : Fin 3 → Nat) a + S1x96x256.size a ≤ S6x1024x256.size a
  inb_S3x15x64x256_S1x1x64x256_1_2_0_0 : ∀ a, (![1, 2, 0, 0] : Fin 4 → Nat) a + S1x1x64x256.size a ≤ S3x15x64x256.size a
  inb_S6x1024x256_S1x96x256_3_192_0 : ∀ a, (![3, 192, 0] : Fin 3 → Nat) a + S1x96x256.size a ≤ S6x1024x256.size a
  inb_S6x1024x256_S1x96x256_4_192_0 : ∀ a, (![4, 192, 0] : Fin 3 → Nat) a + S1x96x256.size a ≤ S6x1024x256.size a
  inb_S3x15x64x256_S1x1x64x256_1_3_0_0 : ∀ a, (![1, 3, 0, 0] : Fin 4 → Nat) a + S1x1x64x256.size a ≤ S3x15x64x256.size a
  inb_S6x1024x256_S1x96x256_3_256_0 : ∀ a, (![3, 256, 0] : Fin 3 → Nat) a + S1x96x256.size a ≤ S6x1024x256.size a
  inb_S6x1024x256_S1x96x256_4_256_0 : ∀ a, (![4, 256, 0] : Fin 3 → Nat) a + S1x96x256.size a ≤ S6x1024x256.size a
  inb_S3x15x64x256_S1x1x64x256_1_4_0_0 : ∀ a, (![1, 4, 0, 0] : Fin 4 → Nat) a + S1x1x64x256.size a ≤ S3x15x64x256.size a
  inb_S6x1024x256_S1x96x256_3_320_0 : ∀ a, (![3, 320, 0] : Fin 3 → Nat) a + S1x96x256.size a ≤ S6x1024x256.size a
  inb_S6x1024x256_S1x96x256_4_320_0 : ∀ a, (![4, 320, 0] : Fin 3 → Nat) a + S1x96x256.size a ≤ S6x1024x256.size a
  inb_S3x15x64x256_S1x1x64x256_1_5_0_0 : ∀ a, (![1, 5, 0, 0] : Fin 4 → Nat) a + S1x1x64x256.size a ≤ S3x15x64x256.size a
  inb_S6x1024x256_S1x96x256_3_384_0 : ∀ a, (![3, 384, 0] : Fin 3 → Nat) a + S1x96x256.size a ≤ S6x1024x256.size a
  inb_S6x1024x256_S1x96x256_4_384_0 : ∀ a, (![4, 384, 0] : Fin 3 → Nat) a + S1x96x256.size a ≤ S6x1024x256.size a
  inb_S3x15x64x256_S1x1x64x256_1_6_0_0 : ∀ a, (![1, 6, 0, 0] : Fin 4 → Nat) a + S1x1x64x256.size a ≤ S3x15x64x256.size a
  inb_S6x1024x256_S1x96x256_3_448_0 : ∀ a, (![3, 448, 0] : Fin 3 → Nat) a + S1x96x256.size a ≤ S6x1024x256.size a
  inb_S6x1024x256_S1x96x256_4_448_0 : ∀ a, (![4, 448, 0] : Fin 3 → Nat) a + S1x96x256.size a ≤ S6x1024x256.size a
  inb_S3x15x64x256_S1x1x64x256_1_7_0_0 : ∀ a, (![1, 7, 0, 0] : Fin 4 → Nat) a + S1x1x64x256.size a ≤ S3x15x64x256.size a
  inb_S6x1024x256_S1x96x256_3_512_0 : ∀ a, (![3, 512, 0] : Fin 3 → Nat) a + S1x96x256.size a ≤ S6x1024x256.size a
  inb_S6x1024x256_S1x96x256_4_512_0 : ∀ a, (![4, 512, 0] : Fin 3 → Nat) a + S1x96x256.size a ≤ S6x1024x256.size a
  inb_S3x15x64x256_S1x1x64x256_1_8_0_0 : ∀ a, (![1, 8, 0, 0] : Fin 4 → Nat) a + S1x1x64x256.size a ≤ S3x15x64x256.size a
  inb_S6x1024x256_S1x96x256_3_576_0 : ∀ a, (![3, 576, 0] : Fin 3 → Nat) a + S1x96x256.size a ≤ S6x1024x256.size a
  inb_S6x1024x256_S1x96x256_4_576_0 : ∀ a, (![4, 576, 0] : Fin 3 → Nat) a + S1x96x256.size a ≤ S6x1024x256.size a
  inb_S3x15x64x256_S1x1x64x256_1_9_0_0 : ∀ a, (![1, 9, 0, 0] : Fin 4 → Nat) a + S1x1x64x256.size a ≤ S3x15x64x256.size a
  inb_S6x1024x256_S1x96x256_3_640_0 : ∀ a, (![3, 640, 0] : Fin 3 → Nat) a + S1x96x256.size a ≤ S6x1024x256.size a
  inb_S6x1024x256_S1x96x256_4_640_0 : ∀ a, (![4, 640, 0] : Fin 3 → Nat) a + S1x96x256.size a ≤ S6x1024x256.size a
  inb_S3x15x64x256_S1x1x64x256_1_10_0_0 : ∀ a, (![1, 10, 0, 0] : Fin 4 → Nat) a + S1x1x64x256.size a ≤ S3x15x64x256.size a
  inb_S6x1024x256_S1x96x256_3_704_0 : ∀ a, (![3, 704, 0] : Fin 3 → Nat) a + S1x96x256.size a ≤ S6x1024x256.size a
  inb_S6x1024x256_S1x96x256_4_704_0 : ∀ a, (![4, 704, 0] : Fin 3 → Nat) a + S1x96x256.size a ≤ S6x1024x256.size a
  inb_S3x15x64x256_S1x1x64x256_1_11_0_0 : ∀ a, (![1, 11, 0, 0] : Fin 4 → Nat) a + S1x1x64x256.size a ≤ S3x15x64x256.size a
  inb_S6x1024x256_S1x96x256_3_768_0 : ∀ a, (![3, 768, 0] : Fin 3 → Nat) a + S1x96x256.size a ≤ S6x1024x256.size a
  inb_S6x1024x256_S1x96x256_4_768_0 : ∀ a, (![4, 768, 0] : Fin 3 → Nat) a + S1x96x256.size a ≤ S6x1024x256.size a
  inb_S3x15x64x256_S1x1x64x256_1_12_0_0 : ∀ a, (![1, 12, 0, 0] : Fin 4 → Nat) a + S1x1x64x256.size a ≤ S3x15x64x256.size a
  inb_S6x1024x256_S1x96x256_3_832_0 : ∀ a, (![3, 832, 0] : Fin 3 → Nat) a + S1x96x256.size a ≤ S6x1024x256.size a
  inb_S6x1024x256_S1x96x256_4_832_0 : ∀ a, (![4, 832, 0] : Fin 3 → Nat) a + S1x96x256.size a ≤ S6x1024x256.size a
  inb_S3x15x64x256_S1x1x64x256_1_13_0_0 : ∀ a, (![1, 13, 0, 0] : Fin 4 → Nat) a + S1x1x64x256.size a ≤ S3x15x64x256.size a
  inb_S6x1024x256_S1x96x256_3_896_0 : ∀ a, (![3, 896, 0] : Fin 3 → Nat) a + S1x96x256.size a ≤ S6x1024x256.size a
  inb_S6x1024x256_S1x96x256_4_896_0 : ∀ a, (![4, 896, 0] : Fin 3 → Nat) a + S1x96x256.size a ≤ S6x1024x256.size a
  inb_S3x15x64x256_S1x1x64x256_1_14_0_0 : ∀ a, (![1, 14, 0, 0] : Fin 4 → Nat) a + S1x1x64x256.size a ≤ S3x15x64x256.size a
  inb_S6x1024x256_S1x96x256_5_0_0 : ∀ a, (![5, 0, 0] : Fin 3 → Nat) a + S1x96x256.size a ≤ S6x1024x256.size a
  inb_S1x1024x256_S1x96x256_0_0_0 : ∀ a, (![0, 0, 0] : Fin 3 → Nat) a + S1x96x256.size a ≤ S1x1024x256.size a
  inb_S3x15x64x256_S1x1x64x256_2_0_0_0 : ∀ a, (![2, 0, 0, 0] : Fin 4 → Nat) a + S1x1x64x256.size a ≤ S3x15x64x256.size a
  inb_S6x1024x256_S1x96x256_5_64_0 : ∀ a, (![5, 64, 0] : Fin 3 → Nat) a + S1x96x256.size a ≤ S6x1024x256.size a
  inb_S1x1024x256_S1x96x256_0_64_0 : ∀ a, (![0, 64, 0] : Fin 3 → Nat) a + S1x96x256.size a ≤ S1x1024x256.size a
  inb_S3x15x64x256_S1x1x64x256_2_1_0_0 : ∀ a, (![2, 1, 0, 0] : Fin 4 → Nat) a + S1x1x64x256.size a ≤ S3x15x64x256.size a
  inb_S6x1024x256_S1x96x256_5_128_0 : ∀ a, (![5, 128, 0] : Fin 3 → Nat) a + S1x96x256.size a ≤ S6x1024x256.size a
  inb_S1x1024x256_S1x96x256_0_128_0 : ∀ a, (![0, 128, 0] : Fin 3 → Nat) a + S1x96x256.size a ≤ S1x1024x256.size a
  inb_S3x15x64x256_S1x1x64x256_2_2_0_0 : ∀ a, (![2, 2, 0, 0] : Fin 4 → Nat) a + S1x1x64x256.size a ≤ S3x15x64x256.size a
  inb_S6x1024x256_S1x96x256_5_192_0 : ∀ a, (![5, 192, 0] : Fin 3 → Nat) a + S1x96x256.size a ≤ S6x1024x256.size a
  inb_S1x1024x256_S1x96x256_0_192_0 : ∀ a, (![0, 192, 0] : Fin 3 → Nat) a + S1x96x256.size a ≤ S1x1024x256.size a
  inb_S3x15x64x256_S1x1x64x256_2_3_0_0 : ∀ a, (![2, 3, 0, 0] : Fin 4 → Nat) a + S1x1x64x256.size a ≤ S3x15x64x256.size a
  inb_S6x1024x256_S1x96x256_5_256_0 : ∀ a, (![5, 256, 0] : Fin 3 → Nat) a + S1x96x256.size a ≤ S6x1024x256.size a
  inb_S1x1024x256_S1x96x256_0_256_0 : ∀ a, (![0, 256, 0] : Fin 3 → Nat) a + S1x96x256.size a ≤ S1x1024x256.size a
  inb_S3x15x64x256_S1x1x64x256_2_4_0_0 : ∀ a, (![2, 4, 0, 0] : Fin 4 → Nat) a + S1x1x64x256.size a ≤ S3x15x64x256.size a
  inb_S6x1024x256_S1x96x256_5_320_0 : ∀ a, (![5, 320, 0] : Fin 3 → Nat) a + S1x96x256.size a ≤ S6x1024x256.size a
  inb_S1x1024x256_S1x96x256_0_320_0 : ∀ a, (![0, 320, 0] : Fin 3 → Nat) a + S1x96x256.size a ≤ S1x1024x256.size a
  inb_S3x15x64x256_S1x1x64x256_2_5_0_0 : ∀ a, (![2, 5, 0, 0] : Fin 4 → Nat) a + S1x1x64x256.size a ≤ S3x15x64x256.size a
  inb_S6x1024x256_S1x96x256_5_384_0 : ∀ a, (![5, 384, 0] : Fin 3 → Nat) a + S1x96x256.size a ≤ S6x1024x256.size a
  inb_S1x1024x256_S1x96x256_0_384_0 : ∀ a, (![0, 384, 0] : Fin 3 → Nat) a + S1x96x256.size a ≤ S1x1024x256.size a
  inb_S3x15x64x256_S1x1x64x256_2_6_0_0 : ∀ a, (![2, 6, 0, 0] : Fin 4 → Nat) a + S1x1x64x256.size a ≤ S3x15x64x256.size a
  inb_S6x1024x256_S1x96x256_5_448_0 : ∀ a, (![5, 448, 0] : Fin 3 → Nat) a + S1x96x256.size a ≤ S6x1024x256.size a
  inb_S1x1024x256_S1x96x256_0_448_0 : ∀ a, (![0, 448, 0] : Fin 3 → Nat) a + S1x96x256.size a ≤ S1x1024x256.size a
  inb_S3x15x64x256_S1x1x64x256_2_7_0_0 : ∀ a, (![2, 7, 0, 0] : Fin 4 → Nat) a + S1x1x64x256.size a ≤ S3x15x64x256.size a
  inb_S6x1024x256_S1x96x256_5_512_0 : ∀ a, (![5, 512, 0] : Fin 3 → Nat) a + S1x96x256.size a ≤ S6x1024x256.size a
  inb_S1x1024x256_S1x96x256_0_512_0 : ∀ a, (![0, 512, 0] : Fin 3 → Nat) a + S1x96x256.size a ≤ S1x1024x256.size a
  inb_S3x15x64x256_S1x1x64x256_2_8_0_0 : ∀ a, (![2, 8, 0, 0] : Fin 4 → Nat) a + S1x1x64x256.size a ≤ S3x15x64x256.size a
  inb_S6x1024x256_S1x96x256_5_576_0 : ∀ a, (![5, 576, 0] : Fin 3 → Nat) a + S1x96x256.size a ≤ S6x1024x256.size a
  inb_S1x1024x256_S1x96x256_0_576_0 : ∀ a, (![0, 576, 0] : Fin 3 → Nat) a + S1x96x256.size a ≤ S1x1024x256.size a
  inb_S3x15x64x256_S1x1x64x256_2_9_0_0 : ∀ a, (![2, 9, 0, 0] : Fin 4 → Nat) a + S1x1x64x256.size a ≤ S3x15x64x256.size a
  inb_S6x1024x256_S1x96x256_5_640_0 : ∀ a, (![5, 640, 0] : Fin 3 → Nat) a + S1x96x256.size a ≤ S6x1024x256.size a
  inb_S1x1024x256_S1x96x256_0_640_0 : ∀ a, (![0, 640, 0] : Fin 3 → Nat) a + S1x96x256.size a ≤ S1x1024x256.size a
  inb_S3x15x64x256_S1x1x64x256_2_10_0_0 : ∀ a, (![2, 10, 0, 0] : Fin 4 → Nat) a + S1x1x64x256.size a ≤ S3x15x64x256.size a
  inb_S6x1024x256_S1x96x256_5_704_0 : ∀ a, (![5, 704, 0] : Fin 3 → Nat) a + S1x96x256.size a ≤ S6x1024x256.size a
  inb_S1x1024x256_S1x96x256_0_704_0 : ∀ a, (![0, 704, 0] : Fin 3 → Nat) a + S1x96x256.size a ≤ S1x1024x256.size a
  inb_S3x15x64x256_S1x1x64x256_2_11_0_0 : ∀ a, (![2, 11, 0, 0] : Fin 4 → Nat) a + S1x1x64x256.size a ≤ S3x15x64x256.size a
  inb_S6x1024x256_S1x96x256_5_768_0 : ∀ a, (![5, 768, 0] : Fin 3 → Nat) a + S1x96x256.size a ≤ S6x1024x256.size a
  inb_S1x1024x256_S1x96x256_0_768_0 : ∀ a, (![0, 768, 0] : Fin 3 → Nat) a + S1x96x256.size a ≤ S1x1024x256.size a
  inb_S3x15x64x256_S1x1x64x256_2_12_0_0 : ∀ a, (![2, 12, 0, 0] : Fin 4 → Nat) a + S1x1x64x256.size a ≤ S3x15x64x256.size a
  inb_S6x1024x256_S1x96x256_5_832_0 : ∀ a, (![5, 832, 0] : Fin 3 → Nat) a + S1x96x256.size a ≤ S6x1024x256.size a
  inb_S1x1024x256_S1x96x256_0_832_0 : ∀ a, (![0, 832, 0] : Fin 3 → Nat) a + S1x96x256.size a ≤ S1x1024x256.size a
  inb_S3x15x64x256_S1x1x64x256_2_13_0_0 : ∀ a, (![2, 13, 0, 0] : Fin 4 → Nat) a + S1x1x64x256.size a ≤ S3x15x64x256.size a
  inb_S6x1024x256_S1x96x256_5_896_0 : ∀ a, (![5, 896, 0] : Fin 3 → Nat) a + S1x96x256.size a ≤ S6x1024x256.size a
  inb_S1x1024x256_S1x96x256_0_896_0 : ∀ a, (![0, 896, 0] : Fin 3 → Nat) a + S1x96x256.size a ≤ S1x1024x256.size a
  inb_S3x15x64x256_S1x1x64x256_2_14_0_0 : ∀ a, (![2, 14, 0, 0] : Fin 4 → Nat) a + S1x1x64x256.size a ≤ S3x15x64x256.size a
  dot_S128x96_S96x256_S128x256_1_0_0_1_n_n_wf : DotDims.WF S128x96 S96x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6x1024x256.size a < S32x1024x256.size a
  hwx0_0 : ∀ i : grid0.Coords, EltTy.bits .bf16 = 32 ∨ (Rect.unit (s := S32x1024x256) (fun a => cc0_transform_0 i a * S6x1024x256.size a) (fun a => (Pipeline.Clip.of (cc0_transform_0 i a) (S6x1024x256.size a) (S32x1024x256.size a)).extent (S6x1024x256.size a)) fun a => Pipeline.Clip.inb (Pipeline.Clip.ok_of (hstart0_0 i a))).WholeWords (EltTy.packing .bf16)
  hwxs0_0 : ∀ i : grid0.Coords, EltTy.bits .bf16 = 32 ∨ (Rect.unit (s := S6x1024x256) (fun _ => 0) (fun a => (Pipeline.Clip.of (cc0_transform_0 i a) (S6x1024x256.size a) (S32x1024x256.size a)).extent (S6x1024x256.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .bf16 = 32 ∨ (Rect.block (s := S32x1024x256) S1x1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x96.size a ≤ S3x128x96.size a
  hwx0_2 : ∀ i : grid0.Coords, EltTy.bits .bf16 = 32 ∨ (Rect.block (s := S3x128x96) S3x128x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x15x64x256.size a ≤ S15x15x64x256.size a
  hwx0_4 : ∀ i : grid0.Coords, EltTy.bits .f32 = 32 ∨ (Rect.block (s := S15x15x64x256) S3x15x64x256.size (cc0_transform_4 i) (hinb0_4 i)).WholeWords (EltTy.packing .f32)

variable [Facts₀]

def dot_S128x96_S96x256_S128x256_1_0_0_1_n_n : DotDims S128x96 S96x256 S128x256 where
  lhsContracting := [1]
  rhsContracting := [0]
  lhsNonContracting := [0]
  rhsNonContracting := [1]
  lhsBatch := []
  rhsBatch := []
  wf := dot_S128x96_S96x256_S128x256_1_0_0_1_n_n_wf

abbrev win0_0 : Pipeline.Window sig grid0 :=
  Pipeline.Window.ofSpecClip (Memref.whole main_call0_v2) S6x1024x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v2) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S3x128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S3x15x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x32x32x32 : Shape := ⟨4, ![256, 32, 32, 32]⟩
abbrev S64x32x3x3 : Shape := ⟨4, ![64, 32, 3, 3]⟩
abbrev S64 : Shape := ⟨1, ![64]⟩
abbrev S256x1024x32 : Shape := ⟨3, ![256, 1024, 32]⟩
abbrev S128x32x3x3 : Shape := ⟨4, ![128, 32, 3, 3]⟩
abbrev S3x128x3x32 : Shape := ⟨4, ![3, 128, 3, 32]⟩
abbrev S3x128x96 : Shape := ⟨3, ![3, 128, 96]⟩
abbrev S128 : Shape := ⟨1, ![128]⟩
abbrev S128x1 : Shape := ⟨2, ![128, 1]⟩
abbrev S32 : Shape := ⟨1, ![32]⟩
abbrev S1x32x1 : Shape := ⟨3, ![1, 32, 1]⟩
abbrev S15 : Shape := ⟨1, ![15]⟩
abbrev S1x1x15 : Shape := ⟨3, ![1, 1, 15]⟩
abbrev S3 : Shape := ⟨1, ![3]⟩
abbrev S3x1x1 : Shape := ⟨3, ![3, 1, 1]⟩
abbrev S_ : Shape := ⟨0, ![]⟩
abbrev S3x1x15 : Shape := ⟨3, ![3, 1, 15]⟩
abbrev S3x32x15 : Shape := ⟨3, ![3, 32, 15]⟩
abbrev S256x64x225 : Shape := ⟨3, ![256, 64, 225]⟩
abbrev S256x64x15x15 : Shape := ⟨4, ![256, 64, 15, 15]⟩
abbrev S1x1024x32 : Shape := ⟨3, ![1, 1024, 32]⟩
abbrev S1x64x225 : Shape := ⟨3, ![1, 64, 225]⟩
abbrev S1x128x96 : Shape := ⟨3, ![1, 128, 96]⟩
abbrev S128x96 : Shape := ⟨2, ![128, 96]⟩
abbrev S1x32x15 : Shape := ⟨3, ![1, 32, 15]⟩
abbrev S32x15 : Shape := ⟨2, ![32, 15]⟩
abbrev S1x96x32 : Shape := ⟨3, ![1, 96, 32]⟩
abbrev S96x32 : Shape := ⟨2, ![96, 32]⟩
abbrev S128x15 : Shape := ⟨2, ![128, 15]⟩
abbrev S96x15 : Shape := ⟨2, ![96, 15]⟩
abbrev S64x15 : Shape := ⟨2, ![64, 15]⟩
abbrev S1x64x15 : Shape := ⟨3, ![1, 64, 15]⟩

abbrev nBuf : Space → Nat
  | .hbm => 30
  | .vmem => 7
  | .smem => 0
  | _ => 0

abbrev bufTy : (tb : Table) → Fin (tcTables nBuf tb) → BufTy
  | .hbm, ⟨0, _⟩ => ⟨S256x32x32x32, .f32⟩
  | .hbm, ⟨1, _⟩ => ⟨S64x32x3x3, .f32⟩
  | .hbm, ⟨2, _⟩ => ⟨S64, .f32⟩
  | .hbm, ⟨3, _⟩ => ⟨S64x32x3x3, .f32⟩
  | .hbm, ⟨4, _⟩ => ⟨S64, .f32⟩
  | .hbm, ⟨5, _⟩ => ⟨S256x32x32x32, .f32⟩
  | .hbm, ⟨6, _⟩ => ⟨S256x1024x32, .f32⟩
  | .hbm, ⟨7, _⟩ => ⟨S128x32x3x3, .f32⟩
  | .hbm, ⟨8, _⟩ => ⟨S3x128x3x32, .f32⟩
  | .hbm, ⟨9, _⟩ => ⟨S3x128x96, .f32⟩
  | .hbm, ⟨10, _⟩ => ⟨S128, .f32⟩
  | .hbm, ⟨11, _⟩ => ⟨S128x1, .f32⟩
  | .hbm, ⟨12, _⟩ => ⟨S32, .i32⟩
  | .hbm, ⟨13, _⟩ => ⟨S1x32x1, .i32⟩
  | .hbm, ⟨14, _⟩ => ⟨S15, .i32⟩
  | .hbm, ⟨15, _⟩ => ⟨S1x1x15, .i32⟩
  | .hbm, ⟨16, _⟩ => ⟨S3, .i32⟩
  | .hbm, ⟨17, _⟩ => ⟨S3x1x1, .i32⟩
  | .hbm, ⟨18, _⟩ => ⟨S_, .i32⟩
  | .hbm, ⟨19, _⟩ => ⟨S1x1x15, .i32⟩
  | .hbm, ⟨20, _⟩ => ⟨S1x1x15, .i32⟩
  | .hbm, ⟨21, _⟩ => ⟨S3x1x15, .i32⟩
  | .hbm, ⟨22, _⟩ => ⟨S3x1x15, .i32⟩
  | .hbm, ⟨23, _⟩ => ⟨S3x1x15, .i32⟩
  | .hbm, ⟨24, _⟩ => ⟨S3x32x15, .i32⟩
  | .hbm, ⟨25, _⟩ => ⟨S3x32x15, .i32⟩
  | .hbm, ⟨26, _⟩ => ⟨S3x32x15, .i1⟩
  | .hbm, ⟨27, _⟩ => ⟨S3x32x15, .f32⟩
  | .hbm, ⟨28, _⟩ => ⟨S256x64x225, .f32⟩
  | .hbm, ⟨29, _⟩ => ⟨S256x64x15x15, .f32⟩
  | .local _ .vmem, ⟨0, _⟩ => ⟨S1x1024x32, .f32⟩
  | .local _ .vmem, ⟨1, _⟩ => ⟨S1x1024x32, .f32⟩
  | .local _ .vmem, ⟨2, _⟩ => ⟨S3x128x96, .f32⟩
  | .local _ .vmem, ⟨3, _⟩ => ⟨S3x32x15, .f32⟩
  | .local _ .vmem, ⟨4, _⟩ => ⟨S128x1, .f32⟩
  | .local _ .vmem, ⟨5, _⟩ => ⟨S1x64x225, .f32⟩
  | .local _ .vmem, ⟨6, _⟩ => ⟨S1x64x225, .f32⟩
  | _, _ => ⟨S256x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_c : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x225 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x32x32x32_S256x32x32x32_0_2_1_3 : S256x32x32x32.Transposes [0, 2, 1, 3] S256x32x32x32
  shapeCasts_S256x32x32x32_S256x1024x32 : S256x32x32x32.ShapeCasts S256x1024x32
  concatenates_S64x32x3x3_S64x32x3x3_S128x32x3x3_d0 : Shape.Concatenates [S64x32x3x3, S64x32x3x3] S128x32x3x3 0
  transposes_S128x32x3x3_S3x128x3x32_3_0_2_1 : S128x32x3x3.Transposes [3, 0, 2, 1] S3x128x3x32
  shapeCasts_S3x128x3x32_S3x128x96 : S3x128x3x32.ShapeCasts S3x128x96
  concatenates_S64_S64_S128_d0 : Shape.Concatenates [S64, S64] S128 0
  shapeCasts_S128_S128x1 : S128.ShapeCasts S128x1
  bcast_S32_S1x32x1_1 : S32.BroadcastsInDim S1x32x1 (![1] : Fin 1 → Fin S1x32x1.rank)
  bcast_S15_S1x1x15_2 : S15.BroadcastsInDim S1x1x15 (![2] : Fin 1 → Fin S1x1x15.rank)
  bcast_S3_S3x1x1_0 : S3.BroadcastsInDim S3x1x1 (![0] : Fin 1 → Fin S3x1x1.rank)
  bcast_S_S1x1x15 : S_.BroadcastsInDim S1x1x15 (![] : Fin 0 → Fin S1x1x15.rank)
  bcast_S1x1x15_S3x1x15_0_1_2 : S1x1x15.BroadcastsInDim S3x1x15 (![0, 1, 2] : Fin 3 → Fin S3x1x15.rank)
  bcast_S3x1x1_S3x1x15_0_1_2 : S3x1x1.BroadcastsInDim S3x1x15 (![0, 1, 2] : Fin 3 → Fin S3x1x15.rank)
  bcast_S1x32x1_S3x32x15_0_1_2 : S1x32x1.BroadcastsInDim S3x32x15 (![0, 1, 2] : Fin 3 → Fin S3x32x15.rank)
  bcast_S3x1x15_S3x32x15_0_1_2 : S3x1x15.BroadcastsInDim S3x32x15 (![0, 1, 2] : Fin 3 → Fin S3x32x15.rank)
  shapeCasts_S256x64x225_S256x64x15x15 : S256x64x225.ShapeCasts S256x64x15x15
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S3x128x96_S1x128x96_0_0_0 : ∀ a, (![0, 0, 0] : Fin 3 → Nat) a + S1x128x96.size a ≤ S3x128x96.size a
  h_S1x128x96 : 0 < S1x128x96.numel
  shapeCasts_S1x128x96_S128x96 : S1x128x96.ShapeCasts S128x96
  inb_S3x128x96_S1x128x96_1_0_0 : ∀ a, (![1, 0, 0] : Fin 3 → Nat) a + S1x128x96.size a ≤ S3x128x96.size a
  inb_S3x128x96_S1x128x96_2_0_0 : ∀ a, (![2, 0, 0] : Fin 3 → Nat) a + S1x128x96.size a ≤ S3x128x96.size a
  inb_S3x32x15_S1x32x15_0_0_0 : ∀ a, (![0, 0, 0] : Fin 3 → Nat) a + S1x32x15.size a ≤ S3x32x15.size a
  h_S1x32x15 : 0 < S1x32x15.numel
  shapeCasts_S1x32x15_S32x15 : S1x32x15.ShapeCasts S32x15
  inb_S3x32x15_S1x32x15_1_0_0 : ∀ a, (![1, 0, 0] : Fin 3 → Nat) a + S1x32x15.size a ≤ S3x32x15.size a
  inb_S3x32x15_S1x32x15_2_0_0 : ∀ a, (![2, 0, 0] : Fin 3 → Nat) a + S1x32x15.size a ≤ S3x32x15.size a
  inb_S1x1024x32_S1x96x32_0_0_0 : ∀ a, (![0, 0, 0] : Fin 3 → Nat) a + S1x96x32.size a ≤ S1x1024x32.size a
  h_S1x96x32 : 0 < S1x96x32.numel
  shapeCasts_S1x96x32_S96x32 : S1x96x32.ShapeCasts S96x32
  broadcasts_S128x1_S128x15 : S128x1.Broadcasts S128x15
  slices_S128x15_o0_0_S64x15 : S128x15.Slices ![0, 0] S64x15
  slices_S128x15_o64_0_S64x15 : S128x15.Slices ![64, 0] S64x15
  inb_S1x64x225_S1x64x15_0_0_0 : ∀ a, (![0, 0, 0] : Fin 3 → Nat) a + S1x64x15.size a ≤ S1x64x225.size a
  h_S1x64x15 : 0 < S1x64x15.numel
  shapeCasts_S1x64x15_S64x15 : S1x64x15.ShapeCasts S64x15
  shapeCasts_S64x15_S1x64x15 : S64x15.ShapeCasts S1x64x15
  inb_S1x1024x32_S1x96x32_0_64_0 : ∀ a, (![0, 64, 0] : Fin 3 → Nat) a + S1x96x32.size a ≤ S1x1024x32.size a
  inb_S1x64x225_S1x64x15_0_0_15 : ∀ a, (![0, 0, 15] : Fin 3 → Nat) a + S1x64x15.size a ≤ S1x64x225.size a
  inb_S1x1024x32_S1x96x32_0_128_0 : ∀ a, (![0, 128, 0] : Fin 3 → Nat) a + S1x96x32.size a ≤ S1x1024x32.size a
  inb_S1x64x225_S1x64x15_0_0_30 : ∀ a, (![0, 0, 30] : Fin 3 → Nat) a + S1x64x15.size a ≤ S1x64x225.size a
  inb_S1x1024x32_S1x96x32_0_192_0 : ∀ a, (![0, 192, 0] : Fin 3 → Nat) a + S1x96x32.size a ≤ S1x1024x32.size a
  inb_S1x64x225_S1x64x15_0_0_45 : ∀ a, (![0, 0, 45] : Fin 3 → Nat) a + S1x64x15.size a ≤ S1x64x225.size a
  inb_S1x1024x32_S1x96x32_0_256_0 : ∀ a, (![0, 256, 0] : Fin 3 → Nat) a + S1x96x32.size a ≤ S1x1024x32.size a
  inb_S1x64x225_S1x64x15_0_0_60 : ∀ a, (![0, 0, 60] : Fin 3 → Nat) a + S1x64x15.size a ≤ S1x64x225.size a
  inb_S1x1024x32_S1x96x32_0_320_0 : ∀ a, (![0, 320, 0] : Fin 3 → Nat) a + S1x96x32.size a ≤ S1x1024x32.size a
  inb_S1x64x225_S1x64x15_0_0_75 : ∀ a, (![0, 0, 75] : Fin 3 → Nat) a + S1x64x15.size a ≤ S1x64x225.size a
  inb_S1x1024x32_S1x96x32_0_384_0 : ∀ a, (![0, 384, 0] : Fin 3 → Nat) a + S1x96x32.size a ≤ S1x1024x32.size a
  inb_S1x64x225_S1x64x15_0_0_90 : ∀ a, (![0, 0, 90] : Fin 3 → Nat) a + S1x64x15.size a ≤ S1x64x225.size a
  inb_S1x1024x32_S1x96x32_0_448_0 : ∀ a, (![0, 448, 0] : Fin 3 → Nat) a + S1x96x32.size a ≤ S1x1024x32.size a
  inb_S1x64x225_S1x64x15_0_0_105 : ∀ a, (![0, 0, 105] : Fin 3 → Nat) a + S1x64x15.size a ≤ S1x64x225.size a
  inb_S1x1024x32_S1x96x32_0_512_0 : ∀ a, (![0, 512, 0] : Fin 3 → Nat) a + S1x96x32.size a ≤ S1x1024x32.size a
  inb_S1x64x225_S1x64x15_0_0_120 : ∀ a, (![0, 0, 120] : Fin 3 → Nat) a + S1x64x15.size a ≤ S1x64x225.size a
  inb_S1x1024x32_S1x96x32_0_576_0 : ∀ a, (![0, 576, 0] : Fin 3 → Nat) a + S1x96x32.size a ≤ S1x1024x32.size a
  inb_S1x64x225_S1x64x15_0_0_135 : ∀ a, (![0, 0, 135] : Fin 3 → Nat) a + S1x64x15.size a ≤ S1x64x225.size a
  inb_S1x1024x32_S1x96x32_0_640_0 : ∀ a, (![0, 640, 0] : Fin 3 → Nat) a + S1x96x32.size a ≤ S1x1024x32.size a
  inb_S1x64x225_S1x64x15_0_0_150 : ∀ a, (![0, 0, 150] : Fin 3 → Nat) a + S1x64x15.size a ≤ S1x64x225.size a
  inb_S1x1024x32_S1x96x32_0_704_0 : ∀ a, (![0, 704, 0] : Fin 3 → Nat) a + S1x96x32.size a ≤ S1x1024x32.size a
  inb_S1x64x225_S1x64x15_0_0_165 : ∀ a, (![0, 0, 165] : Fin 3 → Nat) a + S1x64x15.size a ≤ S1x64x225.size a
  inb_S1x1024x32_S1x96x32_0_768_0 : ∀ a, (![0, 768, 0] : Fin 3 → Nat) a + S1x96x32.size a ≤ S1x1024x32.size a
  inb_S1x64x225_S1x64x15_0_0_180 : ∀ a, (![0, 0, 180] : Fin 3 → Nat) a + S1x64x15.size a ≤ S1x64x225.size a
  inb_S1x1024x32_S1x96x32_0_832_0 : ∀ a, (![0, 832, 0] : Fin 3 → Nat) a + S1x96x32.size a ≤ S1x1024x32.size a
  inb_S1x64x225_S1x64x15_0_0_195 : ∀ a, (![0, 0, 195] : Fin 3 → Nat) a + S1x64x15.size a ≤ S1x64x225.size a
  inb_S1x1024x32_S1x96x32_0_896_0 : ∀ a, (![0, 896, 0] : Fin 3 → Nat) a + S1x96x32.size a ≤ S1x1024x32.size a
  inb_S1x64x225_S1x64x15_0_0_210 : ∀ a, (![0, 0, 210] : Fin 3 → Nat) a + S1x64x15.size a ≤ S1x64x225.size a
  dot_S96x32_S32x15_S96x15_1_0_0_1_n_n_wf : DotDims.WF S96x32 S32x15 S96x15 [1] [0] [0] [1] [] []
  dot_S128x96_S96x15_S128x15_1_0_0_1_n_n_wf : DotDims.WF S128x96 S96x15 S128x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S256x1024x32.size a
  hwx0_0 : ∀ i : grid0.Coords, EltTy.bits .f32 = 32 ∨ (Rect.block (s := S256x1024x32) S1x1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x96.size a ≤ S3x128x96.size a
  hwx0_1 : ∀ i : grid0.Coords, EltTy.bits .f32 = 32 ∨ (Rect.block (s := S3x128x96) S3x128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32x15.size a ≤ S3x32x15.size a
  hwx0_2 : ∀ i : grid0.Coords, EltTy.bits .f32 = 32 ∨ (Rect.block (s := S3x32x15) S3x32x15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x225.size a ≤ S256x64x225.size a
  hwx0_4 : ∀ i : grid0.Coords, EltTy.bits .f32 = 32 ∨ (Rect.block (s := S256x64x225) S1x64x225.size (cc0_transform_4 i) (hinb0_4 i)).WholeWords (EltTy.packing .f32)

variable [Facts₀]

def dot_S96x32_S32x15_S96x15_1_0_0_1_n_n : DotDims S96x32 S32x15 S96x15 where
  lhsContracting := [1]
  rhsContracting := [0]
  lhsNonContracting := [0]
  rhsNonContracting := [1]
  lhsBatch := []
  rhsBatch := []
  wf := dot_S96x32_S32x15_S96x15_1_0_0_1_n_n_wf
def dot_S128x96_S96x15_S128x15_1_0_0_1_n_n : DotDims S128x96 S96x15 S128x15 where
  lhsContracting := [1]
  rhsContracting := [0]
  lhsNonContracting := [0]
  rhsNonContracting := [1]
  lhsBatch := []
  rhsBatch := []
  wf := dot_S128x96_S96x15_S128x15_1_0_0_1_n_n_wf

abbrev win0_0 : Pipeline.Window sig grid0 :=
  Pipeline.Window.ofSpec (Memref.whole main_call0_v1) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S3x128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v21) S3x32x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S1x64x225.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KernelBody.lean ====
/-
  The kernel body's run on whole staging memrefs, for any float instance: the five windows' buffers in, the four
  inputs' buffers back unchanged and the output's buffer with the body's 45 stores written, one [1,1,64,256] tile
  per output row r < 3 of the point and output column ow < 15.  The tiles are found by running the body; that they
  tile the [3,15,64,256] block is checked by evaluation.
-/
import proofs.«176583_g2000106783720467_pallasbulk_1336_18_alg».proof.Proof.Gen.Kernel.Launch
import proofs.«176583_g2000106783720467_pallasbulk_1336_18_alg».proof.Proof.Gen.Kernel.Skeleton
import proofs.«176583_g2000106783720467_pallasbulk_1336_18_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores into the output buffer, as pieces (last first), with the run that leaves them: the inputs'
    buffers are only read, the output's buffer is read (the values unused) and then covered tile by tile. -/
noncomputable def bodyRun (c : Dev nD) (i : grid0.Coords)
    (arg1 : Memref sig .tc .vmem S6x1024x256 .bf16) (harg1 : arg1.IsWhole)
    (arg2 : Memref sig .tc .vmem S1x1024x256 .bf16) (harg2 : arg2.IsWhole)
    (arg3 : Memref sig .tc .vmem S3x128x96 .bf16) (harg3 : arg3.IsWhole)
    (arg4 : Memref sig .tc .vmem S128x1 .f32) (harg4 : arg4.IsWhole)
    (arg5 : Memref sig .tc .vmem S3x15x64x256 .f32) (harg5 : arg5.IsWhole)
    (x0 : Vec F S6x1024x256 .bf16) (x1 : Vec F S1x1024x256 .bf16) (x2 : Vec F S3x128x96 .bf16) (x3 : Vec F S128x1 .f32) :
    { L : List (View.Piece (Elt F) S3x15x64x256 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E (cc0__glu_body i arg1 harg1 arg2 harg2 arg3 harg3 arg4 harg4 arg5 harg5) K } := by
  refine ⟨?_, fun E K => ?run⟩
  case run =>
    simp only [cc0__glu_body_eq_skeleton]; unfold cc0__glu_body_skel
    simp only [k0_part41_eq_skeleton]; unfold k0_part41_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [k0_part9_eq_skeleton]; unfold k0_part9_skel
    simp only [k0_part10_eq_skeleton]; unfold k0_part10_skel
    simp only [k0_part11_eq_skeleton]; unfold k0_part11_skel
    simp only [k0_part12_eq_skeleton]; unfold k0_part12_skel
    simp only [k0_part13_eq_skeleton]; unfold k0_part13_skel
    simp only [k0_part14_eq_skeleton]; unfold k0_part14_skel
    simp only [k0_part15_eq_skeleton]; unfold k0_part15_skel
    simp only [k0_part16_eq_skeleton]; unfold k0_part16_skel
    simp only [k0_part17_eq_skeleton]; unfold k0_part17_skel
    simp only [k0_part18_eq_skeleton]; unfold k0_part18_skel
    simp only [k0_part19_eq_skeleton]; unfold k0_part19_skel
    simp only [k0_part20_eq_skeleton]; unfold k0_part20_skel
    simp only [k0_part21_eq_skeleton]; unfold k0_part21_skel
    simp only [k0_part22_eq_skeleton]; unfold k0_part22_skel
    simp only [k0_part23_eq_skeleton]; unfold k0_part23_skel
    simp only [k0_part24_eq_skeleton]; unfold k0_part24_skel
    simp only [k0_part25_eq_skeleton]; unfold k0_part25_skel
    simp only [k0_part26_eq_skeleton]; unfold k0_part26_skel
    simp only [k0_part27_eq_skeleton]; unfold k0_part27_skel
    simp only [k0_part28_eq_skeleton]; unfold k0_part28_skel
    simp only [k0_part29_eq_skeleton]; unfold k0_part29_skel
    simp only [k0_part30_eq_skeleton]; unfold k0_part30_skel
    simp only [k0_part31_eq_skeleton]; unfold k0_part31_skel
    simp only [k0_part32_eq_skeleton]; unfold k0_part32_skel
    simp only [k0_part33_eq_skeleton]; unfold k0_part33_skel
    simp only [k0_part34_eq_skeleton]; unfold k0_part34_skel
    simp only [k0_part35_eq_skeleton]; unfold k0_part35_skel
    simp only [k0_part36_eq_skeleton]; unfold k0_part36_skel
    simp only [k0_part37_eq_skeleton]; unfold k0_part37_skel
    simp only [k0_part38_eq_skeleton]; unfold k0_part38_skel
    simp only [k0_part39_eq_skeleton]; unfold k0_part39_skel
    simp only [k0_part40_eq_skeleton]; unfold k0_part40_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KernelData.lean ====
/-
  The proof data of the kernel's one pipeline, for any float instance, and the body obligation at every grid point.

  The arrays are read as the region finds them: after the nine host operations before it.  Two windows read ONE
  array (the re-laid input, [32,1024,256]): window 0 a block of six rows at rows 6t..6t+5, window 1 the single row
  6t+6; each holds half of the array's share.  After the body every input buffer holds its block unchanged and
  the output buffer holds the body's 45 tiles.
-/
import proofs.«176583_g2000106783720467_pallasbulk_1336_18_alg».proof.Proof.KernelBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => (s₀ m ρ).mem ((c : Dev nD), b)
/-- and when the region is entered: the nine host operations have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- No block of window 0 met on the grid reaches past the array's 32 rows (6·4 + 6 ≤ 32): none is cut. -/
theorem clip0_none : ∀ (t : Fin cfg0.N) (a), (cfg0.win 0).clip (cfg0.grid.coords t) a = none :=
  (by decide +kernel : ∀ (t : Fin grid0.N) (a), win0_0.clip (grid0.coords t) a = none)

/-- Window 0's staging buffer once its fetch at point `t` has landed: the six rows of the block (a filler where a
    cut fetch would leave the buffer alone: nowhere, on this grid). -/
def xin0 (c : Dev nD) (t : Fin cfg0.N) : S6x1024x256.Idx → Elt F .bf16 :=
  win0_0.fill (grid0.coords t) (fun _ => Scalar.ofBits .bf16 0#16) (iblk m ρ c 0 t)

/-! ## What the body leaves in the output buffer -/

/-- The body's tiles cover the output block. -/
theorem cover (c : Dev nD) (i : grid0.Coords)
    (arg1 : Memref sig .tc .vmem S6x1024x256 .bf16) (harg1 : arg1.IsWhole)
    (arg2 : Memref sig .tc .vmem S1x1024x256 .bf16) (harg2 : arg2.IsWhole)
    (arg3 : Memref sig .tc .vmem S3x128x96 .bf16) (harg3 : arg3.IsWhole)
    (arg4 : Memref sig .tc .vmem S128x1 .f32) (harg4 : arg4.IsWhole)
    (arg5 : Memref sig .tc .vmem S3x15x64x256 .f32) (harg5 : arg5.IsWhole)
    (x0 : Vec F S6x1024x256 .bf16) (x1 : Vec F S1x1024x256 .bf16) (x2 : Vec F S3x128x96 .bf16) (x3 : Vec F S128x1 .f32)
    (y : S3x15x64x256.Idx) :
    ∃ pc ∈ (bodyRun c i arg1 harg1 arg2 harg2 arg3 harg3 arg4 harg4 arg5 harg5 x0 x1 x2 x3).1, y ∈ pc.1.set :=
  View.cover_of_tiledL (bodyRun c i arg1 harg1 arg2 harg2 arg3 harg3 arg4 harg4 arg5 harg5 x0 x1 x2 x3).1 S1x1x64x256.size (by sl_kernel_rfl) y

/-- The output buffer after the body at point `t`, from the input buffers' contents: the tiles laid over the block. -/
def outBlk (c : Dev nD) (t : Fin cfg0.N)
    (x0 : Vec F S6x1024x256 .bf16) (x1 : Vec F S1x1024x256 .bf16) (x2 : Vec F S3x128x96 .bf16) (x3 : Vec F S128x1 .f32) :
    Vec F S3x15x64x256 .f32 :=
  View.canon (bodyRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) x0 x1 x2 x3).1

/-! ## The proof data -/

/-- On core `c`: the arrays at their region-entry contents; after the body each input buffer at its block and the
    output buffer at the body's tiles; the invariant the scoped buffers no window stages; windows 0 and 1 each hold
    half of their common array; nothing owed. -/
def dats (_ : Fin 1) (c : Dev nD) : Dat τ (Elt F) Unit ℕ (UR sig nD τ) ℕ cfg0 c where
  A w := V m ρ c (Pipeline.arrRef spec0 w)
  after w t := match w with
    | ⟨0, _⟩ => xin0 m ρ c t
    | ⟨1, _⟩ => iblk m ρ c 1 t
    | ⟨2, _⟩ => iblk m ρ c 2 t
    | ⟨3, _⟩ => iblk m ρ c 3 t
    | ⟨4, _⟩ => outBlk c t (xin0 m ρ c t) (iblk m ρ c 1 t) (iblk m ρ c 2 t) (iblk m ρ c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = xin0 m ρ c t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) :
    (dats m ρ 0 c).after 4 t = outBlk c t (xin0 m ρ c t) (iblk m ρ c 1 t) (iblk m ρ c 2 t) (iblk m ρ c 3 t) := by dsimp only [dats]

/-- Window 0 is fetched at every point, uncut: its buffer holds the block whatever it held before. -/
theorem before0_0 (c : Dev nD) (t : Fin cfg0.N) (d) : (dats m ρ 0 c).before 0 t d = xin0 m ρ c t := by
  unfold Dat.before; rw [if_pos (fetch0_0 t)]
  refine ((dats m ρ 0 c).fetched_of_clip_none 0 t (clip0_none t) d (fun _ => Scalar.ofBits .bf16 0#16)).trans ?_
  unfold Dat.fetched Dat.blockOf xin0 iblk
  rw [A_eq]

/-- Windows 1, 2, 3 are uncut and never idle, and the body leaves their blocks in place: fetched at this point or
    not, the buffer holds the block. -/
theorem before0_1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t))

set_option maxHeartbeats 1000000 in
/-- The body at any point: the inputs' buffers hold their blocks, so the body's run applies; the invariant and what
    the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4]
  unfold outBlk
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (xin0 m ρ c t) (iblk m ρ c 1 t) (iblk m ρ c 2 t) (iblk m ρ c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover c _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.KernelRun.lean ====
/-
  The run of the whole program, for any float instance: the nine host operations that re-lay the inputs, the kernel
  region over its five grid points, and the closing transpose.  Every weakly fair execution terminates, nothing
  faulting, and every unscoped buffer ends at the closing transpose's valuation: the result at the transpose of
  what the region wrote, each argument as launched.

  The region reads ONE array through two windows, so the array's share is dealt in halves between them at the
  region's entry and put together again at its exit: both halves still hold the entry contents, an input array
  being never written.
-/
import proofs.«176583_g2000106783720467_pallasbulk_1336_18_alg».proof.Proof.KernelData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers throughout: the core owing nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The region's result array when the region ends: the five blocks written back. -/
def out9 (c : Dev nD) : Buf (Elt F) ((c : Thread nD τ).loc main_call0_v9) := (dats m ρ 0 c).arrAt 4 cfg0.N

/-- The buffers when the region ends: the result array as the region left it, every other as the region found it. -/
def V1 (c : Dev nD) : Valuation τ sig (Elt F) :=
  Function.update (StableHlo.after hostOps0 (V₀ m ρ c)) (Proc.devRef .tc main_call0_v9) (out9 m ρ c)

/-- The nine host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m ρ) R

/-- The transpose after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (List.forall_iff_forall_mem.mp hostOps1_fresh) (V1 m ρ) R

theorem share_0 (c : Dev nD) : (dats m ρ 0 c).share 0 = fullShare.left := rfl
theorem share_1 (c : Dev nD) : (dats m ρ 0 c).share 1 = fullShare.right := rfl
theorem share_2 (c : Dev nD) : (dats m ρ 0 c).share 2 = fullShare := rfl
theorem share_3 (c : Dev nD) : (dats m ρ 0 c).share 3 = fullShare := rfl
theorem share_4 (c : Dev nD) : (dats m ρ 0 c).share 4 = fullShare := rfl

theorem arr_image : (Finset.univ.image (Pipeline.arrRef spec0)) = {main_call0_v2, main_call0_v6, main_call0_v8, main_call0_v9} := by decide

/-- The pipeline's arrays at contents `G`, window by window, each a whole buffer at its share. -/
theorem arrays_chain (c : Dev nD) (G : (w : Fin cfg0.W) → Buf (Elt F) ((cfg0.win w).arr.view.loc (c : Thread nD τ))) :
    ((dats m ρ 0 c).arrays G : sProp 𝕄)
      = iprop((((c : Thread nD τ).loc main_call0_v2) ↦{fullShare.left} G 0) ∗ (((c : Thread nD τ).loc main_call0_v2) ↦{fullShare.right} G 1)
          ∗ (((c : Thread nD τ).loc main_call0_v6) ↦{fullShare} G 2) ∗ (((c : Thread nD τ).loc main_call0_v8) ↦{fullShare} G 3)
          ∗ (((c : Thread nD τ).loc main_call0_v9) ↦{fullShare} G 4)) := by
  unfold Dat.arrays
  rw [bigSep_W0]
  rw [(arr_whole0 0).set_eq_univ, (arr_whole0 2).set_eq_univ, (arr_whole0 3).set_eq_univ, (arr_whole0 4).set_eq_univ,
    share_0, share_1, share_2, share_3, share_4]

/-- The four buffers behind the windows' arrays, each whole at the full share. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_call0_v2) ↦{fullShare} W main_call0_v2) ∗ (((c : Thread nD τ).loc main_call0_v6) ↦{fullShare} W main_call0_v6)
          ∗ (((c : Thread nD τ).loc main_call0_v8) ↦{fullShare} W main_call0_v8) ∗ (((c : Thread nD τ).loc main_call0_v9) ↦{fullShare} W main_call0_v9)) := by
  unfold Pipeline.arrBufs
  rw [arr_image, bigSep_insert (by decide), bigSep_insert (by decide), bigSep_insert (by decide), bigSep_singleton]
  rfl

/-- Dealing the shared array's share in halves: the four buffers at `W` are the five windows' arrays at `W`. -/
theorem arrBufs_to_arrays (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m ρ 0 c).arrays (fun w => W (Pipeline.arrRef spec0 w)) := by
  rw [arrBufs_chain, arrays_chain]
  iintro ⟨H2, H6, H8, H9⟩
  ihave H2 := (pointsTo_share (PosShare.mem_left_op_right fullShare)).1 $$ H2
  icases H2 with ⟨H2l, H2r⟩
  isplitl [H2l]; · iexact H2l
  isplitl [H2r]; · iexact H2r
  isplitl [H6]; · iexact H6
  isplitl [H8]; · iexact H8
  iexact H9

/-- And back: the two halves hold the same contents, so the array is whole again. -/
theorem arrays_to_arrBufs (c : Dev nD) (W : (b : Ref sig .tc) → Buf (Elt F) ((c : Thread nD τ).loc b)) :
    ((dats m ρ 0 c).arrays (fun w => W (Pipeline.arrRef spec0 w)) : sProp 𝕄)
      ⊢ Pipeline.arrBufs (Ix := Unit) (Name := ℕ) (U := UR sig nD τ) (Lvl := ℕ) spec0 c W := by
  rw [arrBufs_chain, arrays_chain]
  iintro ⟨H2l, H2r, H6, H8, H9⟩
  isplitl [H2l H2r]
  · iapply (pointsTo_share (PosShare.mem_left_op_right fullShare)).2
    isplitl [H2l]; · iexact H2l
    iexact H2r
  isplitl [H6]; · iexact H6
  isplitl [H8]; · iexact H8
  iexact H9

/-! ## The buffers when the region ends -/

/-- The same read at a TensorCore reference. -/
abbrev W1 (c : Dev nD) (b : Ref sig .tc) : Buf (Elt F) ((c : Thread nD τ).loc b) := V1 m ρ c b

theorem W1_of_ne (c : Dev nD) (b : Ref sig .tc) (h : b ≠ main_call0_v9) : W1 m ρ c b = V m ρ c b := by
  unfold W1 V1; exact Function.update_of_ne (StableHlo.devRef_ne_of_ne h) _ _
theorem W1_v9 (c : Dev nD) : W1 m ρ c main_call0_v9 = out9 m ρ c := by
  unfold W1 V1; exact Function.update_self _ _ _

/-- The arrays when the region ends: the inputs' as found (never written), the result's with its five blocks. -/
theorem arrAt_N (c : Dev nD) (w : Fin cfg0.W) : (dats m ρ 0 c).arrAt w cfg0.N = W1 m ρ c (Pipeline.arrRef spec0 w) := by
  match w with
  | ⟨0, _⟩ => exact ((dats m ρ 0 c).arrAt_in 0 rfl _).trans ((A_eq m ρ c 0).trans (W1_of_ne m ρ c _ (by decide)).symm)
  | ⟨1, _⟩ => exact ((dats m ρ 0 c).arrAt_in 1 rfl _).trans ((A_eq m ρ c 1).trans (W1_of_ne m ρ c _ (by decide)).symm)
  | ⟨2, _⟩ => exact ((dats m ρ 0 c).arrAt_in 2 rfl _).trans ((A_eq m ρ c 2).trans (W1_of_ne m ρ c _ (by decide)).symm)
  | ⟨3, _⟩ => exact ((dats m ρ 0 c).arrAt_in 3 rfl _).trans ((A_eq m ρ c 3).trans (W1_of_ne m ρ c _ (by decide)).symm)
  | ⟨4, _⟩ => exact (W1_v9 m ρ c).symm

/-- The buffers no window stages are as the region found them. -/
theorem rest_eq (c : Dev nD) :
    (Pipeline.unscopedRest (Ix := Unit) (Name := ℕ) (U := UR sig nD τ) (Lvl := ℕ) spec0 c (V m ρ c) : sProp 𝕄)
      = Pipeline.unscopedRest spec0 c (W1 m ρ c) := by
  unfold Pipeline.unscopedRest
  exact bigSep_congr fun b hb => by
    rw [W1_of_ne m ρ c b (fun e => (Finset.mem_sdiff.mp hb).2 (Finset.mem_image.mpr ⟨4, Finset.mem_univ _, e.symm⟩))]

/-! ## The region -/

set_option backward.isDefEq.respectTransparency.types false in
/-- The kernel region: entered from what the host operations left — the four array buffers dealt to the five windows,
    every other unscoped buffer bypassing —, left with the result array written and the rest as found. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V1 m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm]
    rw [Pipeline.unscopedBufs_split₀ cfgs 0 winFacts₀0.arr_unscoped c (V m ρ c)]
    rw [show (fun x => (dats m ρ 0 c).arrAt x 0) = fun w => V m ρ c (Pipeline.arrRef spec0 w) from funext fun w => A_eq m ρ c w]
    iintro ⟨⟨⟨Ha, HZ⟩, HO⟩, -, -⟩
    imodintro
    isplitl [Ha]
    · iapply (arrBufs_to_arrays m ρ c (V m ρ c)); iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m ρ 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m ρ 0 c).Φ (Fin.last (Pipeline.pin pcfgs adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show (fun x => (dats m ρ 0 c).arrAt x (Pipeline.pin pcfgs adm 0).N) = fun w => W1 m ρ c (Pipeline.arrRef spec0 w) from funext fun w => arrAt_N m ρ c w]
    rw [rest_eq m ρ c]
    rw [show StableHlo.held (c : Thread nD τ) (Pipeline.ucRefs τ sig) (V1 m ρ c) = unscopedBufs c (W1 m ρ c) from (Pipeline.unscopedBufs_held c _).symm,
      Pipeline.unscopedBufs_split₀ cfgs 0 winFacts₀0.arr_unscoped c (W1 m ρ c)]
    iintro ⟨Ha, HO, -, HZ⟩
    imodintro
    isplitr [HO]
    · isplitl [Ha]
      · iapply (arrays_to_arrBufs m ρ c (W1 m ρ c)); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) :=
  [.host (seg0 m ρ), .region (reg0 m ρ), .host (seg1 m ρ)]

/-- The launch element: the pipeline library's at the staging cells and the pipeline's transfers. -/
def u₀ : UR sig nD τ := initOf (Pipeline.cells cfgs cellOf_inj) (Pipeline.launchToks cfgs cellOf_inj)

/-- Every unscoped buffer when the program ends: the closing transpose applied to the buffers the region left. -/
abbrev Vend (c : Dev nD) : Valuation τ sig (Elt F) := StableHlo.after hostOps1 (V1 m ρ c)

set_option backward.isDefEq.respectTransparency.types false in
/-- At the compiled mesh, for any float values, from any memory with zero counters: every weakly fair execution of
    @main on the TensorCores terminates, and in every final state every unscoped buffer holds `Vend`. -/
theorem run_main : θ_run defs (onTc (τ := τ) (main (F := F))) (s₀ m ρ)
    (fun r => ∀ c : Dev nD, ∀ b ∈ Pipeline.ucRefs τ sig, r.2.mem ((c : Thread nD τ).1, b) = Vend m ρ c b) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Vend m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vend m ρ c b)
    (hfin := fun c s' => by
      unfold StableHlo.held
      iintro ⟨Hh, HSI⟩
      ihave Hr := (pointsTo_read_all (Pipeline.ucRefs τ sig) (fun b => ((c : Thread nD τ).1, b)) (Vend m ρ c) s') $$ [Hh HSI]
      · isplitl [Hh] <;> iassumption
      icases Hr with ⟨%hr, HSI⟩
      imodintro
      isplitr; · ipureintro; exact hr
      iexact HSI)
    (hQ := fun _ h => h)

/-! ## The arguments end as launched -/

theorem mem_ucRefs (b : Ref sig .tc) (h : b.isScoped = false) : (Proc.devRef .tc b : DevRef τ sig) ∈ Pipeline.ucRefs τ sig :=
  Finset.mem_filter.mpr ⟨StableHlo.devRef_mem_tcRefs b, by simpa using h⟩

/-- No host operation, before the region or after it, writes `main_arg0`, and the region's windows do not stage it:
    it ends as launched. -/
theorem Vend_main_arg0 (c : Dev nD) : Vend m ρ c main_arg0 = m ((c : Thread nD τ).loc main_arg0) := by
  have h1 : Vend m ρ c main_arg0 = V1 m ρ c main_arg0 :=
    StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg0 = V m ρ c main_arg0 := W1_of_ne m ρ c main_arg0 (by decide)
  have h3 : V m ρ c main_arg0 = m ((c : Thread nD τ).loc main_arg0) :=
    StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg1`, and the region's windows do not stage it:
    it ends as launched. -/
theorem Vend_main_arg1 (c : Dev nD) : Vend m ρ c main_arg1 = m ((c : Thread nD τ).loc main_arg1) := by
  have h1 : Vend m ρ c main_arg1 = V1 m ρ c main_arg1 :=
    StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg1 = V m ρ c main_arg1 := W1_of_ne m ρ c main_arg1 (by decide)
  have h3 : V m ρ c main_arg1 = m ((c : Thread nD τ).loc main_arg1) :=
    StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg2`, and the region's windows do not stage it:
    it ends as launched. -/
theorem Vend_main_arg2 (c : Dev nD) : Vend m ρ c main_arg2 = m ((c : Thread nD τ).loc main_arg2) := by
  have h1 : Vend m ρ c main_arg2 = V1 m ρ c main_arg2 :=
    StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg2 = V m ρ c main_arg2 := W1_of_ne m ρ c main_arg2 (by decide)
  have h3 : V m ρ c main_arg2 = m ((c : Thread nD τ).loc main_arg2) :=
    StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg3`, and the region's windows do not stage it:
    it ends as launched. -/
theorem Vend_main_arg3 (c : Dev nD) : Vend m ρ c main_arg3 = m ((c : Thread nD τ).loc main_arg3) := by
  have h1 : Vend m ρ c main_arg3 = V1 m ρ c main_arg3 :=
    StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg3 = V m ρ c main_arg3 := W1_of_ne m ρ c main_arg3 (by decide)
  have h3 : V m ρ c main_arg3 = m ((c : Thread nD τ).loc main_arg3) :=
    StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg4`, and the region's windows do not stage it:
    it ends as launched. -/
theorem Vend_main_arg4 (c : Dev nD) : Vend m ρ c main_arg4 = m ((c : Thread nD τ).loc main_arg4) := by
  have h1 : Vend m ρ c main_arg4 = V1 m ρ c main_arg4 :=
    StableHlo.after_of_forall_not_mem (b := Proc.devRef .tc main_arg4) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg4 = V m ρ c main_arg4 := W1_of_ne m ρ c main_arg4 (by decide)
  have h3 : V m ρ c main_arg4 = m ((c : Thread nD τ).loc main_arg4) :=
    StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- THE FRAME: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucRefs main_arg0 (by decide))).trans (Vend_main_arg0 m ρ c),
     (h c _ (mem_ucRefs main_arg1 (by decide))).trans (Vend_main_arg1 m ρ c),
     (h c _ (mem_ucRefs main_arg2 (by decide))).trans (Vend_main_arg2 m ρ c),
     (h c _ (mem_ucRefs main_arg3 (by decide))).trans (Vend_main_arg3 m ρ c),
     (h c _ (mem_ucRefs main_arg4 (by decide))).trans (Vend_main_arg4 m ρ c)⟩) (run_main m ρ)

end Cert.Kernel.Hand

end
-- ==== Proof.KernelIdealBody.lean ====
/-
  The kernel body's run on whole staging memrefs, for any float instance: the five windows' buffers in, the four
  inputs' buffers back unchanged and the output's buffer with the body's 45 stores written, one [1,1,64,256] tile
  per output row r < 3 of the point and output column ow < 15.  The tiles are found by running the body; that they
  tile the [3,15,64,256] block is checked by evaluation.
-/
import proofs.«176583_g2000106783720467_pallasbulk_1336_18_alg».proof.Proof.Gen.KernelIdeal.Launch
import proofs.«176583_g2000106783720467_pallasbulk_1336_18_alg».proof.Proof.Gen.KernelIdeal.Skeleton
import proofs.«176583_g2000106783720467_pallasbulk_1336_18_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores into the output buffer, as pieces (last first), with the run that leaves them: the inputs'
    buffers are only read, the output's buffer is read (the values unused) and then covered tile by tile. -/
noncomputable def bodyRun (c : Dev nD) (i : grid0.Coords)
    (arg1 : Memref sig .tc .vmem S6x1024x256 .bf16) (harg1 : arg1.IsWhole)
    (arg2 : Memref sig .tc .vmem S1x1024x256 .bf16) (harg2 : arg2.IsWhole)
    (arg3 : Memref sig .tc .vmem S3x128x96 .bf16) (harg3 : arg3.IsWhole)
    (arg4 : Memref sig .tc .vmem S128x1 .f32) (harg4 : arg4.IsWhole)
    (arg5 : Memref sig .tc .vmem S3x15x64x256 .f32) (harg5 : arg5.IsWhole)
    (x0 : Vec F S6x1024x256 .bf16) (x1 : Vec F S1x1024x256 .bf16) (x2 : Vec F S3x128x96 .bf16) (x3 : Vec F S128x1 .f32) :
    { L : List (View.Piece (Elt F) S3x15x64x256 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E (cc0__glu_body i arg1 harg1 arg2 harg2 arg3 harg3 arg4 harg4 arg5 harg5) K } := by
  refine ⟨?_, fun E K => ?run⟩
  case run =>
    simp only [cc0__glu_body_eq_skeleton]; unfold cc0__glu_body_skel
    simp only [k0_part41_eq_skeleton]; unfold k0_part41_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [k0_part9_eq_skeleton]; unfold k0_part9_skel
    simp only [k0_part10_eq_skeleton]; unfold k0_part10_skel
    simp only [k0_part11_eq_skeleton]; unfold k0_part11_skel
    simp only [k0_part12_eq_skeleton]; unfold k0_part12_skel
    simp only [k0_part13_eq_skeleton]; unfold k0_part13_skel
    simp only [k0_part14_eq_skeleton]; unfold k0_part14_skel
    simp only [k0_part15_eq_skeleton]; unfold k0_part15_skel
    simp only [k0_part16_eq_skeleton]; unfold k0_part16_skel
    simp only [k0_part17_eq_skeleton]; unfold k0_part17_skel
    simp only [k0_part18_eq_skeleton]; unfold k0_part18_skel
    simp only [k0_part19_eq_skeleton]; unfold k0_part19_skel
    simp only [k0_part20_eq_skeleton]; unfold k0_part20_skel
    simp only [k0_part21_eq_skeleton]; unfold k0_part21_skel
    simp only [k0_part22_eq_skeleton]; unfold k0_part22_skel
    simp only [k0_part23_eq_skeleton]; unfold k0_part23_skel
    simp only [k0_part24_eq_skeleton]; unfold k0_part24_skel
    simp only [k0_part25_eq_skeleton]; unfold k0_part25_skel
    simp only [k0_part26_eq_skeleton]; unfold k0_part26_skel
    simp only [k0_part27_eq_skeleton]; unfold k0_part27_skel
    simp only [k0_part28_eq_skeleton]; unfold k0_part28_skel
    simp only [k0_part29_eq_skeleton]; unfold k0_part29_skel
    simp only [k0_part30_eq_skeleton]; unfold k0_part30_skel
    simp only [k0_part31_eq_skeleton]; unfold k0_part31_skel
    simp only [k0_part32_eq_skeleton]; unfold k0_part32_skel
    simp only [k0_part33_eq_skeleton]; unfold k0_part33_skel
    simp only [k0_part34_eq_skeleton]; unfold k0_part34_skel
    simp only [k0_part35_eq_skeleton]; unfold k0_part35_skel
    simp only [k0_part36_eq_skeleton]; unfold k0_part36_skel
    simp only [k0_part37_eq_skeleton]; unfold k0_part37_skel
    simp only [k0_part38_eq_skeleton]; unfold k0_part38_skel
    simp only [k0_part39_eq_skeleton]; unfold k0_part39_skel
    simp only [k0_part40_eq_skeleton]; unfold k0_part40_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.LibSumTiles.lean ====
import Mathlib.Algebra.BigOperators.Fin
import Mathlib.Algebra.BigOperators.Intervals

/-!
# A sum over `a · b` consecutive rows is the sum over `a` tiles of `b` rows

General arithmetic for kernels that walk an array tile by tile and add each tile's sum to a running total: the total
over all `a · b` rows of any commutative monoid-valued function of the row number is the sum, over the `a` tiles, of
each tile's `b` rows; and the running total after the first `n + 1` tiles splits off its last tile.
-/

open scoped BigOperators

namespace Cert.LibSumTiles

/-- The rows `0 … a·b − 1` summed are the tiles `0 … a − 1` summed, each over its rows `t·b … t·b + b − 1`. -/
theorem sum_fin_mul {M : Type*} [AddCommMonoid M] (a b : ℕ) (g : ℕ → M) :
    ∑ k : Fin (a * b), g k.val = ∑ t : Fin a, ∑ r : Fin b, g (t.val * b + r.val) := by
  induction a with
  | zero => rw [Fin.sum_univ_eq_sum_range (fun k => g k) (0 * b)]; simp
  | succ a ih =>
    rw [Fin.sum_univ_castSucc (f := fun t : Fin (a + 1) => ∑ r : Fin b, g (t.val * b + r.val))]
    simp only [Fin.val_castSucc, Fin.val_last]
    rw [← ih, Fin.sum_univ_eq_sum_range (fun k => g k) ((a + 1) * b), Fin.sum_univ_eq_sum_range (fun k => g k) (a * b),
      Fin.sum_univ_eq_sum_range (fun r => g (a * b + r)) b, Nat.succ_mul, Finset.sum_range_add]

/-- The first `n + 2` tiles are the first `n + 1` and one more. -/
theorem sum_tiles_succ {M : Type*} [AddCommMonoid M] (n b : ℕ) (g : ℕ → M) :
    ∑ t : Fin (n + 2), ∑ r : Fin b, g (t.val * b + r.val)
      = (∑ t : Fin (n + 1), ∑ r : Fin b, g (t.val * b + r.val)) + ∑ r : Fin b, g ((n + 1) * b + r.val) := by
  rw [Fin.sum_univ_castSucc (f := fun t : Fin (n + 2) => ∑ r : Fin b, g (t.val * b + r.val))]
  simp only [Fin.val_castSucc, Fin.val_last]

end Cert.LibSumTiles
-- ==== Proof.Spec.lean ====
/-
  The common specification of the two programs: a gated 3x3 convolution of stride 2, without padding.

  For an image n, an output channel co < 64 and an output position (oh, ow) < 15 x 15 the result is

      lin * gate,   lin = S co + b co,   g = S (64 + co) + b (64 + co),
      gate = (1 if g >= 0, else exp (0 - |g|)) / (1 + exp (0 - |g|)),

  where S c is the sum over the taps (kh, kw, ci) < 3 x 3 x 32 of w (c, ci, kh, kw) * x (n, ci, 2 oh + kh, 2 ow + kw) over the
  128 stacked filters w, with the stacked biases b.  One program adds the taps row by row of the window (kh outside,
  the 96 pairs (kw, ci) inside), the other column by column (kw outside, the 96 pairs (kh, ci) inside); both are the
  same sum of 288 terms, addition on the extended reals being commutative and associative.
-/
import Idealize.ShloMosaic.PureOps.Ideal
import Idealize.ShloMosaic.Lib.ValueIdx
import proofs.«176583_g2000106783720467_pallasbulk_1336_18_alg».proof.Proof.LibSumTiles

noncomputable section

open scoped BigOperators

namespace Cert.Glu

open Idealize.ShloMosaic Idealize.ShloMosaic.ValueIdx

abbrev XSh : Shape := ⟨4, ![256, 32, 32, 32]⟩
abbrev WSh : Shape := ⟨4, ![128, 32, 3, 3]⟩
abbrev BSh : Shape := ⟨1, ![128]⟩
abbrev OSh : Shape := ⟨4, ![256, 64, 15, 15]⟩

/-- The gate applied to the linear branch, as both bodies compute it, for any float instance. -/
def gate {F : FTy → Type} [FloatOps F] (lin g : F .f32) : F .f32 :=
  FloatOps.mulf lin (FloatOps.divf
    (Scalar.select (FloatOps.cmpf .oge g (Scalar.ofBits .f32 0x00000000#32)) (Scalar.ofBits .f32 0x3F800000#32)
      (FloatOps.exp (FloatOps.subf (Scalar.ofBits .f32 0x00000000#32) (FloatOps.absf g))))
    (FloatOps.addf (Scalar.ofBits .f32 0x3F800000#32)
      (FloatOps.exp (FloatOps.subf (Scalar.ofBits .f32 0x00000000#32) (FloatOps.absf g)))))

/-- One tap: filter c's weight at (ci, kh, kw) times the image's entry under it. -/
def tap (w : WSh.Idx → EReal) (x : XSh.Idx → EReal) (n : Fin 256) (c : Fin 128) (oh ow : Fin 15) (kh kw : Fin 3) (ci : Fin 32) : EReal :=
  w (ix4 c ci kh kw) * x (ix4 n ci ⟨2 * oh.val + kh.val, by omega⟩ ⟨2 * ow.val + kw.val, by omega⟩)

/-- The pair (k, ci) a position j < 96 of a window row or column stands for: j = 32 k + ci. -/
abbrev hi (j : Fin 96) : Fin 3 := ⟨j.val / 32, by omega⟩
abbrev lo (j : Fin 96) : Fin 32 := ⟨j.val % 32, Nat.mod_lt _ (by decide)⟩

/-- The taps added row by row of the window: kh outside, (kw, ci) inside. -/
def convRows (w : WSh.Idx → EReal) (x : XSh.Idx → EReal) (n : Fin 256) (c : Fin 128) (oh ow : Fin 15) : EReal :=
  ((∑ j : Fin 96, tap w x n c oh ow 0 (hi j) (lo j)) + ∑ j : Fin 96, tap w x n c oh ow 1 (hi j) (lo j))
    + ∑ j : Fin 96, tap w x n c oh ow 2 (hi j) (lo j)

/-- The taps added column by column: kw outside, (kh, ci) inside. -/
def convCols (w : WSh.Idx → EReal) (x : XSh.Idx → EReal) (n : Fin 256) (c : Fin 128) (oh ow : Fin 15) : EReal :=
  ((∑ j : Fin 96, tap w x n c oh ow (hi j) 0 (lo j)) + ∑ j : Fin 96, tap w x n c oh ow (hi j) 1 (lo j))
    + ∑ j : Fin 96, tap w x n c oh ow (hi j) 2 (lo j)

/-- All 288 taps. -/
def conv (w : WSh.Idx → EReal) (x : XSh.Idx → EReal) (n : Fin 256) (c : Fin 128) (oh ow : Fin 15) : EReal :=
  ∑ kh : Fin 3, ∑ kw : Fin 3, ∑ ci : Fin 32, tap w x n c oh ow kh kw ci

/-- Channel co of the linear branch, and of the gate branch, among the 128 stacked filters. -/
abbrev linCh (co : Fin 64) : Fin 128 := ⟨co.val, by omega⟩
abbrev gateCh (co : Fin 64) : Fin 128 := ⟨co.val + 64, by omega⟩

/-- The result with the taps added row by row (the kernel's form), -/
def rowsForm (w : WSh.Idx → EReal) (b : BSh.Idx → EReal) (x : XSh.Idx → EReal) : OSh.Idx → EReal := fun i =>
  gate (F := Ideal) (convRows w x (i 0) (linCh (i 1)) (i 2) (i 3) + b (ix1 (linCh (i 1))))
    (convRows w x (i 0) (gateCh (i 1)) (i 2) (i 3) + b (ix1 (gateCh (i 1))))

/-- column by column (the reference's form), -/
def colsForm (w : WSh.Idx → EReal) (b : BSh.Idx → EReal) (x : XSh.Idx → EReal) : OSh.Idx → EReal := fun i =>
  gate (F := Ideal) (convCols w x (i 0) (linCh (i 1)) (i 2) (i 3) + b (ix1 (linCh (i 1))))
    (convCols w x (i 0) (gateCh (i 1)) (i 2) (i 3) + b (ix1 (gateCh (i 1))))

/-- A sum over the 96 positions j = 32 k + ci is the double sum over (k, ci). -/
theorem sum_pairs {M : Type*} [AddCommMonoid M] (f : Fin 3 → Fin 32 → M) :
    ∑ j : Fin 96, f (hi j) (lo j) = ∑ k : Fin 3, ∑ ci : Fin 32, f k ci := by
  have h := Cert.LibSumTiles.sum_fin_mul 3 32
    (fun n => if h : n < 96 then f ⟨n / 32, by omega⟩ ⟨n % 32, Nat.mod_lt _ (by decide)⟩ else 0)
  refine (Finset.sum_congr rfl fun j _ => ?_).trans (h.trans (Finset.sum_congr rfl fun k _ => Finset.sum_congr rfl fun ci _ => ?_))
  · rw [dif_pos j.isLt]
  · have hk := k.isLt
    have hc := ci.isLt
    have h1 : k.val * 32 + ci.val < 96 := by omega
    rw [dif_pos h1]
    have e1 : (k.val * 32 + ci.val) / 32 = k.val := by omega
    have e2 : (k.val * 32 + ci.val) % 32 = ci.val := by omega
    congr 1
    · exact Fin.ext e1
    · exact Fin.ext e2

theorem convRows_eq (w : WSh.Idx → EReal) (x : XSh.Idx → EReal) (n : Fin 256) (c : Fin 128) (oh ow : Fin 15) :
    convRows w x n c oh ow = conv w x n c oh ow := by
  unfold convRows conv
  rw [sum_pairs (fun k ci => tap w x n c oh ow 0 k ci), sum_pairs (fun k ci => tap w x n c oh ow 1 k ci),
    sum_pairs (fun k ci => tap w x n c oh ow 2 k ci)]
  exact (Fin.sum_univ_three (fun kh : Fin 3 => ∑ kw : Fin 3, ∑ ci : Fin 32, tap w x n c oh ow kh kw ci)).symm

theorem convCols_eq (w : WSh.Idx → EReal) (x : XSh.Idx → EReal) (n : Fin 256) (c : Fin 128) (oh ow : Fin 15) :
    convCols w x n c oh ow = conv w x n c oh ow := by
  unfold convCols conv
  rw [sum_pairs (fun k ci => tap w x n c oh ow k 0 ci), sum_pairs (fun k ci => tap w x n c oh ow k 1 ci),
    sum_pairs (fun k ci => tap w x n c oh ow k 2 ci)]
  rw [← Finset.sum_add_distrib, ← Finset.sum_add_distrib]
  exact Finset.sum_congr rfl fun kh _ => (Fin.sum_univ_three (fun kw : Fin 3 => ∑ ci : Fin 32, tap w x n c oh ow kh kw ci)).symm

/-- The two forms are one function: the same 288 taps, grouped by rows or by columns. -/
theorem rowsForm_eq_colsForm (w : WSh.Idx → EReal) (b : BSh.Idx → EReal) (x : XSh.Idx → EReal) :
    rowsForm w b x = colsForm w b x := by
  funext i
  have h : ∀ (n : Fin 256) (c : Fin 128) (oh ow : Fin 15), convRows w x n c oh ow = convCols w x n c oh ow :=
    fun n c oh ow => (convRows_eq w x n c oh ow).trans (convCols_eq w x n c oh ow).symm
  unfold rowsForm colsForm
  exact congrArg₂ (gate (F := Ideal)) (congrArg (· + b (ix1 (linCh (i 1)))) (h _ _ _ _)) (congrArg (· + b (ix1 (gateCh (i 1)))) (h _ _ _ _))

end Cert.Glu

end
-- ==== Proof.Mid.lean ====
/-
  The two programs' middle forms: each program's output ARRAY as one function, index by index, of the arrays its
  kernel region is entered with (the host operations before the region have re-laid the inputs already).

  Kernel side: X is the image re-laid [H, W*Cin, N] (row h, position 32 w + ci, image n), Wg the stacked filters
  re-laid [KH, 2 Cout, KW*Cin] (tap row kh, filter c, position 32 kw + ci), B the stacked biases as a column [128, 1].
  The output array is [Ho, Wo, Cout, N].

  Reference side: X is the image re-laid [N, H*Cin, W] (image n, position 32 h + ci, column w), Wg the stacked filters
  re-laid [KW, 2 Cout, KH*Cin] (tap column kw, filter c, position 32 kh + ci), Sel the three 0/1 selection matrices
  [KW, W, Wo], B as above.  The output array is [N, Cout, Ho*Wo].
-/
import proofs.«176583_g2000106783720467_pallasbulk_1336_18_alg».proof.Proof.Spec

noncomputable section

open scoped BigOperators

namespace Cert.Glu

open Idealize.ShloMosaic Idealize.ShloMosaic.ValueIdx

abbrev KX : Shape := ⟨3, ![32, 1024, 256]⟩
abbrev GW : Shape := ⟨3, ![3, 128, 96]⟩
abbrev BC : Shape := ⟨2, ![128, 1]⟩
abbrev KO : Shape := ⟨4, ![15, 15, 64, 256]⟩
abbrev RX : Shape := ⟨3, ![256, 1024, 32]⟩
abbrev SEL : Shape := ⟨3, ![3, 32, 15]⟩
abbrev RO : Shape := ⟨3, ![256, 64, 225]⟩

/-- Kernel side, one tap row: filter c's row k against the 96 window positions of image row 2 oh + k. -/
def kerRow (X : KX.Idx → EReal) (Wg : GW.Idx → EReal) (oh ow : Fin 15) (n : Fin 256) (c : Fin 128) (k : Fin 3) : EReal :=
  ∑ j : Fin 96, Wg (ix3 k c j) * X (ix3 (⟨2 * oh.val + k.val, by omega⟩ : Fin 32) (⟨64 * ow.val + j.val, by omega⟩ : Fin 1024) n)

/-- Kernel side: the three tap rows added in order, then the bias. -/
def kerAcc (X : KX.Idx → EReal) (Wg : GW.Idx → EReal) (B : BC.Idx → EReal) (oh ow : Fin 15) (n : Fin 256) (c : Fin 128) : EReal :=
  ((kerRow X Wg oh ow n c 0 + kerRow X Wg oh ow n c 1) + kerRow X Wg oh ow n c 2) + B (ix2 c (0 : Fin 1))

/-- The kernel region's output array [15, 15, 64, 256] from the arrays it is entered with. -/
def kerMid (X : KX.Idx → EReal) (Wg : GW.Idx → EReal) (B : BC.Idx → EReal) : KO.Idx → EReal := fun i =>
  gate (F := Ideal) (kerAcc X Wg B (i 0) (i 1) (i 3) (linCh (i 2))) (kerAcc X Wg B (i 0) (i 1) (i 3) (gateCh (i 2)))

/-- Reference side, one tap column: filter c's column k against the 96 slab positions, each the slab row's 32
    entries weighed by selection matrix k's column ow. -/
def refCol (X : RX.Idx → EReal) (Wg : GW.Idx → EReal) (S : SEL.Idx → EReal) (n : Fin 256) (oh ow : Fin 15) (c : Fin 128) (k : Fin 3) : EReal :=
  ∑ j : Fin 96, Wg (ix3 k c j) * ∑ w : Fin 32, X (ix3 n (⟨64 * oh.val + j.val, by omega⟩ : Fin 1024) w) * S (ix3 k w ow)

/-- Reference side: the three tap columns added in order, then the bias. -/
def refAcc (X : RX.Idx → EReal) (Wg : GW.Idx → EReal) (S : SEL.Idx → EReal) (B : BC.Idx → EReal) (n : Fin 256) (oh ow : Fin 15) (c : Fin 128) : EReal :=
  ((refCol X Wg S n oh ow c 0 + refCol X Wg S n oh ow c 1) + refCol X Wg S n oh ow c 2) + B (ix2 c (0 : Fin 1))

/-- The output row oh and column ow a flat position p = 15 oh + ow < 225 stands for. -/
abbrev rowOf (p : Fin 225) : Fin 15 := ⟨p.val / 15, by omega⟩
abbrev colOf (p : Fin 225) : Fin 15 := ⟨p.val % 15, Nat.mod_lt _ (by decide)⟩

/-- The reference region's output array [256, 64, 225] from the arrays it is entered with. -/
def refMid (X : RX.Idx → EReal) (Wg : GW.Idx → EReal) (S : SEL.Idx → EReal) (B : BC.Idx → EReal) : RO.Idx → EReal := fun i =>
  gate (F := Ideal) (refAcc X Wg S B (i 0) (rowOf (i 2)) (colOf (i 2)) (linCh (i 1)))
    (refAcc X Wg S B (i 0) (rowOf (i 2)) (colOf (i 2)) (gateCh (i 1)))

end Cert.Glu

end
-- ==== Proof.LibMlpRows.lean ====
/-
  Two-layer perceptron rows on the extended reals.

  A plain matrix product of an [E, K] array with a [K, H] array (the left operand contracted on its second axis, the
  right on its first) read at row r and column c is the sum over k of x (r, k) * w (k, c).  A concatenation of
  row-aligned pieces along the second axis reads, at column k, the piece whose span holds k.  So a product of a
  concatenation with W is the sum of the products of the pieces with the row bands of W: a finite sum split at the
  piece boundaries, which needs only that addition on the extended reals is commutative and associative.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.MlpRows

open Idealize.ShloMosaic Idealize.ShloMosaic.ValueIdx

/-- The dimension numbers of a plain product [E, K] × [K, H] → [E, H]. -/
abbrev pdot (E K H : ℕ) (wf : DotDims.WF ⟨2, ![E, K]⟩ ⟨2, ![K, H]⟩ ⟨2, ![E, H]⟩ [1] [0] [0] [1] [] []) :
    DotDims ⟨2, ![E, K]⟩ ⟨2, ![K, H]⟩ ⟨2, ![E, H]⟩ :=
  { lhsContracting := [1], rhsContracting := [0], lhsNonContracting := [0], rhsNonContracting := [1],
    lhsBatch := [], rhsBatch := [], wf := wf }

/-- A plain product read at (r, c) is the sum over k of x (r, k) * w (k, c). -/
theorem pdot_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    Host.dotGeneral (pdot E K H wf) prec x w (ix2 r c) = ∑ k : Fin K, x (ix2 r k) * w (ix2 k c) := by
  simp only [Host.dotGeneral]
  rw [Ideal.dotGeneral_apply, ← Equiv.sum_comp (contrEquiv1 (pdot E K H wf) K rfl rfl).symm]
  refine Finset.sum_congr rfl fun k _ => ?_
  have hk := contrEquiv1_symm_val (pdot E K H wf) K rfl rfl k
  have el : (pdot E K H wf).lhsIdx (ix2 r c) ((contrEquiv1 (pdot E K H wf) K rfl rfl).symm k) = ix2 r k :=
    funext fun a => Fin.ext (by
      match a with
      | ⟨0, _⟩ =>
        show ((pdot E K H wf).lhsIdx (ix2 r c) _ 0).val = r.val
        unfold DotDims.lhsIdx
        rw [dif_neg (show ¬(0 : Fin 2) ∈ ([] : List (Fin 2)) by decide),
          dif_pos (show (0 : Fin 2) ∈ [(0 : Fin 2)] by decide)]
        rfl
      | ⟨1, _⟩ => exact ((pdot E K H wf).lhsIdx_val_of_single rfl _ _).trans hk)
  have er : (pdot E K H wf).rhsIdx (ix2 r c) ((contrEquiv1 (pdot E K H wf) K rfl rfl).symm k) = ix2 k c :=
    funext fun a => Fin.ext (by
      match a with
      | ⟨0, _⟩ => exact ((pdot E K H wf).rhsIdx_val_of_single rfl _ _).trans hk
      | ⟨1, _⟩ =>
        show ((pdot E K H wf).rhsIdx (ix2 r c) _ 1).val = c.val
        unfold DotDims.rhsIdx
        rw [dif_neg (show ¬(1 : Fin 2) ∈ ([] : List (Fin 2)) by decide),
          dif_pos (show (1 : Fin 2) ∈ [(1 : Fin 2)] by decide)]
        rfl)
  rw [el, er]

/-- The vector unit's product into a zero accumulator, read the same way. -/
theorem pmatmul_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    matmul (pdot E K H wf) prec x w (constant ⟨2, ![E, H]⟩ .f32 0x00000000#32) (ix2 r c)
      = ∑ k : Fin K, x (ix2 r k) * w (ix2 k c) := by
  rw [matmul_zero_eq_dotGeneral]; exact pdot_apply wf prec x w r c

/-- A [n] vector cast to a [1, n] row reads, at (0, c), the vector at c. -/
theorem shapeCast_n_1n_apply {n : ℕ} {α : Type} (b : (⟨1, ![n]⟩ : Shape).Idx → α)
    (h : (⟨1, ![n]⟩ : Shape).ShapeCasts ⟨2, ![1, n]⟩) (u : Fin 1) (c : Fin n) :
    shapeCast ⟨2, ![1, n]⟩ b h (ix2 u c) = b (ix1 c) :=
  shapeCast_apply b h _ _ (by
    have hu : u.val = 0 := by omega
    rw [Shape.rowMajor_val_two, Shape.rowMajor_val_one]
    show c.val = u.val * n + c.val
    rw [hu, Nat.zero_mul, Nat.zero_add])

/-- The f32 zero word read on the extended reals: the value both layers clamp at. -/
abbrev zero32 : Ideal .f32 := Scalar.ofBits .f32 0x00000000#32

/-! ## The row formulas -/

/-- One output of a layer whose input row is cut into three pieces: the three partial products against the bands of
    W starting at rows 0, o1 and o2, added left to right, plus the bias, clamped below at z. -/
def pre3 {K0 K1 K2 K H : ℕ} (o1 o2 : ℕ) (h0 : K0 ≤ K) (h1 : o1 + K1 ≤ K) (h2 : o2 + K2 ≤ K)
    (a0 : Fin K0 → EReal) (a1 : Fin K1 → EReal) (a2 : Fin K2 → EReal)
    (W : (⟨2, ![K, H]⟩ : Shape).Idx → EReal) (b : Fin H → EReal) (z : EReal) (h : Fin H) : EReal :=
  max ((((∑ k : Fin K0, a0 k * W (ix2 (⟨k.val, by have := k.isLt; omega⟩ : Fin K) h))
      + ∑ k : Fin K1, a1 k * W (ix2 (⟨o1 + k.val, by have := k.isLt; omega⟩ : Fin K) h))
      + ∑ k : Fin K2, a2 k * W (ix2 (⟨o2 + k.val, by have := k.isLt; omega⟩ : Fin K) h)) + b h) z

/-- The same with two pieces. -/
def pre2 {K0 K1 K H : ℕ} (o1 : ℕ) (h0 : K0 ≤ K) (h1 : o1 + K1 ≤ K)
    (a0 : Fin K0 → EReal) (a1 : Fin K1 → EReal)
    (W : (⟨2, ![K, H]⟩ : Shape).Idx → EReal) (b : Fin H → EReal) (z : EReal) (h : Fin H) : EReal :=
  max (((∑ k : Fin K0, a0 k * W (ix2 (⟨k.val, by have := k.isLt; omega⟩ : Fin K) h))
      + ∑ k : Fin K1, a1 k * W (ix2 (⟨o1 + k.val, by have := k.isLt; omega⟩ : Fin K) h)) + b h) z

/-- One output of a layer on a whole input row. -/
def lay {H O : ℕ} (a : Fin H → EReal) (W : (⟨2, ![H, O]⟩ : Shape).Idx → EReal) (b : Fin O → EReal) (z : EReal)
    (c : Fin O) : EReal :=
  max ((∑ h : Fin H, a h * W (ix2 h c)) + b c) z

/-! ## The kernel body's layers read at (r, c) -/

/-- A layer of the kernel body on one input: product into a zero accumulator, bias row broadcast down the rows,
    maximum with a splat. -/
theorem klay_apply {T H O : ℕ} (wf : DotDims.WF ⟨2, ![T, H]⟩ ⟨2, ![H, O]⟩ ⟨2, ![T, O]⟩ [1] [0] [0] [1] [] [])
    {φ ψ : FTy} (X : FVec Ideal ⟨2, ![T, H]⟩ φ) (W : FVec Ideal ⟨2, ![H, O]⟩ ψ) (b : FVec Ideal ⟨2, ![1, O]⟩ .f32)
    (sc : (⟨2, ![1, O]⟩ : Shape).ShapeCasts ⟨2, ![1, O]⟩) (bc : (⟨2, ![1, O]⟩ : Shape).Broadcasts ⟨2, ![T, O]⟩)
    (z : Ideal .f32) (r : Fin T) (c : Fin O) :
    maximumf (addf (matmul (pdot T H O wf) none X W (constant ⟨2, ![T, O]⟩ .f32 0x00000000#32))
        (broadcastTo ⟨2, ![T, O]⟩ (shapeCast ⟨2, ![1, O]⟩ b sc) bc)) (broadcast ⟨2, ![T, O]⟩ z) (ix2 r c)
      = lay (fun h => X (ix2 r h)) W (fun c => b (ix2 (0 : Fin 1) c)) z c := by
  rw [shapeCast_self, maximumf_apply, addf_apply, pmatmul_apply, broadcastTo_1b_ab_apply]
  rfl

/-- One band product of the first layer: the piece, cast to its own shape, against the band of the weight matrix
    starting at row o. -/
theorem kband_apply {T Ki K H : ℕ} (o : ℕ) (hb : o + Ki ≤ K)
    (wf : DotDims.WF ⟨2, ![T, Ki]⟩ ⟨2, ![Ki, H]⟩ ⟨2, ![T, H]⟩ [1] [0] [0] [1] [] [])
    {φ ψ : FTy} (x : FVec Ideal ⟨2, ![T, Ki]⟩ φ) (W : FVec Ideal ⟨2, ![K, H]⟩ ψ)
    (sc : (⟨2, ![T, Ki]⟩ : Shape).ShapeCasts ⟨2, ![T, Ki]⟩)
    (sl : (⟨2, ![K, H]⟩ : Shape).Slices ![o, 0] ⟨2, ![Ki, H]⟩) (r : Fin T) (h : Fin H) :
    matmul (pdot T Ki H wf) none (shapeCast ⟨2, ![T, Ki]⟩ x sc) (extractStridedSlice ⟨2, ![Ki, H]⟩ ![o, 0] W sl)
        (constant ⟨2, ![T, H]⟩ .f32 0x00000000#32) (ix2 r h)
      = ∑ k : Fin Ki, x (ix2 r k) * W (ix2 (⟨o + k.val, by have := k.isLt; omega⟩ : Fin K) h) := by
  rw [shapeCast_self, pmatmul_apply]
  refine Finset.sum_congr rfl fun k _ => ?_
  rw [slice2_axis0_apply o W sl k h ⟨o + k.val, by have := k.isLt; omega⟩ rfl]

/-- The whole kernel body with a three-piece input, read at (r, c): the second layer of the first. Narrowing a
    value's float format changes nothing on the extended reals. -/
theorem kernel3_apply {T K0 K1 K2 K H O : ℕ} (o1 o2 : ℕ) (h0 : K0 ≤ K) (h1 : o1 + K1 ≤ K) (h2 : o2 + K2 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wfC : DotDims.WF ⟨2, ![T, K2]⟩ ⟨2, ![K2, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v11 : FVec Ideal ⟨2, ![T, K2]⟩ .bf16) (v16 : FVec Ideal ⟨2, ![1, H]⟩ .f32) (v23 : FVec Ideal ⟨2, ![H, O]⟩ .f32)
    (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sc11 : (⟨2, ![T, K2]⟩ : Shape).ShapeCasts ⟨2, ![T, K2]⟩)
    (sl0 : (⟨2, ![K, H]⟩ : Shape).Slices ![0, 0] ⟨2, ![K0, H]⟩) (sl1 : (⟨2, ![K, H]⟩ : Shape).Slices ![o1, 0] ⟨2, ![K1, H]⟩)
    (sl2 : (⟨2, ![K, H]⟩ : Shape).Slices ![o2, 0] ⟨2, ![K2, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (matmul (pdot T K2 H wfC) none (shapeCast ⟨2, ![T, K2]⟩ v11 sc11)
              (extractStridedSlice ⟨2, ![K2, H]⟩ ![o2, 0] (truncf .bf16 v0 hlt) sl2) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre3 o1 o2 h0 h1 h2 (fun k => v2 (ix2 r k)) (fun k => v6 (ix2 r k)) (fun k => v11 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply, addf_apply,
    kband_apply 0 (by omega) wfA v2 (truncf .bf16 v0 hlt) sc2 sl0 r h,
    kband_apply o1 h1 wfB v6 (truncf .bf16 v0 hlt) sc6 sl1 r h,
    kband_apply o2 h2 wfC v11 (truncf .bf16 v0 hlt) sc11 sl2 r h, shapeCast_self, broadcastTo_1b_ab_apply]
  unfold pre3
  simp only [Nat.zero_add, truncf_apply, broadcast_apply]

/-- The whole kernel body with a two-piece input, read at (r, c). -/
theorem kernel2_apply {T K0 K1 K H O : ℕ} (o1 : ℕ) (h0 : K0 ≤ K) (h1 : o1 + K1 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v16 : FVec Ideal ⟨2, ![1, H]⟩ .f32) (v23 : FVec Ideal ⟨2, ![H, O]⟩ .f32) (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sl0 : (⟨2, ![K, H]⟩ : Shape).Slices ![0, 0] ⟨2, ![K0, H]⟩) (sl1 : (⟨2, ![K, H]⟩ : Shape).Slices ![o1, 0] ⟨2, ![K1, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre2 o1 h0 h1 (fun k => v2 (ix2 r k)) (fun k => v6 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply,
    kband_apply 0 (by omega) wfA v2 (truncf .bf16 v0 hlt) sc2 sl0 r h,
    kband_apply o1 h1 wfB v6 (truncf .bf16 v0 hlt) sc6 sl1 r h, shapeCast_self, broadcastTo_1b_ab_apply]
  unfold pre2
  simp only [Nat.zero_add, truncf_apply, broadcast_apply]

/-! ## The reference's layers read at (R, c) -/

/-- A [n] bias placed as the [1, n] row reads, at (u, c), the bias at c. -/
theorem bias_row_apply {n : ℕ} {α : Type} (b : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h b (ix2 u c) = b (ix1 c) := by
  refine broadcastInDim_apply _ h b _ (ix1 c) fun a => ?_
  match a with
  | ⟨0, _⟩ =>
    show c.val = if n = 1 then 0 else c.val
    split
    · have := c.isLt; omega
    · rfl

/-- A layer of the reference on one whole input array: product, bias broadcast down the rows, maximum with an array
    that holds z everywhere. -/
theorem rlay_apply {E H O : ℕ} (wf : DotDims.WF ⟨2, ![E, H]⟩ ⟨2, ![H, O]⟩ ⟨2, ![E, O]⟩ [1] [0] [0] [1] [] [])
    {φ ψ : FTy} (X : FVec Ideal ⟨2, ![E, H]⟩ φ) (W : FVec Ideal ⟨2, ![H, O]⟩ ψ) (b : FVec Ideal ⟨1, ![O]⟩ .f32)
    (hbr : (⟨1, ![O]⟩ : Shape).BroadcastsInDim ⟨2, ![1, O]⟩ ![1])
    (hbb : (⟨2, ![1, O]⟩ : Shape).BroadcastsInDim ⟨2, ![E, O]⟩ ![0, 1])
    (Z : FVec Ideal ⟨2, ![E, O]⟩ .f32) (z : Ideal .f32) (hZ : ∀ i, Z i = z) (R : Fin E) (c : Fin O) :
    maximumf (addf (Host.dotGeneral (pdot E H O wf) none X W)
        (broadcastInDim ⟨2, ![E, O]⟩ ![0, 1] hbb (broadcastInDim ⟨2, ![1, O]⟩ ![1] hbr b))) Z (ix2 R c)
      = lay (fun h => X (ix2 R h)) W (fun c => b (ix1 c)) z c := by
  rw [maximumf_apply, addf_apply, pdot_apply, broadcastInDim_oneRow_apply, bias_row_apply, hZ]
  rfl

/-- The product of a three-piece concatenation along the second axis with W, read at (R, h): the sum over the
    joined axis split at the two piece boundaries. -/
theorem cat3_dot_apply {E K0 K1 K2 K H : ℕ} (hK : K = K0 + K1 + K2)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W : FVec Ideal ⟨2, ![K, H]⟩ .f32)
    (hc : Shape.Concatenates [⟨2, ![E, K0]⟩, ⟨2, ![E, K1]⟩, ⟨2, ![E, K2]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩, ⟨⟨2, ![E, K2]⟩, x2⟩] hc) W (ix2 R h)
      = ((∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h))
        + ∑ k : Fin K2, x2 (ix2 R k) * W (ix2 (⟨K0 + K1 + k.val, by have := k.isLt; omega⟩ : Fin K) h) := by
  subst hK
  rw [pdot_apply, Fin.sum_univ_add, Fin.sum_univ_add]
  refine congrArg₂ (· + ·) (congrArg₂ (· + ·) ?_ ?_) ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 2 (by simp) ⟨2, ![E, K2]⟩ x2 rfl rfl (K0 + K1) ?_ (ix2 R k) (fun b => ?_) ?_
    · show K0 + (K1 + 0) = K0 + K1
      rfl
    · match b with
      | ⟨0, _⟩ => exact fun _ => rfl
      | ⟨1, _⟩ => exact fun hb => absurd rfl hb
    · rfl

/-- The same for two pieces. -/
theorem cat2_dot_apply {E K0 K1 K H : ℕ} (hK : K = K0 + K1)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (W : FVec Ideal ⟨2, ![K, H]⟩ .f32)
    (hc : Shape.Concatenates [⟨2, ![E, K0]⟩, ⟨2, ![E, K1]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩] hc) W (ix2 R h)
      = (∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h) := by
  subst hK
  rw [pdot_apply, Fin.sum_univ_add]
  refine congrArg₂ (· + ·) ?_ ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl

/-- The reference's two layers on a three-piece concatenation, read at (R, c). -/
theorem ref3_apply {E K0 K1 K2 K H O : ℕ} (hK : K = K0 + K1 + K2)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩, ⟨2, ![E, K2]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩, ⟨⟨2, ![E, K2]⟩, x2⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre3 K0 (K0 + K1) (by omega) (by omega) (by omega) (fun k => x0 (ix2 R k)) (fun k => x1 (ix2 R k))
          (fun k => x2 (ix2 R k)) W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat3_dot_apply hK, broadcastInDim_oneRow_apply, bias_row_apply, hZ1]
  rfl

/-- The reference's two layers on a two-piece concatenation, read at (R, c). -/
theorem ref2_apply {E K0 K1 K H O : ℕ} (hK : K = K0 + K1)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre2 K0 (by omega) (by omega) (fun k => x0 (ix2 R k)) (fun k => x1 (ix2 R k))
          W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat2_dot_apply hK, broadcastInDim_oneRow_apply, bias_row_apply, hZ1]
  rfl

/-! ## The whole-array functions -/

/-- The two-layer perceptron applied to every row of three row-aligned arrays: row R of the result depends on row R
    of each piece alone. -/
def mlp3 {E K0 K1 K2 K H O : ℕ} (o1 o2 : ℕ) (h0 : K0 ≤ K) (h1 : o1 + K1 ≤ K) (h2 : o2 + K2 ≤ K)
    (x0 : (⟨2, ![E, K0]⟩ : Shape).Idx → EReal) (x1 : (⟨2, ![E, K1]⟩ : Shape).Idx → EReal)
    (x2 : (⟨2, ![E, K2]⟩ : Shape).Idx → EReal) (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre3 o1 o2 h0 h1 h2 (fun k => x0 (ix2 (i 0 : Fin E) k)) (fun k => x1 (ix2 (i 0 : Fin E) k))
    (fun k => x2 (ix2 (i 0 : Fin E) k)) W1 b1 z) W2 b2 z (i 1 : Fin O)

/-- The same on two pieces. -/
def mlp2 {E K0 K1 K H O : ℕ} (o1 : ℕ) (h0 : K0 ≤ K) (h1 : o1 + K1 ≤ K)
    (x0 : (⟨2, ![E, K0]⟩ : Shape).Idx → EReal) (x1 : (⟨2, ![E, K1]⟩ : Shape).Idx → EReal)
    (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre2 o1 h0 h1 (fun k => x0 (ix2 (i 0 : Fin E) k)) (fun k => x1 (ix2 (i 0 : Fin E) k)) W1 b1 z)
    W2 b2 z (i 1 : Fin O)

/-- A maximum with z of a value that is already a maximum with z is that value. -/
theorem max_max_self (a z : EReal) : max (max a z) z = max a z := max_eq_left (le_max_right a z)

end Cert.MlpRows

end
-- ==== Proof.KernelIdealTile.lean ====
/-
  One output tile of the kernel body, as a function of what the body loads for it, and its reading at Ideal.

  For an output row r < 3 of the grid point and an output column ow < 15 the body loads three filter rows l_k
  [1,128,96] (k < 3, shared by all tiles), the bias column lb [128,1], and three image slabs a_k [1,96,256]: the 96
  window positions 64 ow .. 64 ow + 95 of input row 2 r + k, for all 256 images.  It adds the three products
  l_k · a_k (128 x 256 each) onto zero, adds the bias column along the lanes, splits the 128 rows into the linear
  half and the gate half, and stores lin * gate as a [1,1,64,256] tile.
-/
import proofs.«176583_g2000106783720467_pallasbulk_1336_18_alg».proof.Proof.KernelIdealBody
import proofs.«176583_g2000106783720467_pallasbulk_1336_18_alg».proof.Proof.Mid
import proofs.«176583_g2000106783720467_pallasbulk_1336_18_alg».proof.Proof.LibMlpRows
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

section AnyInstance
variable {F : FTy → Type} [FloatOps F]

/-- The tile the body stores for one (row, column), from its seven loads: the body's operations in the body's order. -/
def tileK (l0 l1 l2 : Vec F S1x128x96 .bf16) (lb : Vec F S128x1 .f32) (a0 a1 a2 : Vec F S1x96x256 .bf16) : FVec F S1x1x64x256 .f32 :=
  have w0 : FVec F S128x96 .bf16 := shapeCast S128x96 l0 shapeCasts_S1x128x96_S128x96
  have w1 : FVec F S128x96 .bf16 := shapeCast S128x96 l1 shapeCasts_S1x128x96_S128x96
  have w2 : FVec F S128x96 .bf16 := shapeCast S128x96 l2 shapeCasts_S1x128x96_S128x96
  have b : FVec F S128x1 .f32 := shapeCast S128x1 lb shapeCasts_S128x1_S128x1
  have z0 : FVec F S128x256 .f32 := broadcast S128x256 (Scalar.ofBits .f32 0x00000000#32)
  have x0 : FVec F S96x256 .bf16 := shapeCast S96x256 a0 shapeCasts_S1x96x256_S96x256
  have m0 : FVec F S128x256 .f32 := matmul dot_S128x96_S96x256_S128x256_1_0_0_1_n_n none w0 x0 (constant S128x256 .f32 0x00000000#32)
  have s0 : FVec F S128x256 .f32 := addf z0 m0
  have x1 : FVec F S96x256 .bf16 := shapeCast S96x256 a1 shapeCasts_S1x96x256_S96x256
  have m1 : FVec F S128x256 .f32 := matmul dot_S128x96_S96x256_S128x256_1_0_0_1_n_n none w1 x1 (constant S128x256 .f32 0x00000000#32)
  have s1 : FVec F S128x256 .f32 := addf s0 m1
  have x2 : FVec F S96x256 .bf16 := shapeCast S96x256 a2 shapeCasts_S1x96x256_S96x256
  have m2 : FVec F S128x256 .f32 := matmul dot_S128x96_S96x256_S128x256_1_0_0_1_n_n none w2 x2 (constant S128x256 .f32 0x00000000#32)
  have s2 : FVec F S128x256 .f32 := addf s1 m2
  have acc : FVec F S128x256 .f32 := addf s2 (broadcastTo S128x256 b broadcasts_S128x1_S128x256)
  have lin : FVec F S64x256 .f32 := extractStridedSlice S64x256 ![0, 0] acc slices_S128x256_o0_0_S64x256
  have g : FVec F S64x256 .f32 := extractStridedSlice S64x256 ![64, 0] acc slices_S128x256_o64_0_S64x256
  have z : FVec F S64x256 .f32 := exp (subf (broadcast S64x256 (Scalar.ofBits .f32 0x00000000#32)) (absf g))
  have gt : FVec F S64x256 .f32 :=
    divf (select (cmpf .oge g (broadcast S64x256 (Scalar.ofBits .f32 0x00000000#32))) (broadcast S64x256 (Scalar.ofBits .f32 0x3F800000#32)) z)
      (addf (broadcast S64x256 (Scalar.ofBits .f32 0x3F800000#32)) z)
  shapeCast S1x1x64x256 (mulf lin gt) shapeCasts_S64x256_S1x1x64x256

end AnyInstance

/-! ## The tile at Ideal -/

/-- One filter row against one slab, at filter c and image n: the sum over the 96 window positions. -/
def rowT (l : Vec Ideal S1x128x96 .bf16) (a : Vec Ideal S1x96x256 .bf16) (c : Fin 128) (n : Fin 256) : EReal :=
  ∑ j : Fin 96, l (ix3 (0 : Fin 1) c j) * a (ix3 (0 : Fin 1) j n)

/-- The accumulator at filter c and image n: the three rows in order, then the bias. -/
def accT (l0 l1 l2 : Vec Ideal S1x128x96 .bf16) (lb : Vec Ideal S128x1 .f32) (a0 a1 a2 : Vec Ideal S1x96x256 .bf16) (c : Fin 128) (n : Fin 256) : EReal :=
  ((rowT l0 a0 c n + rowT l1 a1 c n) + rowT l2 a2 c n) + lb (ix2 c (0 : Fin 1))

/-- A loaded filter row [1,128,96] viewed [128,96], and a loaded slab [1,96,256] viewed [96,256]. -/
abbrev wv (l : Vec Ideal S1x128x96 .bf16) : FVec Ideal S128x96 .bf16 := shapeCast S128x96 l shapeCasts_S1x128x96_S128x96
abbrev av (a : Vec Ideal S1x96x256 .bf16) : FVec Ideal S96x256 .bf16 := shapeCast S96x256 a shapeCasts_S1x96x256_S96x256
abbrev bv (lb : Vec Ideal S128x1 .f32) : FVec Ideal S128x1 .f32 := shapeCast S128x1 lb shapeCasts_S128x1_S128x1

/-- A product into the zero accumulator of a re-viewed filter row with a re-viewed slab, at (c, n). -/
theorem mm_apply (l : Vec Ideal S1x128x96 .bf16) (a : Vec Ideal S1x96x256 .bf16) (c : Fin 128) (n : Fin 256) :
    matmul dot_S128x96_S96x256_S128x256_1_0_0_1_n_n none (wv l) (av a) (constant S128x256 .f32 0x00000000#32) (ix2 c n)
      = rowT l a c n := by
  refine (Cert.MlpRows.pmatmul_apply (E := 128) (K := 96) (H := 256) dot_S128x96_S96x256_S128x256_1_0_0_1_n_n_wf none _ _ c n).trans ?_
  unfold rowT
  refine Finset.sum_congr rfl fun j _ => ?_
  show wv l (ix2 c j) * av a (ix2 j n) = _
  unfold wv av
  rw [shapeCast_1ab_ab_apply, shapeCast_1ab_ab_apply]

/-- The accumulator of a tile at (c, n). -/
theorem acc_apply (l0 l1 l2 : Vec Ideal S1x128x96 .bf16) (lb : Vec Ideal S128x1 .f32) (a0 a1 a2 : Vec Ideal S1x96x256 .bf16) (c : Fin 128) (n : Fin 256) :
    addf (addf (addf (addf (broadcast S128x256 (Scalar.ofBits (F := Ideal) .f32 0x00000000#32))
        (matmul dot_S128x96_S96x256_S128x256_1_0_0_1_n_n none (wv l0) (av a0) (constant S128x256 .f32 0x00000000#32)))
        (matmul dot_S128x96_S96x256_S128x256_1_0_0_1_n_n none (wv l1) (av a1) (constant S128x256 .f32 0x00000000#32)))
        (matmul dot_S128x96_S96x256_S128x256_1_0_0_1_n_n none (wv l2) (av a2) (constant S128x256 .f32 0x00000000#32)))
        (broadcastTo S128x256 (bv lb) broadcasts_S128x1_S128x256) (ix2 c n)
      = accT l0 l1 l2 lb a0 a1 a2 c n := by
  show (((Ideal.ofBits .f32 0x00000000#32 + _) + _) + _) + _ = _
  rw [mm_apply, mm_apply, mm_apply, Ideal.ofBits_zero_f32, zero_add]
  unfold bv
  rw [shapeCast_self]
  unfold accT
  congr 1
  exact broadcastTo_apply lb broadcasts_S128x1_S128x256 (ix2 c n) (ix2 c (0 : Fin 1)) (fun a => by
    match a with
    | ⟨0, _⟩ => rfl
    | ⟨1, _⟩ => rfl)

/-- The gated product of the two halves of an accumulator, at (co, n): the gate of the accumulator's entries at
    rows co and 64 + co. -/
theorem glu_apply (acc : FVec Ideal S128x256 .f32) (co : Fin 64) (n : Fin 256) :
    mulf (extractStridedSlice S64x256 ![0, 0] acc slices_S128x256_o0_0_S64x256)
        (divf (select (cmpf .oge (extractStridedSlice S64x256 ![64, 0] acc slices_S128x256_o64_0_S64x256) (broadcast S64x256 (Scalar.ofBits .f32 0x00000000#32)))
            (broadcast S64x256 (Scalar.ofBits .f32 0x3F800000#32))
            (exp (subf (broadcast S64x256 (Scalar.ofBits .f32 0x00000000#32)) (absf (extractStridedSlice S64x256 ![64, 0] acc slices_S128x256_o64_0_S64x256)))))
          (addf (broadcast S64x256 (Scalar.ofBits .f32 0x3F800000#32))
            (exp (subf (broadcast S64x256 (Scalar.ofBits .f32 0x00000000#32)) (absf (extractStridedSlice S64x256 ![64, 0] acc slices_S128x256_o64_0_S64x256))))))
        (ix2 co n)
      = Cert.Glu.gate (F := Ideal) (acc (ix2 (Cert.Glu.linCh co) n)) (acc (ix2 (Cert.Glu.gateCh co) n)) := by
  have hl : extractStridedSlice S64x256 ![0, 0] acc slices_S128x256_o0_0_S64x256 (ix2 co n) = acc (ix2 (Cert.Glu.linCh co) n) :=
    extractStridedSlice_apply _ _ _ _ _ (fun a => by
      match a with
      | ⟨0, _⟩ => show co.val = 0 + co.val; omega
      | ⟨1, _⟩ => show n.val = 0 + n.val; omega)
  have hg : extractStridedSlice S64x256 ![64, 0] acc slices_S128x256_o64_0_S64x256 (ix2 co n) = acc (ix2 (Cert.Glu.gateCh co) n) :=
    extractStridedSlice_apply _ _ _ _ _ (fun a => by
      match a with
      | ⟨0, _⟩ => show co.val + 64 = 64 + co.val; omega
      | ⟨1, _⟩ => show n.val = 0 + n.val; omega)
  show Cert.Glu.gate (F := Ideal) (extractStridedSlice S64x256 ![0, 0] acc slices_S128x256_o0_0_S64x256 (ix2 co n))
    (extractStridedSlice S64x256 ![64, 0] acc slices_S128x256_o64_0_S64x256 (ix2 co n)) = _
  rw [hl, hg]

/-- THE TILE AT AN ENTRY: the gate of the linear half's and the gate half's accumulators. -/
theorem tileK_apply (l0 l1 l2 : Vec Ideal S1x128x96 .bf16) (lb : Vec Ideal S128x1 .f32) (a0 a1 a2 : Vec Ideal S1x96x256 .bf16)
    (u v : Fin 1) (co : Fin 64) (n : Fin 256) :
    tileK l0 l1 l2 lb a0 a1 a2 (ix4 u v co n)
      = Cert.Glu.gate (F := Ideal) (accT l0 l1 l2 lb a0 a1 a2 (Cert.Glu.linCh co) n) (accT l0 l1 l2 lb a0 a1 a2 (Cert.Glu.gateCh co) n) := by
  unfold tileK
  refine (shapeCast_apply _ shapeCasts_S64x256_S1x1x64x256 (ix4 u v co n) (ix2 co n) (by
    have hu : u.val = 0 := by omega
    have hv : v.val = 0 := by omega
    rw [Shape.rowMajor_val_two, Shape.rowMajor_val_four]
    show co.val * 256 + n.val = ((u.val * 1 + v.val) * 64 + co.val) * 256 + n.val
    rw [hu, hv]; omega)).trans ?_
  refine (glu_apply _ co n).trans ?_
  rw [acc_apply, acc_apply]

end Cert.KernelIdeal.Hand

end
-- ==== Proof.KernelIdealPieces.lean ====
/-
  The 45 tiles the kernel body stores, as ONE list indexed by (output row r < 3, output column ow < 15), last store
  first: the tile of (r, ow) sits at offsets (r, ow, 0, 0) of the [3,15,64,256] block and is `tileK` of the three
  filter rows, the bias column and the three slabs at window offset 64 ow of input rows 2 r, 2 r + 1, 2 r + 2 —
  rows 0..5 are in the six-row window, row 6 (r = 2, the last tap) is the one-row window.
-/
import proofs.«176583_g2000106783720467_pallasbulk_1336_18_alg».proof.Proof.KernelIdealTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem inb_w (k : Fin 3) : ∀ a, (![k.val, 0, 0] : Fin 3 → Nat) a + S1x128x96.size a ≤ S3x128x96.size a := fun a => by
  have hk := k.isLt
  match a with
  | ⟨0, _⟩ => show k.val + 1 ≤ 3; omega
  | ⟨1, _⟩ => show 0 + 128 ≤ 128; omega
  | ⟨2, _⟩ => show 0 + 96 ≤ 96; omega

theorem inb_a0 (ow : Fin 15) (lr : Nat) (h : lr < 6) : ∀ a, (![lr, 64 * ow.val, 0] : Fin 3 → Nat) a + S1x96x256.size a ≤ S6x1024x256.size a := fun a => by
  have hw := ow.isLt
  match a with
  | ⟨0, _⟩ => show lr + 1 ≤ 6; omega
  | ⟨1, _⟩ => show 64 * ow.val + 96 ≤ 1024; omega
  | ⟨2, _⟩ => show 0 + 256 ≤ 256; omega

theorem inb_a1 (ow : Fin 15) : ∀ a, (![0, 64 * ow.val, 0] : Fin 3 → Nat) a + S1x96x256.size a ≤ S1x1024x256.size a := fun a => by
  have hw := ow.isLt
  match a with
  | ⟨0, _⟩ => show 0 + 1 ≤ 1; omega
  | ⟨1, _⟩ => show 64 * ow.val + 96 ≤ 1024; omega
  | ⟨2, _⟩ => show 0 + 256 ≤ 256; omega

theorem inb_o (r : Fin 3) (ow : Fin 15) : ∀ a, (![r.val, ow.val, 0, 0] : Fin 4 → Nat) a + S1x1x64x256.size a ≤ S3x15x64x256.size a := fun a => by
  have hr := r.isLt
  have hw := ow.isLt
  match a with
  | ⟨0, _⟩ => show r.val + 1 ≤ 3; omega
  | ⟨1, _⟩ => show ow.val + 1 ≤ 15; omega
  | ⟨2, _⟩ => show 0 + 64 ≤ 64; omega
  | ⟨3, _⟩ => show 0 + 256 ≤ 256; omega

section Loads

variable (arg1 : Memref sig .tc .vmem S6x1024x256 .bf16) (harg1 : arg1.IsWhole)
  (arg2 : Memref sig .tc .vmem S1x1024x256 .bf16) (harg2 : arg2.IsWhole)
  (arg3 : Memref sig .tc .vmem S3x128x96 .bf16) (harg3 : arg3.IsWhole)
  (arg4 : Memref sig .tc .vmem S128x1 .f32) (harg4 : arg4.IsWhole)
  (x0 : Vec F S6x1024x256 .bf16) (x1 : Vec F S1x1024x256 .bf16) (x2 : Vec F S3x128x96 .bf16) (x3 : Vec F S128x1 .f32)

/-- Filter row k as the body loads it. -/
def ldW (k : Fin 3) : Vec F S1x128x96 .bf16 :=
  View.readAt (Elt F) arg3.view (Rect.unit (s := S3x128x96) ![k.val, 0, 0] S1x128x96.size (inb_w k)).toLoadRect (harg3.unread x2)

/-- The bias column as the body loads it. -/
def ldB : Vec F S128x1 .f32 :=
  View.readAt (Elt F) arg4.view (Rect.unit (s := S128x1) ![0, 0] S128x1.size inb_S128x1_S128x1_0_0).toLoadRect (harg4.unread x3)

/-- The slab of tap k for output (r, ow) as the body loads it: input row 2 r + k of the point, from the six-row
    window while that row is below 6, from the one-row window for row 6. -/
def ldA (r : Fin 3) (ow : Fin 15) (k : Fin 3) : Vec F S1x96x256 .bf16 :=
  if h : 2 * r.val + k.val < 6 then
    View.readAt (Elt F) arg1.view (Rect.unit (s := S6x1024x256) ![2 * r.val + k.val, 64 * ow.val, 0] S1x96x256.size (inb_a0 ow _ h)).toLoadRect (harg1.unread x0)
  else
    View.readAt (Elt F) arg2.view (Rect.unit (s := S1x1024x256) ![0, 64 * ow.val, 0] S1x96x256.size (inb_a1 ow)).toLoadRect (harg2.unread x1)

/-- The tile of output (r, ow) with its place in the block. -/
def pieceK (r : Fin 3) (ow : Fin 15) : View.Piece (Elt F) S3x15x64x256 .f32 :=
  ⟨Rect.unit (s := S3x15x64x256) ![r.val, ow.val, 0, 0] S1x1x64x256.size (inb_o r ow),
    tileK (ldW arg3 harg3 x2 0) (ldW arg3 harg3 x2 1) (ldW arg3 harg3 x2 2) (ldB arg4 harg4 x3)
      (ldA arg1 harg1 arg2 harg2 x0 x1 r ow 0) (ldA arg1 harg1 arg2 harg2 x0 x1 r ow 1) (ldA arg1 harg1 arg2 harg2 x0 x1 r ow 2)⟩

/-- All 45, the last stored first. -/
def piecesK : List (View.Piece (Elt F) S3x15x64x256 .f32) :=
  (List.finRange 3).reverse.flatMap fun r => (List.finRange 15).reverse.map fun ow =>
    pieceK arg1 harg1 arg2 harg2 arg3 harg3 arg4 harg4 x0 x1 x2 x3 r ow

end Loads

set_option maxHeartbeats 4000000 in
/-- What the body's run found IS that list: each stored value, a composition of the body's operations cut at
    arbitrary statements, unfolds to `tileK` of its loads. -/
theorem pieces_eq (c : Dev nD) (i : grid0.Coords)
    (arg1 : Memref sig .tc .vmem S6x1024x256 .bf16) (harg1 : arg1.IsWhole)
    (arg2 : Memref sig .tc .vmem S1x1024x256 .bf16) (harg2 : arg2.IsWhole)
    (arg3 : Memref sig .tc .vmem S3x128x96 .bf16) (harg3 : arg3.IsWhole)
    (arg4 : Memref sig .tc .vmem S128x1 .f32) (harg4 : arg4.IsWhole)
    (arg5 : Memref sig .tc .vmem S3x15x64x256 .f32) (harg5 : arg5.IsWhole)
    (x0 : Vec F S6x1024x256 .bf16) (x1 : Vec F S1x1024x256 .bf16) (x2 : Vec F S3x128x96 .bf16) (x3 : Vec F S128x1 .f32) :
    (bodyRun c i arg1 harg1 arg2 harg2 arg3 harg3 arg4 harg4 arg5 harg5 x0 x1 x2 x3).1
      = piecesK arg1 harg1 arg2 harg2 arg3 harg3 arg4 harg4 x0 x1 x2 x3 := by
  sl_kernel_rfl

end Cert.KernelIdeal.Hand

end
-- ==== Proof.KernelIdealData.lean ====
/-
  The proof data of the kernel's one pipeline, for any float instance, and the body obligation at every grid point.

  The arrays are read as the region finds them: after the nine host operations before it.  Two windows read ONE
  array (the re-laid input, [32,1024,256]): window 0 a block of six rows at rows 6t..6t+5, window 1 the single row
  6t+6; each holds half of the array's share.  After the body every input buffer holds its block unchanged and
  the output buffer holds the body's 45 tiles.
-/
import proofs.«176583_g2000106783720467_pallasbulk_1336_18_alg».proof.Proof.KernelIdealBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => (s₀ m ρ).mem ((c : Dev nD), b)
/-- and when the region is entered: the nine host operations have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- No block of window 0 met on the grid reaches past the array's 32 rows (6·4 + 6 ≤ 32): none is cut. -/
theorem clip0_none : ∀ (t : Fin cfg0.N) (a), (cfg0.win 0).clip (cfg0.grid.coords t) a = none :=
  (by decide +kernel : ∀ (t : Fin grid0.N) (a), win0_0.clip (grid0.coords t) a = none)

/-- Window 0's staging buffer once its fetch at point `t` has landed: the six rows of the block (a filler where a
    cut fetch would leave the buffer alone: nowhere, on this grid). -/
def xin0 (c : Dev nD) (t : Fin cfg0.N) : S6x1024x256.Idx → Elt F .bf16 :=
  win0_0.fill (grid0.coords t) (fun _ => Scalar.ofBits .bf16 0#16) (iblk m ρ c 0 t)

/-! ## What the body leaves in the output buffer -/

/-- The body's tiles cover the output block. -/
theorem cover (c : Dev nD) (i : grid0.Coords)
    (arg1 : Memref sig .tc .vmem S6x1024x256 .bf16) (harg1 : arg1.IsWhole)
    (arg2 : Memref sig .tc .vmem S1x1024x256 .bf16) (harg2 : arg2.IsWhole)
    (arg3 : Memref sig .tc .vmem S3x128x96 .bf16) (harg3 : arg3.IsWhole)
    (arg4 : Memref sig .tc .vmem S128x1 .f32) (harg4 : arg4.IsWhole)
    (arg5 : Memref sig .tc .vmem S3x15x64x256 .f32) (harg5 : arg5.IsWhole)
    (x0 : Vec F S6x1024x256 .bf16) (x1 : Vec F S1x1024x256 .bf16) (x2 : Vec F S3x128x96 .bf16) (x3 : Vec F S128x1 .f32)
    (y : S3x15x64x256.Idx) :
    ∃ pc ∈ (bodyRun c i arg1 harg1 arg2 harg2 arg3 harg3 arg4 harg4 arg5 harg5 x0 x1 x2 x3).1, y ∈ pc.1.set :=
  View.cover_of_tiledL (bodyRun c i arg1 harg1 arg2 harg2 arg3 harg3 arg4 harg4 arg5 harg5 x0 x1 x2 x3).1 S1x1x64x256.size (by sl_kernel_rfl) y

/-- The output buffer after the body at point `t`, from the input buffers' contents: the tiles laid over the block. -/
def outBlk (c : Dev nD) (t : Fin cfg0.N)
    (x0 : Vec F S6x1024x256 .bf16) (x1 : Vec F S1x1024x256 .bf16) (x2 : Vec F S3x128x96 .bf16) (x3 : Vec F S128x1 .f32) :
    Vec F S3x15x64x256 .f32 :=
  View.canon (bodyRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) x0 x1 x2 x3).1

/-! ## The proof data -/

/-- On core `c`: the arrays at their region-entry contents; after the body each input buffer at its block and the
    output buffer at the body's tiles; the invariant the scoped buffers no window stages; windows 0 and 1 each hold
    half of their common array; nothing owed. -/
def dats (_ : Fin 1) (c : Dev nD) : Dat τ (Elt F) Unit ℕ (UR sig nD τ) ℕ cfg0 c where
  A w := V m ρ c (Pipeline.arrRef spec0 w)
  after w t := match w with
    | ⟨0, _⟩ => xin0 m ρ c t
    | ⟨1, _⟩ => iblk m ρ c 1 t
    | ⟨2, _⟩ => iblk m ρ c 2 t
    | ⟨3, _⟩ => iblk m ρ c 3 t
    | ⟨4, _⟩ => outBlk c t (xin0 m ρ c t) (iblk m ρ c 1 t) (iblk m ρ c 2 t) (iblk m ρ c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = xin0 m ρ c t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) :
    (dats m ρ 0 c).after 4 t = outBlk c t (xin0 m ρ c t) (iblk m ρ c 1 t) (iblk m ρ c 2 t) (iblk m ρ c 3 t) := by dsimp only [dats]

/-- Window 0 is fetched at every point, uncut: its buffer holds the block whatever it held before. -/
theorem before0_0 (c : Dev nD) (t : Fin cfg0.N) (d) : (dats m ρ 0 c).before 0 t d = xin0 m ρ c t := by
  unfold Dat.before; rw [if_pos (fetch0_0 t)]
  refine ((dats m ρ 0 c).fetched_of_clip_none 0 t (clip0_none t) d (fun _ => Scalar.ofBits .bf16 0#16)).trans ?_
  unfold Dat.fetched Dat.blockOf xin0 iblk
  rw [A_eq]

/-- Windows 1, 2, 3 are uncut and never idle, and the body leaves their blocks in place: fetched at this point or
    not, the buffer holds the block. -/
theorem before0_1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t))

set_option maxHeartbeats 1000000 in
/-- The body at any point: the inputs' buffers hold their blocks, so the body's run applies; the invariant and what
    the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4]
  unfold outBlk
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (xin0 m ρ c t) (iblk m ρ c 1 t) (iblk m ρ c 2 t) (iblk m ρ c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover c _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KernelIdealBlock.lean ====
/-
  The kernel's output block at a grid point as ONE function of the four staged input blocks, index by index.

  The output block is [3,15,64,256] (output row r of the point, output column ow, channel co, image n).  Entry
  (r, ow, co, n) is the gate of two accumulators — filters co and 64 + co — each the three tap rows' sums over the 96
  window positions 64 ow + j of staged input row 2 r + k (the six-row block x0 for rows 0..5, the one-row block x1
  for row 6), plus the bias.  Every one of the body's 45 tiles is the restriction of this function to its place.
-/
import proofs.«176583_g2000106783720467_pallasbulk_1336_18_alg».proof.Proof.KernelIdealPieces
import proofs.«176583_g2000106783720467_pallasbulk_1336_18_alg».proof.Proof.KernelIdealData

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- A load through a rectangle of a whole buffer holding `X`, at an index of the rectangle: `X` at the rectangle's
    index. -/
theorem readAt_unread {S : Shape} {e : EltTy} (arg : Memref sig .tc .vmem S e) (harg : arg.IsWhole) (X : Vec Ideal S e)
    (R : Rect S) (y : R.shape.Idx) :
    View.readAt (Elt Ideal) arg.view R.toLoadRect (harg.unread X) y = X (R.idx y) := by
  show (arg.view.read (Elt Ideal) (harg.unread X)) (R.idx y) = _
  rw [harg.read_unread]

section Block

variable (x0 : Vec Ideal S6x1024x256 .bf16) (x1 : Vec Ideal S1x1024x256 .bf16) (x2 : Vec Ideal S3x128x96 .bf16) (x3 : Vec Ideal S128x1 .f32)

/-- Staged input row 2 r + k at window position 64 ow + j, image n. -/
def slabAt (r : Fin 3) (ow : Fin 15) (k : Fin 3) (j : Fin 96) (n : Fin 256) : EReal :=
  if h : 2 * r.val + k.val < 6 then x0 (ix3 (⟨2 * r.val + k.val, h⟩ : Fin 6) (⟨64 * ow.val + j.val, by omega⟩ : Fin 1024) n)
  else x1 (ix3 (0 : Fin 1) (⟨64 * ow.val + j.val, by omega⟩ : Fin 1024) n)

/-- One tap row of the block's accumulator. -/
def rowB (r : Fin 3) (ow : Fin 15) (c : Fin 128) (n : Fin 256) (k : Fin 3) : EReal :=
  ∑ j : Fin 96, x2 (ix3 k c j) * slabAt x0 x1 r ow k j n

/-- The block's accumulator at (r, ow), filter c, image n. -/
def accB (r : Fin 3) (ow : Fin 15) (c : Fin 128) (n : Fin 256) : EReal :=
  ((rowB x0 x1 x2 r ow c n 0 + rowB x0 x1 x2 r ow c n 1) + rowB x0 x1 x2 r ow c n 2) + x3 (ix2 c (0 : Fin 1))

/-- The output block. -/
def blkK : S3x15x64x256.Idx → EReal := fun y =>
  Cert.Glu.gate (F := Ideal) (accB x0 x1 x2 x3 (y 0) (y 1) (Cert.Glu.linCh (y 2)) (y 3)) (accB x0 x1 x2 x3 (y 0) (y 1) (Cert.Glu.gateCh (y 2)) (y 3))

variable (arg1 : Memref sig .tc .vmem S6x1024x256 .bf16) (harg1 : arg1.IsWhole)
  (arg2 : Memref sig .tc .vmem S1x1024x256 .bf16) (harg2 : arg2.IsWhole)
  (arg3 : Memref sig .tc .vmem S3x128x96 .bf16) (harg3 : arg3.IsWhole)
  (arg4 : Memref sig .tc .vmem S128x1 .f32) (harg4 : arg4.IsWhole)

/-- Filter row k as loaded, at (0, c, j): the filters' block at (k, c, j). -/
theorem ldW_apply (k : Fin 3) (c : Fin 128) (j : Fin 96) :
    ldW arg3 harg3 x2 k (ix3 (0 : Fin 1) c j) = x2 (ix3 k c j) := by
  unfold ldW
  rw [readAt_unread]
  congr 1
  funext a
  apply Fin.ext
  match a with
  | ⟨0, _⟩ => show k.val + 1 * 0 = k.val; omega
  | ⟨1, _⟩ => show 0 + 1 * c.val = c.val; omega
  | ⟨2, _⟩ => show 0 + 1 * j.val = j.val; omega

/-- The bias column as loaded. -/
theorem ldB_apply (c : Fin 128) : ldB arg4 harg4 x3 (ix2 c (0 : Fin 1)) = x3 (ix2 c (0 : Fin 1)) := by
  unfold ldB
  rw [readAt_unread]
  congr 1
  funext a
  apply Fin.ext
  match a with
  | ⟨0, _⟩ => show 0 + 1 * c.val = c.val; omega
  | ⟨1, _⟩ => show 0 + 1 * 0 = 0; omega

/-- The slab of tap k for output (r, ow) as loaded, at (0, j, n). -/
theorem ldA_apply (r : Fin 3) (ow : Fin 15) (k : Fin 3) (j : Fin 96) (n : Fin 256) :
    ldA arg1 harg1 arg2 harg2 x0 x1 r ow k (ix3 (0 : Fin 1) j n) = slabAt x0 x1 r ow k j n := by
  unfold ldA slabAt
  by_cases h : 2 * r.val + k.val < 6
  · rw [dif_pos h, dif_pos h, readAt_unread]
    congr 1
    funext a
    apply Fin.ext
    match a with
    | ⟨0, _⟩ => show 2 * r.val + k.val + 1 * 0 = 2 * r.val + k.val; omega
    | ⟨1, _⟩ => show 64 * ow.val + 1 * j.val = 64 * ow.val + j.val; omega
    | ⟨2, _⟩ => show 0 + 1 * n.val = n.val; omega
  · rw [dif_neg h, dif_neg h, readAt_unread]
    congr 1
    funext a
    apply Fin.ext
    match a with
    | ⟨0, _⟩ => show 0 + 1 * 0 = 0; omega
    | ⟨1, _⟩ => show 64 * ow.val + 1 * j.val = 64 * ow.val + j.val; omega
    | ⟨2, _⟩ => show 0 + 1 * n.val = n.val; omega

/-- The accumulator of tile (r, ow) over its loads is the block's accumulator there. -/
theorem accT_loads (r : Fin 3) (ow : Fin 15) (c : Fin 128) (n : Fin 256) :
    accT (ldW arg3 harg3 x2 0) (ldW arg3 harg3 x2 1) (ldW arg3 harg3 x2 2) (ldB arg4 harg4 x3)
        (ldA arg1 harg1 arg2 harg2 x0 x1 r ow 0) (ldA arg1 harg1 arg2 harg2 x0 x1 r ow 1) (ldA arg1 harg1 arg2 harg2 x0 x1 r ow 2) c n
      = accB x0 x1 x2 x3 r ow c n := by
  unfold accT accB rowT rowB
  simp only [ldW_apply, ldB_apply, ldA_apply]

/-- The block function by coordinates. -/
def blkC (r : Fin 3) (ow : Fin 15) (co : Fin 64) (n : Fin 256) : EReal :=
  Cert.Glu.gate (F := Ideal) (accB x0 x1 x2 x3 r ow (Cert.Glu.linCh co) n) (accB x0 x1 x2 x3 r ow (Cert.Glu.gateCh co) n)

theorem blkK_eq (y : S3x15x64x256.Idx) : blkK x0 x1 x2 x3 y = blkC x0 x1 x2 x3 (y 0) (y 1) (y 2) (y 3) := rfl

/-- Each tile is the block function on its place. -/
theorem pieceK_spec (r : Fin 3) (ow : Fin 15) (x : S1x1x64x256.Idx) :
    tileK (ldW arg3 harg3 x2 0) (ldW arg3 harg3 x2 1) (ldW arg3 harg3 x2 2) (ldB arg4 harg4 x3)
        (ldA arg1 harg1 arg2 harg2 x0 x1 r ow 0) (ldA arg1 harg1 arg2 harg2 x0 x1 r ow 1) (ldA arg1 harg1 arg2 harg2 x0 x1 r ow 2) x
      = blkK x0 x1 x2 x3 ((Rect.unit (s := S3x15x64x256) ![r.val, ow.val, 0, 0] S1x1x64x256.size (inb_o r ow)).idx x) := by
  obtain ⟨u, v, co, n, rfl⟩ : ∃ (u v : Fin 1) (co : Fin 64) (n : Fin 256), x = ix4 u v co n := ⟨x 0, x 1, x 2, x 3, eq_ix4 x⟩
  have hu : u.val = 0 := by omega
  have hv : v.val = 0 := by omega
  rw [tileK_apply, accT_loads, accT_loads, blkK_eq]
  have h : ∀ (a : Fin 3) (b : Fin 15) (c : Fin 64) (d : Fin 256), a = r → b = ow → c = co → d = n →
      blkC x0 x1 x2 x3 r ow co n = blkC x0 x1 x2 x3 a b c d := by
    rintro _ _ _ _ rfl rfl rfl rfl; rfl
  exact h _ _ _ _
    (Fin.ext (by show r.val + 1 * u.val = r.val; omega))
    (Fin.ext (by show ow.val + 1 * v.val = ow.val; omega))
    (Fin.ext (by show 0 + 1 * co.val = co.val; omega))
    (Fin.ext (by show 0 + 1 * n.val = n.val; omega))

/-- THE OUTPUT BLOCK: the tiles laid over the block are the block function. -/
theorem canon_pieces (y : S3x15x64x256.Idx) :
    View.canon (piecesK arg1 harg1 arg2 harg2 arg3 harg3 arg4 harg4 x0 x1 x2 x3) y = blkK x0 x1 x2 x3 y := by
  refine View.canon_apply_of_pieces (Val := Elt Ideal) (e := .f32) (blkK x0 x1 x2 x3) _ (fun p hp x => ?_) y ?_
  · unfold piecesK at hp
    obtain ⟨r, -, hp⟩ := List.mem_flatMap.mp hp
    obtain ⟨ow, -, rfl⟩ := List.mem_map.mp hp
    exact pieceK_spec x0 x1 x2 x3 arg1 harg1 arg2 harg2 arg3 harg3 arg4 harg4 r ow x
  · refine ⟨pieceK arg1 harg1 arg2 harg2 arg3 harg3 arg4 harg4 x0 x1 x2 x3 (y 0) (y 1), ?_, ?_⟩
    · unfold piecesK
      exact List.mem_flatMap.mpr ⟨y 0, List.mem_reverse.mpr (List.mem_finRange _),
        List.mem_map.mpr ⟨y 1, List.mem_reverse.mpr (List.mem_finRange _), rfl⟩⟩
    · show y ∈ (Rect.unit (s := S3x15x64x256) ![(y 0).val, (y 1).val, 0, 0] S1x1x64x256.size (inb_o (y 0) (y 1))).set
      rw [Rect.mem_set_unit]
      intro a
      have h2 : (y 2).val < 64 := (y 2).isLt
      have h3 : (y 3).val < 256 := (y 3).isLt
      match a with
      | ⟨0, _⟩ => show (y 0).val ≤ (y 0).val ∧ (y 0).val < (y 0).val + 1; omega
      | ⟨1, _⟩ => show (y 1).val ≤ (y 1).val ∧ (y 1).val < (y 1).val + 1; omega
      | ⟨2, _⟩ => show 0 ≤ (y 2).val ∧ (y 2).val < 0 + 64; omega
      | ⟨3, _⟩ => show 0 ≤ (y 3).val ∧ (y 3).val < 0 + 256; omega

end Block

/-- What the body leaves in the output buffer at any grid point is the block function of the four staged blocks. -/
theorem outBlk_eq (c : Dev nD) (t : Fin cfg0.N)
    (x0 : Vec Ideal S6x1024x256 .bf16) (x1 : Vec Ideal S1x1024x256 .bf16) (x2 : Vec Ideal S3x128x96 .bf16) (x3 : Vec Ideal S128x1 .f32) :
    outBlk c t x0 x1 x2 x3 = blkK x0 x1 x2 x3 := by
  funext y
  unfold outBlk
  rw [pieces_eq]
  exact canon_pieces x0 x1 x2 x3 _ _ _ _ _ _ _ _ y

end Cert.KernelIdeal.Hand

end
-- ==== Proof.KernelIdealRun.lean ====
/-
  The run of the whole program, for any float instance: the nine host operations that re-lay the inputs, the kernel
  region over its five grid points, and the closing transpose.  Every weakly fair execution terminates, nothing
  faulting, and every unscoped buffer ends at the closing transpose's valuation: the result at the transpose of
  what the region wrote, each argument as launched.

  The region reads ONE array through two windows, so the array's share is dealt in halves between them at the
  region's entry and put together again at its exit: both halves still hold the entry contents, an input array
  being never written.
-/
import proofs.«176583_g2000106783720467_pallasbulk_1336_18_alg».proof.Proof.KernelIdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers throughout: the core owing nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The region's result array when the region ends: the five blocks written back. -/
def out9 (c : Dev nD) : Buf (Elt F) ((c : Thread nD τ).loc main_call0_v9) := (dats m ρ 0 c).arrAt 4 cfg0.N

/-- The buffers when the region ends: the result array as the region left it, every other as the region found it. -/
def V1 (c : Dev nD) : Valuation τ sig (Elt F) :=
  Function.update (StableHlo.after hostOps0 (V₀ m ρ c)) (Proc.devRef .tc main_call0_v9) (out9 m ρ c)

/-- The nine host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m ρ) R

/-- The transpose after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (List.forall_iff_forall_mem.mp hostOps1_fresh) (V1 m ρ) R

theorem share_0 (c : Dev nD) : (dats m ρ 0 c).share 0 = fullShare.left := rfl
theorem share_1 (c : Dev nD) : (dats m ρ 0 c).share 1 = fullShare.right := rfl
theorem share_2 (c : Dev nD) : (dats m ρ 0 c).share 2 = fullShare := rfl
theorem share_3 (c : Dev nD) : (dats m ρ 0 c).share 3 = fullShare := rfl
theorem share_4 (c : Dev nD) : (dats m ρ 0 c).share 4 = fullShare := rfl

theorem arr_image : (Finset.univ.image (Pipeline.arrRef spec0)) = {main_call0_v2, main_call0_v6, main_call0_v8, main_call0_v9} := by decide

/-- The pipeline's arrays at contents `G`, window by window, each a whole buffer at its share. -/
theorem arrays_chain (c : Dev nD) (G : (w : Fin cfg0.W) → Buf (Elt F) ((cfg0.win w).arr.view.loc (c : Thread nD τ))) :
    ((dats m ρ 0 c).arrays G : sProp 𝕄)
      = iprop((((c : Thread nD τ).loc main_call0_v2) ↦{fullShare.left} G 0) ∗ (((c : Thread nD τ).loc main_call0_v2) ↦{fullShare.right} G 1)
          ∗ (((c : Thread nD τ).loc main_call0_v6) ↦{fullShare} G 2) ∗ (((c : Thread nD τ).loc main_call0_v8) ↦{fullShare} G 3)
          ∗ (((c : Thread nD τ).loc main_call0_v9) ↦{fullShare} G 4)) := by
  unfold Dat.arrays
  rw [bigSep_W0]
  rw [(arr_whole0 0).set_eq_univ, (arr_whole0 2).set_eq_univ, (arr_whole0 3).set_eq_univ, (arr_whole0 4).set_eq_univ,
    share_0, share_1, share_2, share_3, share_4]

/-- The four buffers behind the windows' arrays, each whole at the full share. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_call0_v2) ↦{fullShare} W main_call0_v2) ∗ (((c : Thread nD τ).loc main_call0_v6) ↦{fullShare} W main_call0_v6)
          ∗ (((c : Thread nD τ).loc main_call0_v8) ↦{fullShare} W main_call0_v8) ∗ (((c : Thread nD τ).loc main_call0_v9) ↦{fullShare} W main_call0_v9)) := by
  unfold Pipeline.arrBufs
  rw [arr_image, bigSep_insert (by decide), bigSep_insert (by decide), bigSep_insert (by decide), bigSep_singleton]
  rfl

/-- Dealing the shared array's share in halves: the four buffers at `W` are the five windows' arrays at `W`. -/
theorem arrBufs_to_arrays (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m ρ 0 c).arrays (fun w => W (Pipeline.arrRef spec0 w)) := by
  rw [arrBufs_chain, arrays_chain]
  iintro ⟨H2, H6, H8, H9⟩
  ihave H2 := (pointsTo_share (PosShare.mem_left_op_right fullShare)).1 $$ H2
  icases H2 with ⟨H2l, H2r⟩
  isplitl [H2l]; · iexact H2l
  isplitl [H2r]; · iexact H2r
  isplitl [H6]; · iexact H6
  isplitl [H8]; · iexact H8
  iexact H9

/-- And back: the two halves hold the same contents, so the array is whole again. -/
theorem arrays_to_arrBufs (c : Dev nD) (W : (b : Ref sig .tc) → Buf (Elt F) ((c : Thread nD τ).loc b)) :
    ((dats m ρ 0 c).arrays (fun w => W (Pipeline.arrRef spec0 w)) : sProp 𝕄)
      ⊢ Pipeline.arrBufs (Ix := Unit) (Name := ℕ) (U := UR sig nD τ) (Lvl := ℕ) spec0 c W := by
  rw [arrBufs_chain, arrays_chain]
  iintro ⟨H2l, H2r, H6, H8, H9⟩
  isplitl [H2l H2r]
  · iapply (pointsTo_share (PosShare.mem_left_op_right fullShare)).2
    isplitl [H2l]; · iexact H2l
    iexact H2r
  isplitl [H6]; · iexact H6
  isplitl [H8]; · iexact H8
  iexact H9

/-! ## The buffers when the region ends -/

/-- The same read at a TensorCore reference. -/
abbrev W1 (c : Dev nD) (b : Ref sig .tc) : Buf (Elt F) ((c : Thread nD τ).loc b) := V1 m ρ c b

theorem W1_of_ne (c : Dev nD) (b : Ref sig .tc) (h : b ≠ main_call0_v9) : W1 m ρ c b = V m ρ c b := by
  unfold W1 V1; exact Function.update_of_ne (StableHlo.devRef_ne_of_ne h) _ _
theorem W1_v9 (c : Dev nD) : W1 m ρ c main_call0_v9 = out9 m ρ c := by
  unfold W1 V1; exact Function.update_self _ _ _

/-- The arrays when the region ends: the inputs' as found (never written), the result's with its five blocks. -/
theorem arrAt_N (c : Dev nD) (w : Fin cfg0.W) : (dats m ρ 0 c).arrAt w cfg0.N = W1 m ρ c (Pipeline.arrRef spec0 w) := by
  match w with
  | ⟨0, _⟩ => exact ((dats m ρ 0 c).arrAt_in 0 rfl _).trans ((A_eq m ρ c 0).trans (W1_of_ne m ρ c _ (by decide)).symm)
  | ⟨1, _⟩ => exact ((dats m ρ 0 c).arrAt_in 1 rfl _).trans ((A_eq m ρ c 1).trans (W1_of_ne m ρ c _ (by decide)).symm)
  | ⟨2, _⟩ => exact ((dats m ρ 0 c).arrAt_in 2 rfl _).trans ((A_eq m ρ c 2).trans (W1_of_ne m ρ c _ (by decide)).symm)
  | ⟨3, _⟩ => exact ((dats m ρ 0 c).arrAt_in 3 rfl _).trans ((A_eq m ρ c 3).trans (W1_of_ne m ρ c _ (by decide)).symm)
  | ⟨4, _⟩ => exact (W1_v9 m ρ c).symm

/-- The buffers no window stages are as the region found them. -/
theorem rest_eq (c : Dev nD) :
    (Pipeline.unscopedRest (Ix := Unit) (Name := ℕ) (U := UR sig nD τ) (Lvl := ℕ) spec0 c (V m ρ c) : sProp 𝕄)
      = Pipeline.unscopedRest spec0 c (W1 m ρ c) := by
  unfold Pipeline.unscopedRest
  exact bigSep_congr fun b hb => by
    rw [W1_of_ne m ρ c b (fun e => (Finset.mem_sdiff.mp hb).2 (Finset.mem_image.mpr ⟨4, Finset.mem_univ _, e.symm⟩))]

/-! ## The region -/

set_option backward.isDefEq.respectTransparency.types false in
/-- The kernel region: entered from what the host operations left — the four array buffers dealt to the five windows,
    every other unscoped buffer bypassing —, left with the result array written and the rest as found. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V1 m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm]
    rw [Pipeline.unscopedBufs_split₀ cfgs 0 winFacts₀0.arr_unscoped c (V m ρ c)]
    rw [show (fun x => (dats m ρ 0 c).arrAt x 0) = fun w => V m ρ c (Pipeline.arrRef spec0 w) from funext fun w => A_eq m ρ c w]
    iintro ⟨⟨⟨Ha, HZ⟩, HO⟩, -, -⟩
    imodintro
    isplitl [Ha]
    · iapply (arrBufs_to_arrays m ρ c (V m ρ c)); iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m ρ 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m ρ 0 c).Φ (Fin.last (Pipeline.pin pcfgs adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show (fun x => (dats m ρ 0 c).arrAt x (Pipeline.pin pcfgs adm 0).N) = fun w => W1 m ρ c (Pipeline.arrRef spec0 w) from funext fun w => arrAt_N m ρ c w]
    rw [rest_eq m ρ c]
    rw [show StableHlo.held (c : Thread nD τ) (Pipeline.ucRefs τ sig) (V1 m ρ c) = unscopedBufs c (W1 m ρ c) from (Pipeline.unscopedBufs_held c _).symm,
      Pipeline.unscopedBufs_split₀ cfgs 0 winFacts₀0.arr_unscoped c (W1 m ρ c)]
    iintro ⟨Ha, HO, -, HZ⟩
    imodintro
    isplitr [HO]
    · isplitl [Ha]
      · iapply (arrays_to_arrBufs m ρ c (W1 m ρ c)); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) :=
  [.host (seg0 m ρ), .region (reg0 m ρ), .host (seg1 m ρ)]

/-- The launch element: the pipeline library's at the staging cells and the pipeline's transfers. -/
def u₀ : UR sig nD τ := initOf (Pipeline.cells cfgs cellOf_inj) (Pipeline.launchToks cfgs cellOf_inj)

/-- Every unscoped buffer when the program ends: the closing transpose applied to the buffers the region left. -/
abbrev Vend (c : Dev nD) : Valuation τ sig (Elt F) := StableHlo.after hostOps1 (V1 m ρ c)

set_option backward.isDefEq.respectTransparency.types false in
/-- At the compiled mesh, for any float values, from any memory with zero counters: every weakly fair execution of
    @main on the TensorCores terminates, and in every final state every unscoped buffer holds `Vend`. -/
theorem run_main : θ_run defs (onTc (τ := τ) (main (F := F))) (s₀ m ρ)
    (fun r => ∀ c : Dev nD, ∀ b ∈ Pipeline.ucRefs τ sig, r.2.mem ((c : Thread nD τ).1, b) = Vend m ρ c b) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Vend m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vend m ρ c b)
    (hfin := fun c s' => by
      unfold StableHlo.held
      iintro ⟨Hh, HSI⟩
      ihave Hr := (pointsTo_read_all (Pipeline.ucRefs τ sig) (fun b => ((c : Thread nD τ).1, b)) (Vend m ρ c) s') $$ [Hh HSI]
      · isplitl [Hh] <;> iassumption
      icases Hr with ⟨%hr, HSI⟩
      imodintro
      isplitr; · ipureintro; exact hr
      iexact HSI)
    (hQ := fun _ h => h)

/-! ## The arguments end as launched -/

theorem mem_ucRefs (b : Ref sig .tc) (h : b.isScoped = false) : (Proc.devRef .tc b : DevRef τ sig) ∈ Pipeline.ucRefs τ sig :=
  Finset.mem_filter.mpr ⟨StableHlo.devRef_mem_tcRefs b, by simpa using h⟩

/-- No host operation, before the region or after it, writes `main_arg0`, and the region's windows do not stage it:
    it ends as launched. -/
theorem Vend_main_arg0 (c : Dev nD) : Vend m ρ c main_arg0 = m ((c : Thread nD τ).loc main_arg0) := by
  have h1 : Vend m ρ c main_arg0 = V1 m ρ c main_arg0 :=
    StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg0 = V m ρ c main_arg0 := W1_of_ne m ρ c main_arg0 (by decide)
  have h3 : V m ρ c main_arg0 = m ((c : Thread nD τ).loc main_arg0) :=
    StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg1`, and the region's windows do not stage it:
    it ends as launched. -/
theorem Vend_main_arg1 (c : Dev nD) : Vend m ρ c main_arg1 = m ((c : Thread nD τ).loc main_arg1) := by
  have h1 : Vend m ρ c main_arg1 = V1 m ρ c main_arg1 :=
    StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg1 = V m ρ c main_arg1 := W1_of_ne m ρ c main_arg1 (by decide)
  have h3 : V m ρ c main_arg1 = m ((c : Thread nD τ).loc main_arg1) :=
    StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg2`, and the region's windows do not stage it:
    it ends as launched. -/
theorem Vend_main_arg2 (c : Dev nD) : Vend m ρ c main_arg2 = m ((c : Thread nD τ).loc main_arg2) := by
  have h1 : Vend m ρ c main_arg2 = V1 m ρ c main_arg2 :=
    StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg2 = V m ρ c main_arg2 := W1_of_ne m ρ c main_arg2 (by decide)
  have h3 : V m ρ c main_arg2 = m ((c : Thread nD τ).loc main_arg2) :=
    StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg3`, and the region's windows do not stage it:
    it ends as launched. -/
theorem Vend_main_arg3 (c : Dev nD) : Vend m ρ c main_arg3 = m ((c : Thread nD τ).loc main_arg3) := by
  have h1 : Vend m ρ c main_arg3 = V1 m ρ c main_arg3 :=
    StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg3 = V m ρ c main_arg3 := W1_of_ne m ρ c main_arg3 (by decide)
  have h3 : V m ρ c main_arg3 = m ((c : Thread nD τ).loc main_arg3) :=
    StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- No host operation, before the region or after it, writes `main_arg4`, and the region's windows do not stage it:
    it ends as launched. -/
theorem Vend_main_arg4 (c : Dev nD) : Vend m ρ c main_arg4 = m ((c : Thread nD τ).loc main_arg4) := by
  have h1 : Vend m ρ c main_arg4 = V1 m ρ c main_arg4 :=
    StableHlo.after_of_forall_not_mem (b := Proc.devRef .tc main_arg4) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
  have h2 : V1 m ρ c main_arg4 = V m ρ c main_arg4 := W1_of_ne m ρ c main_arg4 (by decide)
  have h3 : V m ρ c main_arg4 = m ((c : Thread nD τ).loc main_arg4) :=
    StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans (h2.trans h3)

/-- THE FRAME: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucRefs main_arg0 (by decide))).trans (Vend_main_arg0 m ρ c),
     (h c _ (mem_ucRefs main_arg1 (by decide))).trans (Vend_main_arg1 m ρ c),
     (h c _ (mem_ucRefs main_arg2 (by decide))).trans (Vend_main_arg2 m ρ c),
     (h c _ (mem_ucRefs main_arg3 (by decide))).trans (Vend_main_arg3 m ρ c),
     (h c _ (mem_ucRefs main_arg4 (by decide))).trans (Vend_main_arg4 m ρ c)⟩) (run_main m ρ)

end Cert.KernelIdeal.Hand

end
-- ==== Proof.KernelIdealMid.lean ====
/-
  The kernel region's output array in its middle form.

  Grid point t < 5 stages rows 6 t .. 6 t + 5 of the re-laid image in the six-row window and row 6 t + 6 in the
  one-row window, the whole filters and the whole bias column, and writes back output rows 3 t .. 3 t + 2.  Output
  row oh = 3 t + r reads image rows 2 oh + k = 6 t + (2 r + k): the staged rows, so the block the point writes back
  is the middle form restricted to its rows; the five blocks cover the fifteen output rows.
-/
import proofs.«176583_g2000106783720467_pallasbulk_1336_18_alg».proof.Proof.KernelIdealBlock
import proofs.«176583_g2000106783720467_pallasbulk_1336_18_alg».proof.Proof.KernelIdealRun

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The windows' block indices over the grid: the six-row window at block t, the one-row window at row 6 t + 6,
    the output at block t; the filters and the bias at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 6 * t.val + 6 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

theorem t_lt (t : Fin cfg0.N) : t.val < 5 := lt_of_lt_of_eq t.isLt (show cfg0.N = 5 from N_0)

/-- The six-row window's staged block at (a, p, n): the re-laid image at row 6 t + a. -/
theorem xin0_apply (c : Dev nD) (t : Fin cfg0.N) (a : Fin 6) (p : Fin 1024) (n : Fin 256) :
    xin0 m ρ c t (ix3 a p n)
      = V m ρ c main_call0_v2 (ix3 (⟨6 * t.val + a.val, by have := t_lt t; omega⟩ : Fin 32) p n) := by
  have hm : win0_0.moved (grid0.coords t) (ix3 a p n) = true :=
    (win0_0.moved_iff _ _).mpr fun ax => by
      have := ((ix3 a p n : S6x1024x256.Idx) ax).isLt
      unfold Pipeline.Window.xsize
      rw [clip0_none t ax]
      exact this
  unfold xin0 Pipeline.Window.fill
  rw [dif_pos hm]
  unfold iblk
  show V m ρ c (Pipeline.arrRef spec0 0) (((cfg0.win 0).blk t).view.emb _) = _
  obtain ⟨e0, e1, e2, -⟩ := idx_facts t
  congr 1
  funext ax
  apply Fin.ext
  match ax with
  | ⟨0, _⟩ => show win0_0.index t (0 : Fin 3) * 6 + 1 * a.val = 6 * t.val + a.val; rw [e0]; omega
  | ⟨1, _⟩ => show win0_0.index t (1 : Fin 3) * 1024 + 1 * p.val = p.val; rw [e1]; omega
  | ⟨2, _⟩ => show win0_0.index t (2 : Fin 3) * 256 + 1 * n.val = n.val; rw [e2]; omega

/-- The one-row window's staged block at (0, p, n): the re-laid image at row 6 t + 6. -/
theorem iblk1_apply (c : Dev nD) (t : Fin cfg0.N) (u : Fin 1) (p : Fin 1024) (n : Fin 256) :
    iblk m ρ c 1 t (ix3 u p n)
      = V m ρ c main_call0_v2 (ix3 (⟨6 * t.val + 6, by have := t_lt t; omega⟩ : Fin 32) p n) := by
  unfold iblk
  show V m ρ c (Pipeline.arrRef spec0 1) (((cfg0.win 1).blk t).view.emb _) = _
  obtain ⟨-, -, -, e0, e1, e2, -⟩ := idx_facts t
  have hu : u.val = 0 := by omega
  congr 1
  funext ax
  apply Fin.ext
  match ax with
  | ⟨0, _⟩ => show win0_1.index t (0 : Fin 3) * 1 + 1 * u.val = 6 * t.val + 6; rw [e0]; omega
  | ⟨1, _⟩ => show win0_1.index t (1 : Fin 3) * 1024 + 1 * p.val = p.val; rw [e1]; omega
  | ⟨2, _⟩ => show win0_1.index t (2 : Fin 3) * 256 + 1 * n.val = n.val; rw [e2]; omega

/-- The filters' staged block is the whole re-laid filter array. -/
theorem iblk2_apply (c : Dev nD) (t : Fin cfg0.N) (k : Fin 3) (f : Fin 128) (j : Fin 96) :
    iblk m ρ c 2 t (ix3 k f j) = V m ρ c main_call0_v6 (ix3 k f j) := by
  unfold iblk
  show V m ρ c (Pipeline.arrRef spec0 2) (((cfg0.win 2).blk t).view.emb _) = _
  obtain ⟨-, -, -, -, -, -, e0, e1, e2, -⟩ := idx_facts t
  congr 1
  funext ax
  apply Fin.ext
  match ax with
  | ⟨0, _⟩ => show win0_2.index t (0 : Fin 3) * 3 + 1 * k.val = k.val; rw [e0]; omega
  | ⟨1, _⟩ => show win0_2.index t (1 : Fin 3) * 128 + 1 * f.val = f.val; rw [e1]; omega
  | ⟨2, _⟩ => show win0_2.index t (2 : Fin 3) * 96 + 1 * j.val = j.val; rw [e2]; omega

/-- The bias column's staged block is the whole column. -/
theorem iblk3_apply (c : Dev nD) (t : Fin cfg0.N) (f : Fin 128) (z : Fin 1) :
    iblk m ρ c 3 t (ix2 f z) = V m ρ c main_call0_v8 (ix2 f z) := by
  unfold iblk
  show V m ρ c (Pipeline.arrRef spec0 3) (((cfg0.win 3).blk t).view.emb _) = _
  obtain ⟨-, -, -, -, -, -, -, -, -, e0, e1, -⟩ := idx_facts t
  congr 1
  funext ax
  apply Fin.ext
  match ax with
  | ⟨0, _⟩ => show win0_3.index t (0 : Fin 2) * 128 + 1 * f.val = f.val; rw [e0]; omega
  | ⟨1, _⟩ => show win0_3.index t (1 : Fin 2) * 1 + 1 * z.val = z.val; rw [e1]; omega

/-- The staged row 2 r + k of grid point t is image row 2 (3 t + r) + k. -/
theorem slabAt_eq (c : Dev nD) (t : Fin cfg0.N) (r : Fin 3) (ow : Fin 15) (k : Fin 3) (j : Fin 96) (n : Fin 256) :
    slabAt (xin0 m ρ c t) (iblk m ρ c 1 t) r ow k j n
      = V m ρ c main_call0_v2 (ix3 (⟨2 * (3 * t.val + r.val) + k.val, by have := t_lt t; omega⟩ : Fin 32) (⟨64 * ow.val + j.val, by omega⟩ : Fin 1024) n) := by
  unfold slabAt
  by_cases h : 2 * r.val + k.val < 6
  · rw [dif_pos h, xin0_apply]
    congr 1
    funext ax
    apply Fin.ext
    match ax with
    | ⟨0, _⟩ => show 6 * t.val + (2 * r.val + k.val) = 2 * (3 * t.val + r.val) + k.val; omega
    | ⟨1, _⟩ => rfl
    | ⟨2, _⟩ => rfl
  · rw [dif_neg h, iblk1_apply]
    congr 1
    funext ax
    apply Fin.ext
    match ax with
    | ⟨0, _⟩ => show 6 * t.val + 6 = 2 * (3 * t.val + r.val) + k.val; omega
    | ⟨1, _⟩ => rfl
    | ⟨2, _⟩ => rfl

/-- The block's accumulator at (r, ow) is the middle form's at output row 3 t + r. -/
theorem accB_eq (c : Dev nD) (t : Fin cfg0.N) (r : Fin 3) (ow : Fin 15) (f : Fin 128) (n : Fin 256) :
    accB (xin0 m ρ c t) (iblk m ρ c 1 t) (iblk m ρ c 2 t) (iblk m ρ c 3 t) r ow f n
      = Cert.Glu.kerAcc (V m ρ c main_call0_v2) (V m ρ c main_call0_v6) (V m ρ c main_call0_v8)
          (⟨3 * t.val + r.val, by have := t_lt t; omega⟩ : Fin 15) ow n f := by
  unfold accB Cert.Glu.kerAcc rowB Cert.Glu.kerRow
  simp only [slabAt_eq, iblk2_apply, iblk3_apply]

/-- WHAT POINT t WRITES BACK is block t of the middle form. -/
theorem flushed_eq (c : Dev nD) (t : Fin cfg0.N) :
    (dats m ρ 0 c).flushed 4 t
      = ((cfg0.win 4).blk t).view.read (Elt Ideal)
          (Cert.Glu.kerMid (V m ρ c main_call0_v2) (V m ρ c main_call0_v6) (V m ρ c main_call0_v8)) := by
  show (cfg0.win 4).cut (grid0.coords t) ((dats m ρ 0 c).after 4 t) = _
  rw [after0_4, outBlk_eq]
  funext y
  obtain ⟨r, ow, co, n, rfl⟩ : ∃ (r : Fin 3) (ow : Fin 15) (co : Fin 64) (n : Fin 256), y = ix4 r ow co n := ⟨y 0, y 1, y 2, y 3, eq_ix4 y⟩
  show blkC (xin0 m ρ c t) (iblk m ρ c 1 t) (iblk m ρ c 2 t) (iblk m ρ c 3 t) r ow co n
    = Cert.Glu.kerMid (V m ρ c main_call0_v2) (V m ρ c main_call0_v6) (V m ρ c main_call0_v8) (((cfg0.win 4).blk t).view.emb (ix4 r ow co n))
  unfold blkC
  rw [accB_eq, accB_eq]
  obtain ⟨-, -, -, -, -, -, -, -, -, -, -, e0, e1, e2, e3⟩ := idx_facts t
  have h : ∀ (a : Fin 15) (b : Fin 15) (d : Fin 64) (e : Fin 256),
      a = (⟨3 * t.val + r.val, by have := t_lt t; omega⟩ : Fin 15) → b = ow → d = co → e = n →
      Cert.Glu.gate (F := Ideal)
          (Cert.Glu.kerAcc (V m ρ c main_call0_v2) (V m ρ c main_call0_v6) (V m ρ c main_call0_v8) (⟨3 * t.val + r.val, by have := t_lt t; omega⟩ : Fin 15) ow n (Cert.Glu.linCh co))
          (Cert.Glu.kerAcc (V m ρ c main_call0_v2) (V m ρ c main_call0_v6) (V m ρ c main_call0_v8) (⟨3 * t.val + r.val, by have := t_lt t; omega⟩ : Fin 15) ow n (Cert.Glu.gateCh co))
        = Cert.Glu.gate (F := Ideal)
          (Cert.Glu.kerAcc (V m ρ c main_call0_v2) (V m ρ c main_call0_v6) (V m ρ c main_call0_v8) a b e (Cert.Glu.linCh d))
          (Cert.Glu.kerAcc (V m ρ c main_call0_v2) (V m ρ c main_call0_v6) (V m ρ c main_call0_v8) a b e (Cert.Glu.gateCh d)) := by
    rintro _ _ _ _ rfl rfl rfl rfl; rfl
  exact h _ _ _ _
    (Fin.ext (by show win0_4.index t (0 : Fin 4) * 3 + 1 * r.val = 3 * t.val + r.val; rw [e0]; omega))
    (Fin.ext (by show win0_4.index t (1 : Fin 4) * 15 + 1 * ow.val = ow.val; rw [e1]; omega))
    (Fin.ext (by show win0_4.index t (2 : Fin 4) * 64 + 1 * co.val = co.val; rw [e2]; omega))
    (Fin.ext (by show win0_4.index t (3 : Fin 4) * 256 + 1 * n.val = n.val; rw [e3]; omega))

/-- An index of the output array is in point t's block iff each coordinate is in the block's range. -/
theorem mem_blk (t : Fin cfg0.N) (i : S15x15x64x256.Idx) :
    i ∈ ((cfg0.win 4).blk t).view.set ↔ ∀ a : Fin 4, win0_4.index t a * S3x15x64x256.size a ≤ (i a).val ∧ (i a).val < win0_4.index t a * S3x15x64x256.size a + S3x15x64x256.size a := by
  show i ∈ ((View.whole main_call0_v9).slice (win0_4.rect t)).set ↔ _
  rw [View.set_slice_whole, Rect.mem_set_unit]
  exact Iff.rfl

/-- THE REGION'S OUTPUT ARRAY: the five blocks cover the fifteen output rows, so it ends at the middle form. -/
theorem midK (c : Dev nD) :
    out9 m ρ c = Cert.Glu.kerMid (V m ρ c main_call0_v2) (V m ρ c main_call0_v6) (V m ρ c main_call0_v8) :=
  (dats m ρ 0 c).arrAt_eq_of_cover 4 _ (fun t _ => flushed_eq m ρ c t) fun i => by
    have h0 : (i 0).val < 15 := (i 0).isLt
    have h1 : (i 1).val < 15 := (i 1).isLt
    have h2 : (i 2).val < 64 := (i 2).isLt
    have h3 : (i 3).val < 256 := (i 3).isLt
    let t : Fin cfg0.N := ⟨(i 0).val / 3, by rw [show cfg0.N = 5 from N_0]; omega⟩
    refine ⟨t, flush0_4 t, ?_⟩
    rw [mem_blk]
    obtain ⟨-, -, -, -, -, -, -, -, -, -, -, e0, e1, e2, e3⟩ := idx_facts t
    have ht : t.val = (i 0).val / 3 := rfl
    intro a
    match a with
    | ⟨0, _⟩ => show win0_4.index t (0 : Fin 4) * 3 ≤ (i 0).val ∧ (i 0).val < win0_4.index t (0 : Fin 4) * 3 + 3; rw [e0, ht]; omega
    | ⟨1, _⟩ => show win0_4.index t (1 : Fin 4) * 15 ≤ (i 1).val ∧ (i 1).val < win0_4.index t (1 : Fin 4) * 15 + 15; rw [e1]; omega
    | ⟨2, _⟩ => show win0_4.index t (2 : Fin 4) * 64 ≤ (i 2).val ∧ (i 2).val < win0_4.index t (2 : Fin 4) * 64 + 64; rw [e2]; omega
    | ⟨3, _⟩ => show win0_4.index t (3 : Fin 4) * 256 ≤ (i 3).val ∧ (i 3).val < win0_4.index t (3 : Fin 4) * 256 + 256; rw [e3]; omega

end Cert.KernelIdeal.Hand

end
-- ==== Proof.KernelIdealHost.lean ====
/-
  The kernel program's host level: what the nine host operations before the region hand it, and what the one after
  it makes of its output.

  Before the region the image x [256, 32, 32, 32] (n, ci, h, w) is re-laid as X [32, 1024, 256] with
  X (h, 32 w + ci, n) = x (n, ci, h, w); the two filter banks, stacked along their first axis into w [128, 32, 3, 3]
  (f, ci, kh, kw), are re-laid as Wg [3, 128, 96] with Wg (kh, f, 32 kw + ci) = w (f, ci, kh, kw); the two bias
  vectors, stacked into b [128], become the column B [128, 1].  Each re-laying is a change of float format (the
  identity on the extended reals), a permutation of the axes and a merge of two adjacent axes, so each entry of the
  re-laid array is ONE entry of its source, found by dividing the merged coordinate by 32.

  After the region its output array [15, 15, 64, 256] (oh, ow, co, n) is permuted to [256, 64, 15, 15] (n, co, oh, ow).

  In the middle form of the region's output, tap row k of filter f at output position (oh, ow) of image n is
  the sum over j < 96 of Wg (k, f, j) * X (2 oh + k, 64 ow + j, n).  With j = 32 kw + ci this is
  w (f, ci, k, kw) * x (n, ci, 2 oh + k, 2 ow + kw), because 64 ow + j = 32 (2 ow + kw) + ci: exactly the taps the
  specification's row form adds, in the same order.  So the permuted middle form IS the row form, with no
  rearrangement of any sum.
-/
import proofs.«176583_g2000106783720467_pallasbulk_1336_18_alg».proof.Proof.Mid
import proofs.«176583_g2000106783720467_pallasbulk_1336_18_alg».proof.Proof.KernelIdealData
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.SL Idealize.SL.Sem
open Idealize.ShloMosaic.ValueIdx

/-! ## The three re-laid arrays read at an index -/

/-- The re-laid image [32, 1024, 256] at (h, p, n) is the image at (n, p % 32, h, p / 32): the row-major position
    of (h, p, n) in [32, 1024, 256] is that of (h, p / 32, p % 32, n) in [32, 32, 32, 256], and the permutation
    [2, 3, 1, 0] sends result axes (h, w, ci, n) to source axes (n, ci, h, w); a change of float format is the
    identity on the extended reals. -/
theorem relaidImage_apply (x : S256x32x32x32.Idx → EReal) (h : Fin 32) (p : Fin 1024) (n : Fin 256) :
    shapeCast S32x1024x256 (transpose S32x32x32x256 [2, 3, 1, 0]
        (truncf (F := Ideal) .bf16 (x : Vec Ideal S256x32x32x32 .f32) bitsLt_bf16_f32)
        transposes_S256x32x32x32_S32x32x32x256_2_3_1_0) shapeCasts_S32x32x32x256_S32x1024x256 (ix3 h p n)
      = x (ix4 n (⟨p.val % 32, Nat.mod_lt _ (by decide)⟩ : Fin 32) h (⟨p.val / 32, by omega⟩ : Fin 32)) := by
  have hp := p.isLt
  refine (shapeCast_apply _ _ _ (ix4 h (⟨p.val / 32, by omega⟩ : Fin 32) (⟨p.val % 32, Nat.mod_lt _ (by decide)⟩ : Fin 32) n) (by
    rw [Shape.rowMajor_val_four, Shape.rowMajor_val_three]
    show ((h.val * 32 + p.val / 32) * 32 + p.val % 32) * 256 + n.val = (h.val * 1024 + p.val) * 256 + n.val
    omega)).trans ?_
  refine (transpose_apply _ _ _ _ (ix4 n (⟨p.val % 32, Nat.mod_lt _ (by decide)⟩ : Fin 32) h (⟨p.val / 32, by omega⟩ : Fin 32))
    (fun b => match b with | ⟨0, _⟩ => rfl | ⟨1, _⟩ => rfl | ⟨2, _⟩ => rfl | ⟨3, _⟩ => rfl)).trans ?_
  rfl

/-- The re-laid filters [3, 128, 96] at (k, f, j) are the stacked filters at (f, j % 32, k, j / 32): position
    (k, f, j) of [3, 128, 96] is position (k, f, j / 32, j % 32) of [3, 128, 3, 32], and the permutation
    [2, 0, 3, 1] sends result axes (kh, f, kw, ci) to source axes (f, ci, kh, kw). -/
theorem relaidFilters_apply (w : S128x32x3x3.Idx → EReal) (k : Fin 3) (f : Fin 128) (j : Fin 96) :
    shapeCast S3x128x96 (transpose S3x128x3x32 [2, 0, 3, 1]
        (truncf (F := Ideal) .bf16 (w : Vec Ideal S128x32x3x3 .f32) bitsLt_bf16_f32)
        transposes_S128x32x3x3_S3x128x3x32_2_0_3_1) shapeCasts_S3x128x3x32_S3x128x96 (ix3 k f j)
      = w (ix4 f (Cert.Glu.lo j) k (Cert.Glu.hi j)) := by
  have hj := j.isLt
  refine (shapeCast_apply _ _ _ (ix4 k f (Cert.Glu.hi j) (Cert.Glu.lo j)) (by
    rw [Shape.rowMajor_val_four, Shape.rowMajor_val_three]
    show ((k.val * 128 + f.val) * 3 + j.val / 32) * 32 + j.val % 32 = (k.val * 128 + f.val) * 96 + j.val
    omega)).trans ?_
  refine (transpose_apply _ _ _ _ (ix4 f (Cert.Glu.lo j) k (Cert.Glu.hi j))
    (fun b => match b with | ⟨0, _⟩ => rfl | ⟨1, _⟩ => rfl | ⟨2, _⟩ => rfl | ⟨3, _⟩ => rfl)).trans ?_
  rfl

/-- The biases as a column [128, 1] at (f, 0) are the biases at f. -/
theorem columnBias_apply (b : S128.Idx → EReal) (f : Fin 128) :
    shapeCast S128x1 (b : Vec Ideal S128 .f32) shapeCasts_S128_S128x1 (ix2 f (0 : Fin 1)) = b (ix1 f) := by
  refine shapeCast_apply _ _ _ (ix1 f) (by
    rw [Shape.rowMajor_val_one, Shape.rowMajor_val_two]
    show f.val = f.val * 1 + 0
    omega)

/-! ## The middle form over the re-laid arrays is the specification's row form -/

/-- One tap row: position j = 32 kw + ci of the window row pairs filter entry (f, ci, k, kw) with image entry
    (n, ci, 2 oh + k, 2 ow + kw), since position 64 ow + j of the re-laid image row is 32 (2 ow + kw) + ci:
    these are the row's 96 taps, term by term. -/
theorem kerRow_eq (x : S256x32x32x32.Idx → EReal) (w : S128x32x3x3.Idx → EReal)
    (oh ow : Fin 15) (n : Fin 256) (f : Fin 128) (k : Fin 3) :
    Cert.Glu.kerRow (shapeCast S32x1024x256 (transpose S32x32x32x256 [2, 3, 1, 0]
        (truncf (F := Ideal) .bf16 (x : Vec Ideal S256x32x32x32 .f32) bitsLt_bf16_f32)
        transposes_S256x32x32x32_S32x32x32x256_2_3_1_0) shapeCasts_S32x32x32x256_S32x1024x256)
      (shapeCast S3x128x96 (transpose S3x128x3x32 [2, 0, 3, 1]
        (truncf (F := Ideal) .bf16 (w : Vec Ideal S128x32x3x3 .f32) bitsLt_bf16_f32)
        transposes_S128x32x3x3_S3x128x3x32_2_0_3_1) shapeCasts_S3x128x3x32_S3x128x96) oh ow n f k
      = ∑ j : Fin 96, Cert.Glu.tap w x n f oh ow k (Cert.Glu.hi j) (Cert.Glu.lo j) := by
  have hoh := oh.isLt
  have how := ow.isLt
  have hk := k.isLt
  unfold Cert.Glu.kerRow Cert.Glu.tap
  refine Finset.sum_congr rfl fun j _ => ?_
  have hj := j.isLt
  refine congrArg₂ (· * ·) (relaidFilters_apply w k f j) ((relaidImage_apply x _ _ n).trans (congrArg x ?_))
  funext a
  match a with
  | ⟨0, _⟩ => rfl
  | ⟨1, _⟩ => exact Fin.ext (by show (64 * ow.val + j.val) % 32 = j.val % 32; omega)
  | ⟨2, _⟩ => rfl
  | ⟨3, _⟩ => exact Fin.ext (by show (64 * ow.val + j.val) / 32 = 2 * ow.val + j.val / 32; omega)

/-- The three tap rows in order, then the bias: the row-by-row convolution plus the bias. -/
theorem kerAcc_eq (x : S256x32x32x32.Idx → EReal) (w : S128x32x3x3.Idx → EReal) (b : S128.Idx → EReal)
    (oh ow : Fin 15) (n : Fin 256) (f : Fin 128) :
    Cert.Glu.kerAcc (shapeCast S32x1024x256 (transpose S32x32x32x256 [2, 3, 1, 0]
        (truncf (F := Ideal) .bf16 (x : Vec Ideal S256x32x32x32 .f32) bitsLt_bf16_f32)
        transposes_S256x32x32x32_S32x32x32x256_2_3_1_0) shapeCasts_S32x32x32x256_S32x1024x256)
      (shapeCast S3x128x96 (transpose S3x128x3x32 [2, 0, 3, 1]
        (truncf (F := Ideal) .bf16 (w : Vec Ideal S128x32x3x3 .f32) bitsLt_bf16_f32)
        transposes_S128x32x3x3_S3x128x3x32_2_0_3_1) shapeCasts_S3x128x3x32_S3x128x96)
      (shapeCast S128x1 (b : Vec Ideal S128 .f32) shapeCasts_S128_S128x1) oh ow n f
      = Cert.Glu.convRows w x n f oh ow + b (ix1 f) := by
  unfold Cert.Glu.kerAcc Cert.Glu.convRows
  rw [kerRow_eq, kerRow_eq, kerRow_eq, columnBias_apply]

/-- The output array [15, 15, 64, 256] read through the permutation [3, 2, 0, 1] — result (n, co, oh, ow) is the
    array at (oh, ow, co, n) — is the row form of the specification. -/
theorem mid_eq (x : S256x32x32x32.Idx → EReal) (w : S128x32x3x3.Idx → EReal) (b : S128.Idx → EReal) :
    transpose S256x64x15x15 [3, 2, 0, 1] (Cert.Glu.kerMid (shapeCast S32x1024x256 (transpose S32x32x32x256 [2, 3, 1, 0]
        (truncf (F := Ideal) .bf16 (x : Vec Ideal S256x32x32x32 .f32) bitsLt_bf16_f32)
        transposes_S256x32x32x32_S32x32x32x256_2_3_1_0) shapeCasts_S32x32x32x256_S32x1024x256)
      (shapeCast S3x128x96 (transpose S3x128x3x32 [2, 0, 3, 1]
        (truncf (F := Ideal) .bf16 (w : Vec Ideal S128x32x3x3 .f32) bitsLt_bf16_f32)
        transposes_S128x32x3x3_S3x128x3x32_2_0_3_1) shapeCasts_S3x128x3x32_S3x128x96)
      (shapeCast S128x1 (b : Vec Ideal S128 .f32) shapeCasts_S128_S128x1)) transposes_S15x15x64x256_S256x64x15x15_3_2_0_1
      = Cert.Glu.rowsForm w b x := by
  funext i
  obtain ⟨n, co, oh, ow, rfl⟩ : ∃ n co oh ow, i = ix4 n co oh ow := ⟨i 0, i 1, i 2, i 3, eq_ix4 i⟩
  refine (transpose_apply _ _ _ _ (ix4 oh ow co n)
    (fun a => match a with | ⟨0, _⟩ => rfl | ⟨1, _⟩ => rfl | ⟨2, _⟩ => rfl | ⟨3, _⟩ => rfl)).trans ?_
  unfold Cert.Glu.rowsForm Cert.Glu.kerMid
  exact congrArg₂ (Cert.Glu.gate (F := Ideal)) (kerAcc_eq x w b oh ow n (Cert.Glu.linCh co)) (kerAcc_eq x w b oh ow n (Cert.Glu.gateCh co))

/-! ## The three arrays as the region finds them, as terms over the program's arguments -/

/-- The image as the region finds it: its float format changed, its axes permuted to (h, w, ci, n), and the two
    middle axes merged. -/
theorem X_eq (m : (ℓ : Loc nD τ sig) → Buf (Elt Ideal) ℓ) (ρ : Dev nD → PrngReg) (c : Dev nD) :
    @Eq (S32x1024x256.Idx → EReal) (V m ρ c main_call0_v2)
      (shapeCast S32x1024x256 (transpose S32x32x32x256 [2, 3, 1, 0]
          (truncf (F := Ideal) .bf16 (m ((c : Thread nD τ).loc main_arg0) : Vec Ideal S256x32x32x32 .f32) bitsLt_bf16_f32)
          transposes_S256x32x32x32_S32x32x32x256_2_3_1_0) shapeCasts_S32x32x32x256_S32x1024x256) := by
  dsimp only [V]
  after_results
  rfl

/-- The stacked filters as the region finds them: format changed, axes permuted to (kh, f, kw, ci), the last two
    merged. -/
theorem W_eq (m : (ℓ : Loc nD τ sig) → Buf (Elt Ideal) ℓ) (ρ : Dev nD → PrngReg) (c : Dev nD) :
    @Eq (S3x128x96.Idx → EReal) (V m ρ c main_call0_v6)
      (shapeCast S3x128x96 (transpose S3x128x3x32 [2, 0, 3, 1]
          (truncf (F := Ideal) .bf16 (concatenate S128x32x3x3 0 [⟨S64x32x3x3, m ((c : Thread nD τ).loc main_arg1)⟩, ⟨S64x32x3x3, m ((c : Thread nD τ).loc main_arg3)⟩] concatenates_S64x32x3x3_S64x32x3x3_S128x32x3x3_d0 : Vec Ideal S128x32x3x3 .f32) bitsLt_bf16_f32)
          transposes_S128x32x3x3_S3x128x3x32_2_0_3_1) shapeCasts_S3x128x3x32_S3x128x96) := by
  dsimp only [V]
  after_results
  rfl

/-- The stacked biases as the region finds them: a column. -/
theorem B_eq (m : (ℓ : Loc nD τ sig) → Buf (Elt Ideal) ℓ) (ρ : Dev nD → PrngReg) (c : Dev nD) :
    @Eq (S128x1.Idx → EReal) (V m ρ c main_call0_v8)
      (shapeCast S128x1 (concatenate S128 0 [⟨S64, m ((c : Thread nD τ).loc main_arg2)⟩, ⟨S64, m ((c : Thread nD τ).loc main_arg4)⟩] concatenates_S64_S64_S128_d0 : Vec Ideal S128 .f32)
          shapeCasts_S128_S128x1) := by
  dsimp only [V]
  after_results
  rfl

/-! ## The host level -/

/-- The region's output array, as a function of the arrays the nine host operations hand the region, read through
    the last host operation's permutation, is the specification's row form of the stacked filters, the stacked
    biases and the image. -/
theorem host (m : (ℓ : Loc nD τ sig) → Buf (Elt Ideal) ℓ) (ρ : Dev nD → PrngReg) (c : Dev nD) :
    transpose S256x64x15x15 [3, 2, 0, 1] (Cert.Glu.kerMid (V m ρ c main_call0_v2) (V m ρ c main_call0_v6) (V m ρ c main_call0_v8)) transposes_S15x15x64x256_S256x64x15x15_3_2_0_1
      = Cert.Glu.rowsForm
          (concatenate S128x32x3x3 0 [⟨S64x32x3x3, m ((c : Thread nD τ).loc main_arg1)⟩, ⟨S64x32x3x3, m ((c : Thread nD τ).loc main_arg3)⟩] concatenates_S64x32x3x3_S64x32x3x3_S128x32x3x3_d0)
          (concatenate S128 0 [⟨S64, m ((c : Thread nD τ).loc main_arg2)⟩, ⟨S64, m ((c : Thread nD τ).loc main_arg4)⟩] concatenates_S64_S64_S128_d0)
          (m ((c : Thread nD τ).loc main_arg0)) := by
  rw [X_eq m ρ c, W_eq m ρ c, B_eq m ρ c]
  exact mid_eq _ _ _

end Cert.KernelIdeal.Hand

end
-- ==== Proof.KernelIdealValue.lean ====
/-
  The kernel program's run with its result named: the closing transpose applied to the region's output array, which
  is the middle form of the arrays the region was entered with, which is the specification's row form of the
  stacked filters, the stacked biases and the image.
-/
import proofs.«176583_g2000106783720467_pallasbulk_1336_18_alg».proof.Proof.KernelIdealMid
import proofs.«176583_g2000106783720467_pallasbulk_1336_18_alg».proof.Proof.KernelIdealHost

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result buffer when the program ends: the transpose of the region's output array. -/
theorem Vend_main_v0 (c : Dev nD) :
    (Vend m ρ c main_v0 : S256x64x15x15.Idx → EReal)
      = transpose S256x64x15x15 [3, 2, 0, 1] (out9 m ρ c) transposes_S15x15x64x256_S256x64x15x15_3_2_0_1 := by
  show StableHlo.after hostOps1 (V1 m ρ c) (Proc.devRef .tc main_v0) = _
  after_results
  show transpose S256x64x15x15 [3, 2, 0, 1] (W1 m ρ c main_call0_v9) transposes_S15x15x64x256_S256x64x15x15_3_2_0_1 = _
  rw [W1_v9]

/-- The specification's row form of this run's arguments on core c. -/
abbrev result (c : Dev nD) : Cert.Glu.OSh.Idx → EReal :=
  Cert.Glu.rowsForm
    (concatenate S128x32x3x3 0 [⟨S64x32x3x3, m ((c : Thread nD τ).loc main_arg1)⟩, ⟨S64x32x3x3, m ((c : Thread nD τ).loc main_arg3)⟩] concatenates_S64x32x3x3_S64x32x3x3_S128x32x3x3_d0)
    (concatenate S128 0 [⟨S64, m ((c : Thread nD τ).loc main_arg2)⟩, ⟨S64, m ((c : Thread nD τ).loc main_arg4)⟩] concatenates_S64_S64_S128_d0)
    (m ((c : Thread nD τ).loc main_arg0))

/-- THE KERNEL PROGRAM'S RUN AT IDEAL: it terminates, its result is the row form, its arguments are unchanged. -/
theorem run : θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucRefs main_v0 (by decide))).trans ((Vend_main_v0 m ρ c).trans (by rw [midK]; exact host m ρ c)),
     (h c _ (mem_ucRefs main_arg0 (by decide))).trans (Vend_main_arg0 m ρ c),
     (h c _ (mem_ucRefs main_arg1 (by decide))).trans (Vend_main_arg1 m ρ c),
     (h c _ (mem_ucRefs main_arg2 (by decide))).trans (Vend_main_arg2 m ρ c),
     (h c _ (mem_ucRefs main_arg3 (by decide))).trans (Vend_main_arg3 m ρ c),
     (h c _ (mem_ucRefs main_arg4 (by decide))).trans (Vend_main_arg4 m ρ c)⟩) (run_main m ρ)

end Cert.KernelIdeal.Hand

end
-- ==== Proof.RefTile.lean ====
/-
  One output row of the reference program's block, as one function of its eight loads.

  The body handles the 15 output rows oh one after the other.  For row oh it loads the slab of 96 consecutive rows
  64 oh … 64 oh + 95 of the image block (three image rows of 32 channels each, [96, 32]), and for each of the three
  filter columns k it first selects: slab × sel_k is [96, 15], entry (j, ow) the slab row j weighed by column ow of
  the k-th selection matrix; then it contracts: w_k × that is [128, 15], entry (c, ow) filter c's column k against the
  96 selected values.  The three products are added onto a zero splat in the order k = 0, 1, 2, the bias column is
  added along the rows, rows 0 … 63 are the linear branch and rows 64 … 127 the gate branch, and the stored value is
  lin * (select (g >= 0) 1 z / (1 + z)) with z = exp (0 - |g|).

  The printed body cuts this sequence into named pieces irregularly, by statement count; every one of the 15 stored
  values is the same function `tile` of the bias load, the three filter loads, the three selection loads and that
  row's slab load.
-/
import proofs.«176583_g2000106783720467_pallasbulk_1336_18_alg».proof.Proof.Gen.ReferenceIdeal.Frame

noncomputable section

namespace Cert.ReferenceIdeal.Hand

open Cert.ReferenceIdeal Cert.ReferenceIdeal.Gen
open Idealize.ShloMosaic Idealize.ShloMosaic.TcCoe Idealize.SL Idealize.SL.Sem

variable {F : FTy → Type} [FloatOps F]

/-- The accumulator of one output row: the three filter columns' products, added in order onto the zero splat, then
    the bias column broadcast along the 15 output positions.  [128, 15]: stacked filter c, output column ow. -/
def slabAcc (b : FVec F S128x1 .f32) (w0 w1 w2 : FVec F S128x96 .f32) (s0 s1 s2 : FVec F S32x15 .f32)
    (x : FVec F S96x32 .f32) : FVec F S128x15 .f32 :=
  addf
    (addf
      (addf
        (addf (broadcast S128x15 (Scalar.ofBits .f32 0x00000000#32))
          (matmul dot_S128x96_S96x15_S128x15_1_0_0_1_n_n none w0
            (matmul dot_S96x32_S32x15_S96x15_1_0_0_1_n_n none x s0 (constant S96x15 .f32 0x00000000#32))
            (constant S128x15 .f32 0x00000000#32)))
        (matmul dot_S128x96_S96x15_S128x15_1_0_0_1_n_n none w1
          (matmul dot_S96x32_S32x15_S96x15_1_0_0_1_n_n none x s1 (constant S96x15 .f32 0x00000000#32))
          (constant S128x15 .f32 0x00000000#32)))
      (matmul dot_S128x96_S96x15_S128x15_1_0_0_1_n_n none w2
        (matmul dot_S96x32_S32x15_S96x15_1_0_0_1_n_n none x s2 (constant S96x15 .f32 0x00000000#32))
        (constant S128x15 .f32 0x00000000#32)))
    (broadcastTo S128x15 b broadcasts_S128x1_S128x15)

/-- The gate applied to an accumulator: rows 0 … 63 times the squashed rows 64 … 127.  [64, 15]. -/
def gated (a : FVec F S128x15 .f32) : FVec F S64x15 .f32 :=
  mulf (extractStridedSlice S64x15 ![0, 0] a slices_S128x15_o0_0_S64x15)
    (divf
      (select
        (cmpf .oge (extractStridedSlice S64x15 ![64, 0] a slices_S128x15_o64_0_S64x15)
          (broadcast S64x15 (Scalar.ofBits .f32 0x00000000#32)))
        (broadcast S64x15 (Scalar.ofBits .f32 0x3F800000#32))
        (exp (subf (broadcast S64x15 (Scalar.ofBits .f32 0x00000000#32))
          (absf (extractStridedSlice S64x15 ![64, 0] a slices_S128x15_o64_0_S64x15)))))
      (addf (broadcast S64x15 (Scalar.ofBits .f32 0x3F800000#32))
        (exp (subf (broadcast S64x15 (Scalar.ofBits .f32 0x00000000#32))
          (absf (extractStridedSlice S64x15 ![64, 0] a slices_S128x15_o64_0_S64x15))))))

/-- What is stored for one output row, from the eight loads as loaded ([1, …] blocks with their unit axis still on). -/
def tile (b : Vec F S128x1 .f32) (w0 w1 w2 : Vec F S1x128x96 .f32) (s0 s1 s2 : Vec F S1x32x15 .f32)
    (x : Vec F S1x96x32 .f32) : FVec F S1x64x15 .f32 :=
  shapeCast S1x64x15
    (gated (slabAcc (shapeCast S128x1 b shapeCasts_S128x1_S128x1)
      (shapeCast S128x96 w0 shapeCasts_S1x128x96_S128x96) (shapeCast S128x96 w1 shapeCasts_S1x128x96_S128x96)
      (shapeCast S128x96 w2 shapeCasts_S1x128x96_S128x96)
      (shapeCast S32x15 s0 shapeCasts_S1x32x15_S32x15) (shapeCast S32x15 s1 shapeCasts_S1x32x15_S32x15)
      (shapeCast S32x15 s2 shapeCasts_S1x32x15_S32x15)
      (shapeCast S96x32 x shapeCasts_S1x96x32_S96x32)))
    shapeCasts_S64x15_S1x64x15

variable (b : Vec F S128x1 .f32) (w0 w1 w2 : Vec F S1x128x96 .f32) (s0 s1 s2 : Vec F S1x32x15 .f32)
  (x : Vec F S1x96x32 .f32)

/-! Each of the 15 stored values is `tile` of its loads: the named pieces unfold to the same operation sequence. -/

theorem row0 : k0_pay11 (k0_pay9 b w0 w1 w2 s0 s1 s2 x) (k0_pay10 b w0 w1 w2 s0 s1 s2 x) = tile b w0 w1 w2 s0 s1 s2 x := rfl

theorem row1 : k0_pay18 (k0_pay13 (k0_pay2 b) (k0_pay3 w0) (k0_pay4 w1) (k0_pay5 w2) (k0_pay6 s0) (k0_pay7 s1) (k0_pay8 s2) x) (k0_pay15 (k0_pay2 b) (k0_pay3 w0) (k0_pay4 w1) (k0_pay5 w2) (k0_pay6 s0) (k0_pay7 s1) (k0_pay8 s2) x) (k0_pay16 (k0_pay2 b) (k0_pay3 w0) (k0_pay4 w1) (k0_pay5 w2) (k0_pay6 s0) (k0_pay7 s1) (k0_pay8 s2) x) (k0_pay17 (F := F))
    = tile b w0 w1 w2 s0 s1 s2 x := rfl

theorem row2 : k0_pay20 (k0_pay19 (k0_pay2 b) (k0_pay3 w0) (k0_pay4 w1) (k0_pay5 w2) (k0_pay6 s0) (k0_pay7 s1) (k0_pay8 s2) x) = tile b w0 w1 w2 s0 s1 s2 x := rfl

theorem row3 : k0_pay21 (k0_pay2 b) (k0_pay3 w0) (k0_pay4 w1) (k0_pay5 w2) (k0_pay6 s0) (k0_pay7 s1) (k0_pay8 s2) x = tile b w0 w1 w2 s0 s1 s2 x := rfl

theorem row4 : k0_pay25 (k0_pay2 b) (k0_pay3 w0) (k0_pay4 w1) (k0_pay5 w2) (k0_pay7 s1) (k0_pay8 s2) (k0_pay22 x)
      (k0_pay23 (F := F)) (k0_pay24 (k0_pay6 s0) x)
    = tile b w0 w1 w2 s0 s1 s2 x := rfl

theorem row5 : k0_pay29 (k0_pay2 b) (k0_pay5 w2) (k0_pay27 (k0_pay3 w0) (k0_pay4 w1) (k0_pay6 s0) (k0_pay7 s1) x)
      (k0_pay28 (k0_pay8 s2) x) (constant S128x15 .f32 0x00000000#32)
    = tile b w0 w1 w2 s0 s1 s2 x := rfl

theorem row6 : k0_pay34 (k0_pay31 (k0_pay2 b) (k0_pay3 w0) (k0_pay4 w1) (k0_pay5 w2) (k0_pay6 s0) (k0_pay7 s1) (k0_pay8 s2) x) (k0_pay32 (k0_pay2 b) (k0_pay3 w0) (k0_pay4 w1) (k0_pay5 w2) (k0_pay6 s0) (k0_pay7 s1) (k0_pay8 s2) x) (k0_pay33 (k0_pay2 b) (k0_pay3 w0) (k0_pay4 w1) (k0_pay5 w2) (k0_pay6 s0) (k0_pay7 s1) (k0_pay8 s2) x) = tile b w0 w1 w2 s0 s1 s2 x := rfl

theorem row7 : k0_pay36 (k0_pay35 (k0_pay2 b) (k0_pay3 w0) (k0_pay4 w1) (k0_pay5 w2) (k0_pay6 s0) (k0_pay7 s1) (k0_pay8 s2) x) = tile b w0 w1 w2 s0 s1 s2 x := rfl

theorem row8 : k0_pay37 (k0_pay2 b) (k0_pay3 w0) (k0_pay4 w1) (k0_pay5 w2) (k0_pay6 s0) (k0_pay7 s1) (k0_pay8 s2) x = tile b w0 w1 w2 s0 s1 s2 x := rfl

theorem row9 : k0_pay38 (k0_pay2 b) (k0_pay3 w0) (k0_pay4 w1) (k0_pay5 w2) (k0_pay6 s0) (k0_pay7 s1) (k0_pay8 s2) x = tile b w0 w1 w2 s0 s1 s2 x := rfl

theorem row10 : k0_pay42 (k0_pay2 b) (k0_pay4 w1) (k0_pay5 w2) (k0_pay8 s2) (k0_pay39 x)
      (k0_pay40 (k0_pay3 w0) (k0_pay6 s0) x) (k0_pay41 (k0_pay7 s1) x) (constant S128x15 .f32 0x00000000#32)
    = tile b w0 w1 w2 s0 s1 s2 x := rfl

theorem row11 : k0_pay46 (k0_pay44 (k0_pay2 b) (k0_pay3 w0) (k0_pay4 w1) (k0_pay5 w2) (k0_pay6 s0) (k0_pay7 s1) (k0_pay8 s2) x) (k0_pay45 (k0_pay2 b) (k0_pay3 w0) (k0_pay4 w1) (k0_pay5 w2) (k0_pay6 s0) (k0_pay7 s1) (k0_pay8 s2) x) = tile b w0 w1 w2 s0 s1 s2 x := rfl

theorem row12 : k0_pay52 (k0_pay48 (k0_pay2 b) (k0_pay3 w0) (k0_pay4 w1) (k0_pay5 w2) (k0_pay6 s0) (k0_pay7 s1) (k0_pay8 s2) x) (k0_pay50 (k0_pay2 b) (k0_pay3 w0) (k0_pay4 w1) (k0_pay5 w2) (k0_pay6 s0) (k0_pay7 s1) (k0_pay8 s2) x) (k0_pay51 (k0_pay2 b) (k0_pay3 w0) (k0_pay4 w1) (k0_pay5 w2) (k0_pay6 s0) (k0_pay7 s1) (k0_pay8 s2) x) = tile b w0 w1 w2 s0 s1 s2 x := rfl

theorem row13 : k0_pay53 (k0_pay2 b) (k0_pay3 w0) (k0_pay4 w1) (k0_pay5 w2) (k0_pay6 s0) (k0_pay7 s1) (k0_pay8 s2) x = tile b w0 w1 w2 s0 s1 s2 x := rfl

theorem row14 : k0_pay1 (k0_pay54 (k0_pay2 b) (k0_pay3 w0) (k0_pay4 w1) (k0_pay5 w2) (k0_pay6 s0) (k0_pay7 s1) (k0_pay8 s2) x) = tile b w0 w1 w2 s0 s1 s2 x := rfl

end Cert.ReferenceIdeal.Hand

end
-- ==== Proof.RefTileIdeal.lean ====
/-
  One output row of the reference block on the extended reals, entry by entry.

  Entry (c, ow) of one filter column's product is the sum over the 96 slab positions j of w (c, j) times the slab row j
  weighed by the selection matrix's column ow, itself a sum over the 32 image columns.  The accumulator at (c, ow) is the
  three such sums added in order onto zero, plus the bias of filter c; entry (co, ow) of the stored row is the gate of
  the accumulator's rows co (linear branch) and 64 + co (gate branch).
-/
import proofs.«176583_g2000106783720467_pallasbulk_1336_18_alg».proof.Proof.Mid
import proofs.«176583_g2000106783720467_pallasbulk_1336_18_alg».proof.Proof.LibMlpRows
import proofs.«176583_g2000106783720467_pallasbulk_1336_18_alg».proof.Proof.RefTile

noncomputable section

open scoped BigOperators

namespace Cert.ReferenceIdeal.Hand

open Cert.ReferenceIdeal Cert.ReferenceIdeal.Gen
open Idealize.ShloMosaic Idealize.ShloMosaic.TcCoe Idealize.SL Idealize.SL.Sem
open Idealize.ShloMosaic.ValueIdx Cert.Glu

/-- A column [a, 1] broadcast along b positions reads, at (p, c), the column's entry p. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One filter column's two products read at (c, ow): the outer sum runs over the 96 slab positions, the inner one over
    the 32 image columns the selection matrix weighs. -/
theorem col_apply (w : FVec Ideal S128x96 .f32) (s : FVec Ideal S32x15 .f32) (x : FVec Ideal S96x32 .f32)
    (c : Fin 128) (ow : Fin 15) :
    matmul dot_S128x96_S96x15_S128x15_1_0_0_1_n_n none w
        (matmul dot_S96x32_S32x15_S96x15_1_0_0_1_n_n none x s (constant S96x15 .f32 0x00000000#32))
        (constant S128x15 .f32 0x00000000#32) (ix2 c ow)
      = ∑ j : Fin 96, w (ix2 c j) * ∑ v : Fin 32, x (ix2 j v) * s (ix2 v ow) := by
  refine (Cert.MlpRows.pmatmul_apply Facts₀.dot_S128x96_S96x15_S128x15_1_0_0_1_n_n_wf none w _ c ow).trans ?_
  refine Finset.sum_congr rfl fun j _ => ?_
  exact congrArg (w (ix2 c j) * ·)
    (Cert.MlpRows.pmatmul_apply Facts₀.dot_S96x32_S32x15_S96x15_1_0_0_1_n_n_wf none x s j ow)

/-- The accumulator read at (c, ow): zero plus the three columns' sums, in order, plus the bias of filter c. -/
theorem slabAcc_apply (b : FVec Ideal S128x1 .f32) (w0 w1 w2 : FVec Ideal S128x96 .f32) (s0 s1 s2 : FVec Ideal S32x15 .f32)
    (x : FVec Ideal S96x32 .f32) (c : Fin 128) (ow : Fin 15) :
    slabAcc b w0 w1 w2 s0 s1 s2 x (ix2 c ow)
      = (((∑ j : Fin 96, w0 (ix2 c j) * ∑ v : Fin 32, x (ix2 j v) * s0 (ix2 v ow))
          + ∑ j : Fin 96, w1 (ix2 c j) * ∑ v : Fin 32, x (ix2 j v) * s1 (ix2 v ow))
          + ∑ j : Fin 96, w2 (ix2 c j) * ∑ v : Fin 32, x (ix2 j v) * s2 (ix2 v ow))
        + b (ix2 c (0 : Fin 1)) := by
  unfold slabAcc
  rw [addf_apply, addf_apply, addf_apply, addf_apply, col_apply, col_apply, col_apply, broadcastTo_a1_ab_apply,
    broadcast_apply]
  show (((Ideal.ofBits .f32 0x00000000#32 + _) + _) + _) + _ = _
  rw [Ideal.ofBits_zero_f32, zero_add]

/-- The gate read at (co, ow): the accumulator's row co against its row 64 + co. -/
theorem gated_apply (a : FVec Ideal S128x15 .f32) (co : Fin 64) (ow : Fin 15) :
    gated a (ix2 co ow) = gate (F := Ideal) (a (ix2 (linCh co) ow)) (a (ix2 (gateCh co) ow)) := by
  have h0 := slice2_axis0_apply 0 a Facts₀.slices_S128x15_o0_0_S64x15 co ow (linCh co) (Nat.zero_add _).symm
  have h1 := slice2_axis0_apply 64 a Facts₀.slices_S128x15_o64_0_S64x15 co ow (gateCh co) (Nat.add_comm _ _)
  show gate (F := Ideal) (extractStridedSlice S64x15 ![0, 0] a Facts₀.slices_S128x15_o0_0_S64x15 (ix2 co ow))
    (extractStridedSlice S64x15 ![64, 0] a Facts₀.slices_S128x15_o64_0_S64x15 (ix2 co ow)) = _
  rw [h0, h1]

/-- One filter column at (c, ow), from the loads with their unit axis on. -/
def colAt (w : S1x128x96.Idx → EReal) (s : S1x32x15.Idx → EReal) (x : S1x96x32.Idx → EReal) (c : Fin 128) (ow : Fin 15) : EReal :=
  ∑ j : Fin 96, w (ix3 (0 : Fin 1) c j) * ∑ v : Fin 32, x (ix3 (0 : Fin 1) j v) * s (ix3 (0 : Fin 1) v ow)

/-- The accumulator at (c, ow), from the loads. -/
def accAt (b : S128x1.Idx → EReal) (w0 w1 w2 : S1x128x96.Idx → EReal) (s0 s1 s2 : S1x32x15.Idx → EReal)
    (x : S1x96x32.Idx → EReal) (c : Fin 128) (ow : Fin 15) : EReal :=
  ((colAt w0 s0 x c ow + colAt w1 s1 x c ow) + colAt w2 s2 x c ow) + b (ix2 c (0 : Fin 1))

/-- The stored row at (0, co, ow) is the gate of the accumulator's entries (co, ow) and (64 + co, ow). -/
theorem tile_apply (b : Vec Ideal S128x1 .f32) (w0 w1 w2 : Vec Ideal S1x128x96 .f32) (s0 s1 s2 : Vec Ideal S1x32x15 .f32)
    (x : Vec Ideal S1x96x32 .f32) (u : Fin 1) (co : Fin 64) (ow : Fin 15) :
    tile (F := Ideal) b w0 w1 w2 s0 s1 s2 x (ix3 u co ow)
      = gate (F := Ideal) (accAt b w0 w1 w2 s0 s1 s2 x (linCh co) ow) (accAt b w0 w1 w2 s0 s1 s2 x (gateCh co) ow) := by
  unfold tile
  rw [shapeCast_ab_1ab_apply, gated_apply, slabAcc_apply, slabAcc_apply]
  simp only [shapeCast_1ab_ab_apply, shapeCast_self]
  rfl

end Cert.ReferenceIdeal.Hand

end
-- ==== Proof.RefBlock.lean ====
/-
  The reference program's output block [1, 64, 225] as one function of its four input blocks.

  Column p = 15 oh + ow of the output block belongs to output row oh; the body stores the 15 rows as 15 rectangles of
  15 columns each, row oh from the slab of image-block rows 64 oh … 64 oh + 95.  Filter column k is read from plane k of
  the stacked filters [3, 128, 96] and weighed through plane k of the selection matrices [3, 32, 15].  So entry
  (0, co, 15 oh + ow) of the block is the gate of the accumulators of filters co and 64 + co at (oh, ow), where the
  accumulator of filter c adds, for k = 0, 1, 2 in order, the sum over j < 96 of w (k, c, j) times the sum over v < 32
  of x (0, 64 oh + j, v) * sel (k, v, ow), and then the bias of c.
-/
import proofs.«176583_g2000106783720467_pallasbulk_1336_18_alg».proof.Proof.RefTileIdeal

noncomputable section

open scoped BigOperators

namespace Cert.ReferenceIdeal.Hand

open Cert.ReferenceIdeal Cert.ReferenceIdeal.Gen
open Idealize.ShloMosaic Idealize.ShloMosaic.TcCoe Idealize.SL Idealize.SL.Sem
open Idealize.ShloMosaic.ValueIdx Cert.Glu

/-- Filter column k of filter c at output position (oh, ow), from the blocks. -/
def bCol (x0 : S1x1024x32.Idx → EReal) (x1 : S3x128x96.Idx → EReal) (x2 : S3x32x15.Idx → EReal)
    (oh ow : Fin 15) (c : Fin 128) (k : Fin 3) : EReal :=
  ∑ j : Fin 96, x1 (ix3 k c j)
    * ∑ v : Fin 32, x0 (ix3 (0 : Fin 1) (⟨64 * oh.val + j.val, by omega⟩ : Fin 1024) v) * x2 (ix3 k v ow)

/-- The accumulator of filter c at (oh, ow): the three filter columns in order, then the bias. -/
def bAcc (x0 : S1x1024x32.Idx → EReal) (x1 : S3x128x96.Idx → EReal) (x2 : S3x32x15.Idx → EReal)
    (x3 : S128x1.Idx → EReal) (oh ow : Fin 15) (c : Fin 128) : EReal :=
  ((bCol x0 x1 x2 oh ow c 0 + bCol x0 x1 x2 oh ow c 1) + bCol x0 x1 x2 oh ow c 2) + x3 (ix2 c (0 : Fin 1))

/-- The output block, entry by entry. -/
def blockFn (x0 : S1x1024x32.Idx → EReal) (x1 : S3x128x96.Idx → EReal) (x2 : S3x32x15.Idx → EReal)
    (x3 : S128x1.Idx → EReal) : S1x64x225.Idx → EReal := fun y =>
  gate (F := Ideal) (bAcc x0 x1 x2 x3 (rowOf (y 2)) (colOf (y 2)) (linCh (y 1)))
    (bAcc x0 x1 x2 x3 (rowOf (y 2)) (colOf (y 2)) (gateCh (y 1)))

/-- The block function at an index whose channel is co and whose column is 15 oh + ow. -/
theorem blockFn_at (x0 : S1x1024x32.Idx → EReal) (x1 : S3x128x96.Idx → EReal) (x2 : S3x32x15.Idx → EReal)
    (x3 : S128x1.Idx → EReal) (y : S1x64x225.Idx) (oh ow : Fin 15) (co : Fin 64)
    (h1 : (y 1).val = co.val) (h2 : (y 2).val = 15 * oh.val + ow.val) :
    blockFn x0 x1 x2 x3 y
      = gate (F := Ideal) (bAcc x0 x1 x2 x3 oh ow (linCh co)) (bAcc x0 x1 x2 x3 oh ow (gateCh co)) := by
  have a : (y 1 : Fin 64) = co := Fin.ext h1
  have hlt := ow.isLt
  have b : rowOf (y 2) = oh := Fin.ext (by show (y 2).val / 15 = oh.val; omega)
  have c : colOf (y 2) = ow := Fin.ext (by show (y 2).val % 15 = ow.val; omega)
  unfold blockFn
  rw [a, b, c]

/-- One filter column of a stored row from its loads: plane k of the filters and of the selection matrices, and the
    slab starting at block row 64 oh. -/
theorem colAt_ld (x0 : Vec Ideal S1x1024x32 .f32) (x1 : Vec Ideal S3x128x96 .f32) (x2 : Vec Ideal S3x32x15 .f32)
    (k : Fin 3) (ok : ℕ) (hk : ok = k.val) (oh : Fin 15) (o64 : ℕ) (h64 : o64 = 64 * oh.val)
    (inb1 : ∀ a, (![ok, 0, 0] : Fin 3 → ℕ) a + S1x128x96.size a ≤ S3x128x96.size a)
    (inb2 : ∀ a, (![ok, 0, 0] : Fin 3 → ℕ) a + S1x32x15.size a ≤ S3x32x15.size a)
    (inb0 : ∀ a, (![0, o64, 0] : Fin 3 → ℕ) a + S1x96x32.size a ≤ S1x1024x32.size a)
    (c : Fin 128) (ow : Fin 15) :
    colAt (View.ld x1 (Rect.unit (s := S3x128x96) ![ok, 0, 0] S1x128x96.size inb1))
        (View.ld x2 (Rect.unit (s := S3x32x15) ![ok, 0, 0] S1x32x15.size inb2))
        (View.ld x0 (Rect.unit (s := S1x1024x32) ![0, o64, 0] S1x96x32.size inb0)) c ow
      = bCol x0 x1 x2 oh ow c k := by
  subst hk h64
  unfold colAt bCol
  refine Finset.sum_congr rfl fun j _ => congrArg₂ (· * ·) ?_ (Finset.sum_congr rfl fun v _ => congrArg₂ (· * ·) ?_ ?_)
  · refine congrArg x1 (funext fun a => Fin.ext ?_)
    match a with
    | ⟨0, _⟩ => show k.val + 1 * 0 = k.val; omega
    | ⟨1, _⟩ => show 0 + 1 * c.val = c.val; omega
    | ⟨2, _⟩ => show 0 + 1 * j.val = j.val; omega
  · refine congrArg x0 (funext fun a => Fin.ext ?_)
    match a with
    | ⟨0, _⟩ => show 0 + 1 * 0 = 0; omega
    | ⟨1, _⟩ => show 64 * oh.val + 1 * j.val = 64 * oh.val + j.val; omega
    | ⟨2, _⟩ => show 0 + 1 * v.val = v.val; omega
  · refine congrArg x2 (funext fun a => Fin.ext ?_)
    match a with
    | ⟨0, _⟩ => show k.val + 1 * 0 = k.val; omega
    | ⟨1, _⟩ => show 0 + 1 * v.val = v.val; omega
    | ⟨2, _⟩ => show 0 + 1 * ow.val = ow.val; omega

/-- The stored row oh at its local index x is the block function at the index x lands on: the block's column
    15 oh + ow, its channel unchanged. -/
theorem piece_apply (x0 : Vec Ideal S1x1024x32 .f32) (x1 : Vec Ideal S3x128x96 .f32) (x2 : Vec Ideal S3x32x15 .f32)
    (x3 : Vec Ideal S128x1 .f32) (oh : Fin 15) (o64 o15 : ℕ) (h64 : o64 = 64 * oh.val) (h15 : o15 = 15 * oh.val)
    (inb0 : ∀ a, (![0, o64, 0] : Fin 3 → ℕ) a + S1x96x32.size a ≤ S1x1024x32.size a)
    (inb4 : ∀ a, (![0, 0, o15] : Fin 3 → ℕ) a + S1x64x15.size a ≤ S1x64x225.size a)
    (x : S1x64x15.Idx) :
    tile (F := Ideal) (View.ld x3 r0_0) (View.ld x1 r0_1) (View.ld x1 r0_2) (View.ld x1 r0_3)
        (View.ld x2 r0_4) (View.ld x2 r0_5) (View.ld x2 r0_6)
        (View.ld x0 (Rect.unit (s := S1x1024x32) ![0, o64, 0] S1x96x32.size inb0)) x
      = blockFn x0 x1 x2 x3 ((Rect.unit (s := S1x64x225) ![0, 0, o15] S1x64x15.size inb4).emb x) := by
  obtain ⟨u, co, ow, rfl⟩ : ∃ (u : Fin 1) (co : Fin 64) (ow : Fin 15), x = ix3 u co ow := ⟨x 0, x 1, x 2, eq_ix3 x⟩
  rw [tile_apply]
  rw [blockFn_at x0 x1 x2 x3 _ oh ow co (by show 0 + 1 * co.val = co.val; omega)
    (by show o15 + 1 * ow.val = 15 * oh.val + ow.val; omega)]
  have hb : ∀ c : Fin 128, View.ld x3 r0_0 (ix2 c (0 : Fin 1)) = x3 (ix2 c (0 : Fin 1)) := fun c =>
    congrArg x3 (funext fun a => Fin.ext (by
      match a with
      | ⟨0, _⟩ => show 0 + 1 * c.val = c.val; omega
      | ⟨1, _⟩ => show 0 + 1 * 0 = 0; omega))
  unfold accAt bAcc
  rw [colAt_ld x0 x1 x2 0 0 rfl oh o64 h64, colAt_ld x0 x1 x2 1 1 rfl oh o64 h64, colAt_ld x0 x1 x2 2 2 rfl oh o64 h64,
    colAt_ld x0 x1 x2 0 0 rfl oh o64 h64, colAt_ld x0 x1 x2 1 1 rfl oh o64 h64, colAt_ld x0 x1 x2 2 2 rfl oh o64 h64,
    hb, hb]

/-- What the body leaves in the output window's staging buffer, entry by entry: every one of the 15 stored rows agrees
    with the block function on its rectangle, and the rectangles cover the block. -/
theorem out_apply (x0 : Vec Ideal S1x1024x32 .f32) (x1 : Vec Ideal S3x128x96 .f32) (x2 : Vec Ideal S3x32x15 .f32)
    (x3 : Vec Ideal S128x1 .f32) (y : S1x64x225.Idx) :
    out0_4 x0 x1 x2 x3 y = blockFn x0 x1 x2 x3 y := by
  unfold out0_4
  refine View.canon_apply_of_pieces (Val := Elt Ideal) (e := .f32) (blockFn x0 x1 x2 x3) _ ?_ y (cover0_4 _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl
  · exact (congrFun (row14 _ _ _ _ _ _ _ _) x).trans (piece_apply x0 x1 x2 x3 14 896 210 rfl rfl
      Facts₀.inb_S1x1024x32_S1x96x32_0_896_0 Facts₀.inb_S1x64x225_S1x64x15_0_0_210 x)
  · exact (congrFun (row13 _ _ _ _ _ _ _ _) x).trans (piece_apply x0 x1 x2 x3 13 832 195 rfl rfl
      Facts₀.inb_S1x1024x32_S1x96x32_0_832_0 Facts₀.inb_S1x64x225_S1x64x15_0_0_195 x)
  · exact (congrFun (row12 _ _ _ _ _ _ _ _) x).trans (piece_apply x0 x1 x2 x3 12 768 180 rfl rfl
      Facts₀.inb_S1x1024x32_S1x96x32_0_768_0 Facts₀.inb_S1x64x225_S1x64x15_0_0_180 x)
  · exact (congrFun (row11 _ _ _ _ _ _ _ _) x).trans (piece_apply x0 x1 x2 x3 11 704 165 rfl rfl
      Facts₀.inb_S1x1024x32_S1x96x32_0_704_0 Facts₀.inb_S1x64x225_S1x64x15_0_0_165 x)
  · exact (congrFun (row10 _ _ _ _ _ _ _ _) x).trans (piece_apply x0 x1 x2 x3 10 640 150 rfl rfl
      Facts₀.inb_S1x1024x32_S1x96x32_0_640_0 Facts₀.inb_S1x64x225_S1x64x15_0_0_150 x)
  · exact (congrFun (row9 _ _ _ _ _ _ _ _) x).trans (piece_apply x0 x1 x2 x3 9 576 135 rfl rfl
      Facts₀.inb_S1x1024x32_S1x96x32_0_576_0 Facts₀.inb_S1x64x225_S1x64x15_0_0_135 x)
  · exact (congrFun (row8 _ _ _ _ _ _ _ _) x).trans (piece_apply x0 x1 x2 x3 8 512 120 rfl rfl
      Facts₀.inb_S1x1024x32_S1x96x32_0_512_0 Facts₀.inb_S1x64x225_S1x64x15_0_0_120 x)
  · exact (congrFun (row7 _ _ _ _ _ _ _ _) x).trans (piece_apply x0 x1 x2 x3 7 448 105 rfl rfl
      Facts₀.inb_S1x1024x32_S1x96x32_0_448_0 Facts₀.inb_S1x64x225_S1x64x15_0_0_105 x)
  · exact (congrFun (row6 _ _ _ _ _ _ _ _) x).trans (piece_apply x0 x1 x2 x3 6 384 90 rfl rfl
      Facts₀.inb_S1x1024x32_S1x96x32_0_384_0 Facts₀.inb_S1x64x225_S1x64x15_0_0_90 x)
  · exact (congrFun (row5 _ _ _ _ _ _ _ _) x).trans (piece_apply x0 x1 x2 x3 5 320 75 rfl rfl
      Facts₀.inb_S1x1024x32_S1x96x32_0_320_0 Facts₀.inb_S1x64x225_S1x64x15_0_0_75 x)
  · exact (congrFun (row4 _ _ _ _ _ _ _ _) x).trans (piece_apply x0 x1 x2 x3 4 256 60 rfl rfl
      Facts₀.inb_S1x1024x32_S1x96x32_0_256_0 Facts₀.inb_S1x64x225_S1x64x15_0_0_60 x)
  · exact (congrFun (row3 _ _ _ _ _ _ _ _) x).trans (piece_apply x0 x1 x2 x3 3 192 45 rfl rfl
      Facts₀.inb_S1x1024x32_S1x96x32_0_192_0 Facts₀.inb_S1x64x225_S1x64x15_0_0_45 x)
  · exact (congrFun (row2 _ _ _ _ _ _ _ _) x).trans (piece_apply x0 x1 x2 x3 2 128 30 rfl rfl
      Facts₀.inb_S1x1024x32_S1x96x32_0_128_0 Facts₀.inb_S1x64x225_S1x64x15_0_0_30 x)
  · exact (congrFun (row1 _ _ _ _ _ _ _ _) x).trans (piece_apply x0 x1 x2 x3 1 64 15 rfl rfl
      Facts₀.inb_S1x1024x32_S1x96x32_0_64_0 Facts₀.inb_S1x64x225_S1x64x15_0_0_15 x)
  · exact (congrFun (row0 _ _ _ _ _ _ _ _) x).trans (piece_apply x0 x1 x2 x3 0 0 0 rfl rfl
      Facts₀.inb_S1x1024x32_S1x96x32_0_0_0 Facts₀.inb_S1x64x225_S1x64x15_0_0_0 x)

end Cert.ReferenceIdeal.Hand

end
-- ==== Proof.RefBlocks.lean ====
/-
  From the reference program's blocks to its output array.

  The grid has one point per image.  At point t the image window holds image t whole ([1, 1024, 32] at block index
  (t, 0, 0)), the stacked filters, the selection matrices and the bias column are held whole at every point, and the
  output window's block [1, 64, 225] is written back to image t of the output array.  A block's coordinate in its array is
  always its block index times the block's size plus the coordinate inside the block, so entry (0, co, p) of point t's
  block is entry (t, co, p) of the array, and the image rows it reads are rows of image t.  The 256 blocks tile the
  output array: index (n, co, p) lies in the block of point n.
-/
import proofs.«176583_g2000106783720467_pallasbulk_1336_18_alg».proof.Proof.Mid
import proofs.«176583_g2000106783720467_pallasbulk_1336_18_alg».proof.Proof.LibMlpRows
import proofs.«176583_g2000106783720467_pallasbulk_1336_18_alg».proof.Proof.Gen.ReferenceIdeal.Frame
import proofs.«176583_g2000106783720467_pallasbulk_1336_18_alg».proof.Proof.RefBlock

noncomputable section

open scoped BigOperators

namespace Cert.ReferenceIdeal.Hand

open Cert.ReferenceIdeal Cert.ReferenceIdeal.Gen
open Idealize.ShloMosaic Idealize.ShloMosaic.TcCoe Idealize.SL Idealize.SL.Sem
open Idealize.ShloMosaic.ValueIdx Cert.Glu
open Idealize.ShloMosaic.Pipeline (Dat)

/-- The block function of blocks that are the arrays read in place — the image block image n of X, the other three
    the arrays whole — is the array function at the index (n, co, p) the block index (0, co, p) stands for. -/
theorem blockFn_eq_refMid (X : RX.Idx → EReal) (Wg : GW.Idx → EReal) (S : SEL.Idx → EReal) (B : BC.Idx → EReal)
    (x0 : S1x1024x32.Idx → EReal) (x1 : S3x128x96.Idx → EReal) (x2 : S3x32x15.Idx → EReal) (x3 : S128x1.Idx → EReal)
    (i : RO.Idx) (y : S1x64x225.Idx)
    (h0 : ∀ (r : Fin 1024) (v : Fin 32), x0 (ix3 (0 : Fin 1) r v) = X (ix3 (i 0) r v))
    (h1 : ∀ (k : Fin 3) (c : Fin 128) (j : Fin 96), x1 (ix3 k c j) = Wg (ix3 k c j))
    (h2 : ∀ (k : Fin 3) (v : Fin 32) (ow : Fin 15), x2 (ix3 k v ow) = S (ix3 k v ow))
    (h3 : ∀ c : Fin 128, x3 (ix2 c (0 : Fin 1)) = B (ix2 c (0 : Fin 1)))
    (hi1 : (i 1).val = (y 1).val) (hi2 : (i 2).val = (y 2).val) :
    blockFn x0 x1 x2 x3 y = refMid X Wg S B i := by
  have e1 : (y 1 : Fin 64) = i 1 := Fin.ext hi1.symm
  have e2 : (y 2 : Fin 225) = i 2 := Fin.ext hi2.symm
  unfold blockFn refMid bAcc refAcc bCol refCol
  simp only [h0, h1, h2, h3, e1, e2]

/-- The printed index maps over the grid: the image window and the output window are at block (t, 0, 0) at point t,
    the other three windows at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

variable (m : (ℓ : Loc nD τ sig) → Buf (Elt Ideal) ℓ)

/-- What point t writes back is block t of the array function of the arrays the region is entered with. -/
theorem flushed_eq (c : Dev nD) (t : Fin cfg0.N) :
    (dats (F := Ideal) m 0 c).flushed 4 t = ((cfg0.win 4).blk t).view.read (Elt Ideal)
      (refMid (V m c main_call0_v1) (V m c main_call0_v4) (V m c main_call0_v21) (V m c main_call0_v6)) := by
  show (cfg0.win 4).cut (grid0.coords t) ((dats m 0 c).after 4 t) = _
  rw [after0_4]
  obtain ⟨a00, a01, a02, a10, a11, a12, a20, a21, a22, a30, a31, a40, a41, a42⟩ := idx_facts t
  funext y
  show out0_4 (iblk m c 0 t) (iblk m c 1 t) (iblk m c 2 t) (iblk m c 3 t) y
    = refMid (V m c main_call0_v1) (V m c main_call0_v4) (V m c main_call0_v21) (V m c main_call0_v6)
        (((cfg0.win 4).blk t).view.emb y)
  refine (out_apply (iblk m c 0 t) (iblk m c 1 t) (iblk m c 2 t) (iblk m c 3 t) y).trans ?_
  have hy0 : (y 0).val < 1 := (y 0).isLt
  refine blockFn_eq_refMid (V m c main_call0_v1) (V m c main_call0_v4) (V m c main_call0_v21) (V m c main_call0_v6)
    (iblk m c 0 t) (iblk m c 1 t) (iblk m c 2 t) (iblk m c 3 t) (((cfg0.win 4).blk t).view.emb y) y ?_ ?_ ?_ ?_ ?_ ?_
  · intro r v
    show V m c main_call0_v1 (((cfg0.win 0).blk t).view.emb (ix3 (0 : Fin 1) r v)) = V m c main_call0_v1 _
    refine congrArg (V m c main_call0_v1) (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 1024 + 1 * r.val = r.val; omega
    | ⟨2, _⟩ => show win0_0.index t (2 : Fin 3) * 32 + 1 * v.val = v.val; omega
  · intro k cc j
    show V m c main_call0_v4 (((cfg0.win 1).blk t).view.emb (ix3 k cc j)) = V m c main_call0_v4 _
    refine congrArg (V m c main_call0_v4) (funext fun a => Fin.ext ?_)
    match a with
    | ⟨0, _⟩ => show win0_1.index t (0 : Fin 3) * 3 + 1 * k.val = k.val; omega
    | ⟨1, _⟩ => show win0_1.index t (1 : Fin 3) * 128 + 1 * cc.val = cc.val; omega
    | ⟨2, _⟩ => show win0_1.index t (2 : Fin 3) * 96 + 1 * j.val = j.val; omega
  · intro k v ow
    show V m c main_call0_v21 (((cfg0.win 2).blk t).view.emb (ix3 k v ow)) = V m c main_call0_v21 _
    refine congrArg (V m c main_call0_v21) (funext fun a => Fin.ext ?_)
    match a with
    | ⟨0, _⟩ => show win0_2.index t (0 : Fin 3) * 3 + 1 * k.val = k.val; omega
    | ⟨1, _⟩ => show win0_2.index t (1 : Fin 3) * 32 + 1 * v.val = v.val; omega
    | ⟨2, _⟩ => show win0_2.index t (2 : Fin 3) * 15 + 1 * ow.val = ow.val; omega
  · intro cc
    show V m c main_call0_v6 (((cfg0.win 3).blk t).view.emb (ix2 cc (0 : Fin 1))) = V m c main_call0_v6 _
    refine congrArg (V m c main_call0_v6) (funext fun a => Fin.ext ?_)
    match a with
    | ⟨0, _⟩ => show win0_3.index t (0 : Fin 2) * 128 + 1 * cc.val = cc.val; omega
    | ⟨1, _⟩ => show win0_3.index t (1 : Fin 2) * 1 + 1 * 0 = 0; omega
  · show win0_4.index t (1 : Fin 3) * 64 + 1 * (y 1).val = (y 1).val; omega
  · show win0_4.index t (2 : Fin 3) * 225 + 1 * (y 2).val = (y 2).val; omega

/-- An index of the output array is in point t's block iff each coordinate is in the block's range on its axis. -/
theorem mem_blk (t : Fin cfg0.N) (i : S256x64x225.Idx) :
    i ∈ ((cfg0.win 4).blk t).view.set ↔ ∀ a : Fin 3, win0_4.index t a * S1x64x225.size a ≤ (i a).val
      ∧ (i a).val < win0_4.index t a * S1x64x225.size a + S1x64x225.size a := by
  show i ∈ ((View.whole main_call0_v22).slice (win0_4.rect t)).set ↔ _
  rw [View.set_slice_whole, Rect.mem_set_unit]
  exact Iff.rfl

/-- Every index (n, co, p) of the output array lies in the block of point n, which is written back. -/
theorem cover (i : S256x64x225.Idx) :
    ∃ t : Fin cfg0.N, (cfg0.win 4).flush t = true ∧ i ∈ ((cfg0.win 4).blk t).view.set := by
  have h0 : (i 0).val < 256 := (i 0).isLt
  have h1 : (i 1).val < 64 := (i 1).isLt
  have h2 : (i 2).val < 225 := (i 2).isLt
  have hN : (i 0).val < cfg0.N := by rw [show cfg0.N = 256 from N_0]; exact h0
  obtain ⟨-, -, -, -, -, -, -, -, -, -, -, a40, a41, a42⟩ := idx_facts ⟨(i 0).val, hN⟩
  have a40' : win0_4.index ⟨(i 0).val, hN⟩ (0 : Fin 3) = (i 0).val := a40
  refine ⟨⟨(i 0).val, hN⟩, flush0_4 _, ?_⟩
  rw [mem_blk]
  intro a
  match a with
  | ⟨0, _⟩ =>
    show win0_4.index ⟨(i 0).val, hN⟩ (0 : Fin 3) * 1 ≤ (i 0).val
      ∧ (i 0).val < win0_4.index ⟨(i 0).val, hN⟩ (0 : Fin 3) * 1 + 1
    rw [a40']; omega
  | ⟨1, _⟩ =>
    show win0_4.index ⟨(i 0).val, hN⟩ (1 : Fin 3) * 64 ≤ (i 1).val
      ∧ (i 1).val < win0_4.index ⟨(i 0).val, hN⟩ (1 : Fin 3) * 64 + 64
    rw [a41]; omega
  | ⟨2, _⟩ =>
    show win0_4.index ⟨(i 0).val, hN⟩ (2 : Fin 3) * 225 ≤ (i 2).val
      ∧ (i 2).val < win0_4.index ⟨(i 0).val, hN⟩ (2 : Fin 3) * 225 + 225
    rw [a42]; omega

/-- THE OUTPUT ARRAY after the run: the array function of the arrays the region is entered with — every point writes
    back its block of that one function, and the blocks cover the array. -/
theorem mid (m : (ℓ : Loc nD τ sig) → Buf (Elt Ideal) ℓ) (c : Dev nD) :
    (dats (F := Ideal) m 0 c).arrAt 4 cfg0.N
      = Cert.Glu.refMid (V m c main_call0_v1) (V m c main_call0_v4) (V m c main_call0_v21) (V m c main_call0_v6) :=
  (dats m 0 c).arrAt_eq_of_cover 4 _ (fun t _ => flushed_eq m c t) cover

end Cert.ReferenceIdeal.Hand

end
-- ==== Proof.RefHost.lean ====
/-
  The reference program before its kernel region: the arrays the region is entered with, read index by index, and from
  them the region's output array as the column-by-column form of the gated convolution.

  Four arrays are re-laid before the region.
  * The image x [N, Cin, H, W] becomes X [N, H*Cin, W]:  X (n, 32 h + ci, w) = x (n, ci, h, w).
  * The stacked filters w [2 Cout, Cin, KH, KW] become Wg [KW, 2 Cout, KH*Cin]:  Wg (kw, c, 32 kh + ci) = w (c, ci, kh, kw).
  * The stacked biases b [2 Cout] become the column B (c, 0) = b c.
  * The selection matrices Sel [KW, W, Wo] are built from counters:  Sel (k, w, ow) = 1 if w = 2 ow + k, else 0.

  The region's tap column k for output (n, oh, ow) and filter c is
      sum over j < 96 of  Wg (k, c, j) * (sum over w < 32 of X (n, 64 oh + j, w) * Sel (k, w, ow)).
  The inner sum keeps the single term w = 2 ow + k (the others are products with 0), and 64 oh + j = 32 (2 oh + j / 32) + j % 32,
  so the term is  w (c, ci, kh, k) * x (n, ci, 2 oh + kh, 2 ow + k)  with kh = j / 32, ci = j % 32: the tap (kh, k, ci).
  The three columns added in order, plus the bias, are the column-by-column convolution plus the bias; the gate is the same
  function of the two branches on both sides; and the flat output position 15 oh + ow is the pair (oh, ow).
-/
import proofs.«176583_g2000106783720467_pallasbulk_1336_18_alg».proof.Proof.Mid
import proofs.«176583_g2000106783720467_pallasbulk_1336_18_alg».proof.Proof.Gen.ReferenceIdeal.Frame
import Idealize.ShloMosaic.Lib.Pipeline.Value
import Idealize.ShloMosaic.Lib.ValueLayout
import Idealize.ShloMosaic.Lib.IdealHost
import Idealize.ShloMosaic.Lib.StableHlo.Run

set_option maxRecDepth 16384

noncomputable section

open scoped BigOperators

namespace Cert.ReferenceIdeal.Hand

open Cert.ReferenceIdeal Cert.ReferenceIdeal.Gen
open Idealize.ShloMosaic Idealize.ShloMosaic.TcCoe Idealize.SL Idealize.SL.Sem
open Idealize.ShloMosaic.ValueIdx

open Cert.Glu (tap hi lo convCols colsForm refCol refAcc refMid rowOf colOf linCh gateCh gate)

/-! ## The sums: a selection matrix picks one column; a tap column is 96 taps -/

section Sums

variable (X : Cert.Glu.RX.Idx → EReal) (Wg : Cert.Glu.GW.Idx → EReal) (S : Cert.Glu.SEL.Idx → EReal) (B : Cert.Glu.BC.Idx → EReal)
  (wc : Cert.Glu.WSh.Idx → EReal) (bc : Cert.Glu.BSh.Idx → EReal) (x : Cert.Glu.XSh.Idx → EReal)

/-- A row of 32 entries weighed by a 0/1 column whose only 1 stands at position a is the row's entry at a:
    every other term is a product with 0. -/
theorem sum_mul_indicator (f : Fin 32 → EReal) (g : Fin 32 → EReal) (a : Fin 32)
    (hg : ∀ w : Fin 32, g w = if w.val = a.val then 1 else 0) : ∑ w : Fin 32, f w * g w = f a := by
  rw [Finset.sum_eq_single a]
  · rw [hg a, if_pos rfl, mul_one]
  · intro b _ hb
    rw [hg b, if_neg (fun h => hb (Fin.ext h)), mul_zero]
  · intro h
    exact absurd (Finset.mem_univ a) h

/-- One tap column of the reference: with the image re-laid so that slab position 64 oh + j holds image row 2 oh + hi j and
    channel lo j, the filters re-laid so that position j of tap column k holds the weight at (lo j, hi j, k), and selection
    matrix k's column ow holding its 1 at w = 2 ow + k, the column is the 96 taps (hi j, k, lo j). -/
theorem refCol_eq
    (hX : ∀ (n : Fin 256) (oh : Fin 15) (j : Fin 96) (w : Fin 32),
      X (ix3 n (⟨64 * oh.val + j.val, by omega⟩ : Fin 1024) w) = x (ix4 n (lo j) (⟨2 * oh.val + (hi j).val, by omega⟩ : Fin 32) w))
    (hW : ∀ (k : Fin 3) (c : Fin 128) (j : Fin 96), Wg (ix3 k c j) = wc (ix4 c (lo j) (hi j) k))
    (hS : ∀ (k : Fin 3) (w : Fin 32) (ow : Fin 15), S (ix3 k w ow) = if w.val = 2 * ow.val + k.val then 1 else 0)
    (n : Fin 256) (oh ow : Fin 15) (c : Fin 128) (k : Fin 3) :
    refCol X Wg S n oh ow c k = ∑ j : Fin 96, tap wc x n c oh ow (hi j) k (lo j) := by
  unfold refCol
  refine Finset.sum_congr rfl fun j _ => ?_
  rw [sum_mul_indicator (fun w => X (ix3 n (⟨64 * oh.val + j.val, by omega⟩ : Fin 1024) w)) (fun w => S (ix3 k w ow))
    (⟨2 * ow.val + k.val, by omega⟩ : Fin 32) (fun w => hS k w ow), hX, hW]
  rfl

/-- The three tap columns and the bias: the reference's accumulator is the column-by-column convolution plus the bias. -/
theorem refAcc_eq
    (hX : ∀ (n : Fin 256) (oh : Fin 15) (j : Fin 96) (w : Fin 32),
      X (ix3 n (⟨64 * oh.val + j.val, by omega⟩ : Fin 1024) w) = x (ix4 n (lo j) (⟨2 * oh.val + (hi j).val, by omega⟩ : Fin 32) w))
    (hW : ∀ (k : Fin 3) (c : Fin 128) (j : Fin 96), Wg (ix3 k c j) = wc (ix4 c (lo j) (hi j) k))
    (hS : ∀ (k : Fin 3) (w : Fin 32) (ow : Fin 15), S (ix3 k w ow) = if w.val = 2 * ow.val + k.val then 1 else 0)
    (hB : ∀ c : Fin 128, B (ix2 c (0 : Fin 1)) = bc (ix1 c))
    (n : Fin 256) (oh ow : Fin 15) (c : Fin 128) :
    refAcc X Wg S B n oh ow c = convCols wc x n c oh ow + bc (ix1 c) := by
  unfold refAcc convCols
  rw [refCol_eq X Wg S wc x hX hW hS, refCol_eq X Wg S wc x hX hW hS, refCol_eq X Wg S wc x hX hW hS, hB]

/-- The reference's output array [256, 64, 225] viewed [256, 64, 15, 15] (flat position 15 oh + ow) is the
    column-by-column form of the gated convolution. -/
theorem mid_eq_colsForm
    (hX : ∀ (n : Fin 256) (oh : Fin 15) (j : Fin 96) (w : Fin 32),
      X (ix3 n (⟨64 * oh.val + j.val, by omega⟩ : Fin 1024) w) = x (ix4 n (lo j) (⟨2 * oh.val + (hi j).val, by omega⟩ : Fin 32) w))
    (hW : ∀ (k : Fin 3) (c : Fin 128) (j : Fin 96), Wg (ix3 k c j) = wc (ix4 c (lo j) (hi j) k))
    (hS : ∀ (k : Fin 3) (w : Fin 32) (ow : Fin 15), S (ix3 k w ow) = if w.val = 2 * ow.val + k.val then 1 else 0)
    (hB : ∀ c : Fin 128, B (ix2 c (0 : Fin 1)) = bc (ix1 c))
    (h : Cert.Glu.RO.ShapeCasts Cert.Glu.OSh) :
    shapeCast Cert.Glu.OSh (refMid X Wg S B) h = colsForm wc bc x := by
  funext i
  obtain ⟨n, co, oh, ow, rfl⟩ : ∃ (n : Fin 256) (co : Fin 64) (oh ow : Fin 15), i = ix4 n co oh ow := ⟨i 0, i 1, i 2, i 3, eq_ix4 i⟩
  have hp : 15 * oh.val + ow.val < 225 := by omega
  refine (shapeCast_apply _ h (ix4 n co oh ow) (ix3 n co (⟨15 * oh.val + ow.val, hp⟩ : Fin 225)) ?_).trans ?_
  · rw [Shape.rowMajor_val_three, Shape.rowMajor_val_four]
    show (n.val * 64 + co.val) * 225 + (15 * oh.val + ow.val) = ((n.val * 64 + co.val) * 15 + oh.val) * 15 + ow.val
    omega
  · have hr : rowOf (⟨15 * oh.val + ow.val, hp⟩ : Fin 225) = oh := Fin.ext (by show (15 * oh.val + ow.val) / 15 = oh.val; omega)
    have hc : colOf (⟨15 * oh.val + ow.val, hp⟩ : Fin 225) = ow := Fin.ext (by show (15 * oh.val + ow.val) % 15 = ow.val; omega)
    show gate (F := Ideal) (refAcc X Wg S B n (rowOf ⟨15 * oh.val + ow.val, hp⟩) (colOf ⟨15 * oh.val + ow.val, hp⟩) (linCh co))
        (refAcc X Wg S B n (rowOf ⟨15 * oh.val + ow.val, hp⟩) (colOf ⟨15 * oh.val + ow.val, hp⟩) (gateCh co))
      = gate (F := Ideal) (convCols wc x n (linCh co) oh ow + bc (ix1 (linCh co))) (convCols wc x n (gateCh co) oh ow + bc (ix1 (gateCh co)))
    rw [hr, hc, refAcc_eq X Wg S B wc bc x hX hW hS hB, refAcc_eq X Wg S B wc bc x hX hW hS hB]

end Sums

/-! ## The four arrays the region is entered with, read at an index -/

section Layout

variable {α : Type}

/-- The image re-laid: the transpose swaps channel and row, T (n, h, ci, w) = x (n, ci, h, w), and the reshape joins (h, ci)
    into the position 32 h + ci.  Slab position 64 oh + j is 32 (2 oh + j / 32) + j % 32: row 2 oh + hi j, channel lo j. -/
theorem image_apply (x : S256x32x32x32.Idx → α) (hT : S256x32x32x32.Transposes [0, 2, 1, 3] S256x32x32x32)
    (hC : S256x32x32x32.ShapeCasts S256x1024x32) (n : Fin 256) (oh : Fin 15) (j : Fin 96) (w : Fin 32) :
    shapeCast S256x1024x32 (transpose S256x32x32x32 [0, 2, 1, 3] x hT) hC (ix3 n (⟨64 * oh.val + j.val, by omega⟩ : Fin 1024) w)
      = x (ix4 n (lo j) (⟨2 * oh.val + (hi j).val, by omega⟩ : Fin 32) w) := by
  refine (shapeCast_apply _ hC _ (ix4 n (⟨2 * oh.val + (hi j).val, by omega⟩ : Fin 32) (lo j) w) ?_).trans ?_
  · rw [Shape.rowMajor_val_four, Shape.rowMajor_val_three]
    show ((n.val * 32 + (2 * oh.val + j.val / 32)) * 32 + j.val % 32) * 32 + w.val = (n.val * 1024 + (64 * oh.val + j.val)) * 32 + w.val
    omega
  · exact transpose_apply _ x hT _ _ (fun b => match b with | ⟨0, _⟩ => rfl | ⟨1, _⟩ => rfl | ⟨2, _⟩ => rfl | ⟨3, _⟩ => rfl)

/-- The stacked filters re-laid: the transpose gives T (kw, c, kh, ci) = w (c, ci, kh, kw), and the reshape joins (kh, ci)
    into the position 32 kh + ci; so position j of tap column k of filter c holds the weight at (lo j, hi j, k). -/
theorem filters_apply (wc : S128x32x3x3.Idx → α) (hT : S128x32x3x3.Transposes [3, 0, 2, 1] S3x128x3x32)
    (hC : S3x128x3x32.ShapeCasts S3x128x96) (k : Fin 3) (c : Fin 128) (j : Fin 96) :
    shapeCast S3x128x96 (transpose S3x128x3x32 [3, 0, 2, 1] wc hT) hC (ix3 k c j) = wc (ix4 c (lo j) (hi j) k) := by
  refine (shapeCast_apply _ hC _ (ix4 k c (hi j) (lo j)) ?_).trans ?_
  · rw [Shape.rowMajor_val_four, Shape.rowMajor_val_three]
    show ((k.val * 128 + c.val) * 3 + j.val / 32) * 32 + j.val % 32 = (k.val * 128 + c.val) * 96 + j.val
    omega
  · exact transpose_apply _ wc hT _ _ (fun b => match b with | ⟨0, _⟩ => rfl | ⟨1, _⟩ => rfl | ⟨2, _⟩ => rfl | ⟨3, _⟩ => rfl)

/-- The stacked biases as a column: entry (c, 0) is bias c. -/
theorem biases_apply (b : S128.Idx → α) (hC : S128.ShapeCasts S128x1) (c : Fin 128) :
    shapeCast S128x1 b hC (ix2 c (0 : Fin 1)) = b (ix1 c) := by
  refine shapeCast_apply _ hC _ (ix1 c) ?_
  rw [Shape.rowMajor_val_one, Shape.rowMajor_val_two]
  show c.val = c.val * 1 + 0
  omega

/-- The three selection matrices as the host operations build them: the word w along the middle axis compared with the
    word 2 ow + k (ow along the last axis, doubled, plus k along the first), the comparison's bit turned into a float. -/
abbrev selTerm : S3x32x15.Idx → EReal :=
  uitofp (F := Ideal) .f32 (cmpi .eq
    (broadcastInDim S3x32x15 ![0, 1, 2] bcast_S1x32x1_S3x32x15_0_1_2 (broadcastInDim S1x32x1 ![1] bcast_S32_S1x32x1_1 (iotaInDim S32 32 0)))
    (broadcastInDim S3x32x15 ![0, 1, 2] bcast_S3x1x15_S3x32x15_0_1_2
      (addi
        (broadcastInDim S3x1x15 ![0, 1, 2] bcast_S1x1x15_S3x1x15_0_1_2
          (muli (broadcastInDim S1x1x15 ![2] bcast_S15_S1x1x15_2 (iotaInDim S15 32 0)) (broadcastInDim S1x1x15 ![] bcast_S_S1x1x15 (constantI S_ 32 2#32))))
        (broadcastInDim S3x1x15 ![0, 1, 2] bcast_S3x1x1_S3x1x15_0_1_2 (broadcastInDim S3x1x1 ![0] bcast_S3_S3x1x1_0 (iotaInDim S3 32 0))))))

/-- On 32-bit words the numbers below 64 neither wrap nor collide: the word of w is the word of ow doubled plus the word of k
    exactly when w = 2 ow + k. -/
theorem word_eq_iff (k : Fin 3) (w : Fin 32) (ow : Fin 15) :
    BitVec.ofNat 32 w.val = IntOp.addi (IntOp.muli (BitVec.ofNat 32 ow.val) 2#32) (BitVec.ofNat 32 k.val) ↔ w.val = 2 * ow.val + k.val := by
  unfold IntOp.addi IntOp.muli
  rw [← BitVec.toNat_inj]
  simp only [BitVec.toNat_add, BitVec.toNat_mul, BitVec.toNat_ofNat]
  have := w.isLt; have := ow.isLt; have := k.isLt
  omega

/-- Selection matrix k has its 1 in column ow at row w = 2 ow + k, and 0 elsewhere. -/
theorem selTerm_apply (k : Fin 3) (w : Fin 32) (ow : Fin 15) :
    selTerm (ix3 k w ow) = if w.val = 2 * ow.val + k.val then 1 else 0 := by
  have e : selTerm (ix3 k w ow)
      = (((IntOp.cmpi .eq (BitVec.ofNat 32 w.val) (IntOp.addi (IntOp.muli (BitVec.ofNat 32 ow.val) 2#32) (BitVec.ofNat 32 k.val))).toNat : ℝ) : EReal) := rfl
  rw [e]
  by_cases h : w.val = 2 * ow.val + k.val
  · rw [if_pos h, IntOp.cmpi_eq.2 ((word_eq_iff k w ow).2 h)]
    show (((1 : ℕ) : ℝ) : EReal) = 1
    norm_num
  · rw [if_neg h, eq_zero_of_ne_one (fun h1 => h ((word_eq_iff k w ow).1 (IntOp.cmpi_eq.1 h1)))]
    show (((0 : ℕ) : ℝ) : EReal) = 0
    norm_num

end Layout

/-! ## The arrays after the host operations, and the claim -/

section Host

variable (m : (ℓ : Loc nD τ sig) → Buf (Elt Ideal) ℓ) (c : Dev nD)

/-- The image's array when the region is entered: the transpose, then the reshape, of the image argument. -/
theorem image_eq :
    (V m c main_call0_v1 : S256x1024x32.Idx → EReal)
      = shapeCast S256x1024x32 (transpose S256x32x32x32 [0, 2, 1, 3] (m ((c : Thread nD τ).loc main_arg0)) transposes_S256x32x32x32_S256x32x32x32_0_2_1_3)
          shapeCasts_S256x32x32x32_S256x1024x32 := by
  show StableHlo.after hostOps0 (fun b => m (c, b)) (Proc.devRef .tc main_call0_v1) = _
  after_results
  rfl

/-- The filters' array: the two filter arguments stacked, transposed, reshaped. -/
theorem filters_eq :
    (V m c main_call0_v4 : S3x128x96.Idx → EReal)
      = shapeCast S3x128x96 (transpose S3x128x3x32 [3, 0, 2, 1]
          (concatenate S128x32x3x3 0 [⟨S64x32x3x3, m ((c : Thread nD τ).loc main_arg1)⟩, ⟨S64x32x3x3, m ((c : Thread nD τ).loc main_arg3)⟩] concatenates_S64x32x3x3_S64x32x3x3_S128x32x3x3_d0)
          transposes_S128x32x3x3_S3x128x3x32_3_0_2_1) shapeCasts_S3x128x3x32_S3x128x96 := by
  show StableHlo.after hostOps0 (fun b => m (c, b)) (Proc.devRef .tc main_call0_v4) = _
  after_results
  rfl

/-- The biases' array: the two bias arguments stacked, reshaped to a column. -/
theorem biases_eq :
    (V m c main_call0_v6 : S128x1.Idx → EReal)
      = shapeCast S128x1 (concatenate S128 0 [⟨S64, m ((c : Thread nD τ).loc main_arg2)⟩, ⟨S64, m ((c : Thread nD τ).loc main_arg4)⟩] concatenates_S64_S64_S128_d0)
          shapeCasts_S128_S128x1 := by
  show StableHlo.after hostOps0 (fun b => m (c, b)) (Proc.devRef .tc main_call0_v6) = _
  after_results
  rfl

/-- The selection matrices' array: built from iotas alone, whatever the arguments. -/
theorem sel_eq : (V m c main_call0_v21 : S3x32x15.Idx → EReal) = selTerm := by
  show StableHlo.after hostOps0 (fun b => m (c, b)) (Proc.devRef .tc main_call0_v21) = _
  after_results
  rfl

/-- The reference's output array in its middle form, viewed [256, 64, 15, 15], is the column-by-column form of the gated
    convolution of the image by the stacked filters and biases. -/
theorem host (m : (ℓ : Loc nD τ sig) → Buf (Elt Ideal) ℓ) (c : Dev nD) :
    shapeCast S256x64x15x15 (Cert.Glu.refMid (V m c main_call0_v1) (V m c main_call0_v4) (V m c main_call0_v21) (V m c main_call0_v6)) shapeCasts_S256x64x225_S256x64x15x15
      = Cert.Glu.colsForm
          (concatenate S128x32x3x3 0 [⟨S64x32x3x3, m ((c : Thread nD τ).loc main_arg1)⟩, ⟨S64x32x3x3, m ((c : Thread nD τ).loc main_arg3)⟩] concatenates_S64x32x3x3_S64x32x3x3_S128x32x3x3_d0)
          (concatenate S128 0 [⟨S64, m ((c : Thread nD τ).loc main_arg2)⟩, ⟨S64, m ((c : Thread nD τ).loc main_arg4)⟩] concatenates_S64_S64_S128_d0)
          (m ((c : Thread nD τ).loc main_arg0)) :=
  mid_eq_colsForm _ _ _ _ _ _ _
    (fun n oh j w => (congrFun (image_eq m c) _).trans (image_apply _ _ _ n oh j w))
    (fun k c' j => (congrFun (filters_eq m c) _).trans (filters_apply _ _ _ k c' j))
    (fun k w ow => (congrFun (sel_eq m c) _).trans (selTerm_apply k w ow))
    (fun c' => (congrFun (biases_eq m c) _).trans (biases_apply _ _ c'))
    shapeCasts_S256x64x225_S256x64x15x15

end Host

end Cert.ReferenceIdeal.Hand

end
-- ==== Proof.RefValue.lean ====
/-
  The reference program's run with its result named: the closing reshape applied to the region's output array, which
  is the middle form of the arrays the region was entered with, which is the specification's column form of the
  stacked filters, the stacked biases and the image.
-/
import proofs.«176583_g2000106783720467_pallasbulk_1336_18_alg».proof.Proof.RefBlocks
import proofs.«176583_g2000106783720467_pallasbulk_1336_18_alg».proof.Proof.RefHost

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem

variable (m : (ℓ : Loc nD τ sig) → Buf (Elt Ideal) ℓ) (ρ : Dev nD → PrngReg)

/-- The result buffer after the closing reshape: the region's output array [256,64,225] viewed [256,64,15,15]. -/
theorem tail_main_v0 (c : Dev nD) :
    (Pipeline.afterTail₀ cfgs (dats m) 0 (V0 m) [hostOps1] c main_v0 : S256x64x15x15.Idx → EReal)
      = shapeCast S256x64x15x15 ((dats m 0 c).arrAt 4 cfg0.N) shapeCasts_S256x64x225_S256x64x15x15 := by
  unfold Pipeline.afterTail₀
  show StableHlo.after hostOps1 _ (Proc.devRef .tc main_v0) = _
  after_results
  have e := Pipeline.withArrays_arr spec0 launch0.win.arr_inj c (V0 m c) (fun w => (dats m 0 c).arrAt w cfg0.N) 4
  show shapeCast S256x64x15x15
      (Pipeline.withArrays spec0 c (V0 m c) (fun w => (dats m 0 c).arrAt w cfg0.N) (Proc.devRef .tc (Pipeline.arrRef spec0 4)))
      shapeCasts_S256x64x225_S256x64x15x15 = _
  rw [e]

/-- The specification's column form of this run's arguments on core c. -/
abbrev result (c : Dev nD) : Cert.Glu.OSh.Idx → EReal :=
  Cert.Glu.colsForm
    (concatenate S128x32x3x3 0 [⟨S64x32x3x3, m ((c : Thread nD τ).loc main_arg1)⟩, ⟨S64x32x3x3, m ((c : Thread nD τ).loc main_arg3)⟩] concatenates_S64x32x3x3_S64x32x3x3_S128x32x3x3_d0)
    (concatenate S128 0 [⟨S64, m ((c : Thread nD τ).loc main_arg2)⟩, ⟨S64, m ((c : Thread nD τ).loc main_arg4)⟩] concatenates_S64_S64_S128_d0)
    (m ((c : Thread nD τ).loc main_arg0))

/-- THE REFERENCE PROGRAM'S RUN AT IDEAL: it terminates, its result is the column form, its arguments are unchanged. -/
theorem run  : θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans
        ((tail_main_v0 m c).trans (by rw [mid m c]; exact host m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.ReferenceIdeal.Hand

end
-- ==== Proof.lean ====
/-
  The certificate of the gated convolution kernel against its reference.

  Both programs compute, for every image n, output channel co < 64 and output position (oh, ow) < 15 x 15,
      (S co + b co) * gate (S (64 + co) + b (64 + co)),
  S c the sum over the 3 x 3 x 32 taps of filter c against the image's window at stride 2.  The kernel lays the
  batch along the lanes and adds the taps row by row of the window; the reference works image by image, picks the
  stride-2 columns by products with 0/1 matrices and adds the taps column by column.  On the extended reals a product
  with a 0/1 matrix picks exactly one entry (x * 0 = 0 and x * 1 = x for every x), and the two orders of adding the
  288 taps agree because addition there is commutative and associative: nothing is asked of the inputs but what the
  frames ask.

  The three frames: the reference's is generated; the kernel's two (at the bit-exact instance and at the ideal one)
  are proved in KernelRun / KernelIdealRun over the library's launch of a program given as host operations, one
  kernel region, host operations — the region reads one array through two windows, each holding half of its share.
  `preserves` has no rewrite to state.  `algebraic` joins the two programs' runs at Ideal, each with its result named
  (KernelIdealValue, RefValue), by the equality of the two forms (Spec).
-/
import proofs.«176583_g2000106783720467_pallasbulk_1336_18_alg».proof.Defs
import proofs.«176583_g2000106783720467_pallasbulk_1336_18_alg».proof.Proof.Gen.Kernel
import proofs.«176583_g2000106783720467_pallasbulk_1336_18_alg».proof.Proof.Gen.KernelIdeal
import proofs.«176583_g2000106783720467_pallasbulk_1336_18_alg».proof.Proof.Gen.ReferenceIdeal
import proofs.«176583_g2000106783720467_pallasbulk_1336_18_alg».proof.Proof.Gen.ReferenceIdeal.Frame
import proofs.«176583_g2000106783720467_pallasbulk_1336_18_alg».proof.Proof.Gen.Pre_finite_inputs
import proofs.«176583_g2000106783720467_pallasbulk_1336_18_alg».proof.Proof.KernelRun
import proofs.«176583_g2000106783720467_pallasbulk_1336_18_alg».proof.Proof.KernelIdealValue
import proofs.«176583_g2000106783720467_pallasbulk_1336_18_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ => Cert.ReferenceIdeal.Gen.frame m ρ

/-- The ideal pass rewrote nothing: there is nothing to preserve. -/
theorem preserves : Cert.preserves_Kernel_KernelIdeal := trivial

/-- At Ideal the kernel's result is the row form and the reference's the column form of arguments that agree: one
    function. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  unfold Cert.ReferenceIdeal.Hand.result Cert.KernelIdeal.Hand.result
  rw [(hagree c).1, (hagree c).2.1, (hagree c).2.2.1, (hagree c).2.2.2.1, (hagree c).2.2.2.2]
  exact (Cert.Glu.rowsForm_eq_colsForm _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
